-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x2 : Shape := ⟨2, ![4096, 2]⟩
abbrev S8x11264x2048 : Shape := ⟨3, ![8, 11264, 2048]⟩
abbrev S8x2048x5632 : Shape := ⟨3, ![8, 2048, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x11264x2048 : S_.BroadcastsInDim S8x11264x2048 (![] : Fin 0 → Fin S8x11264x2048.rank)
  reducesTo_S8x11264x2048_S_d0_1_2 : S8x11264x2048.ReducesTo [0, 1, 2] S_
  bcast_S_S8x2048x5632 : S_.BroadcastsInDim S8x2048x5632 (![] : Fin 0 → Fin S8x2048x5632.rank)
  reducesTo_S8x2048x5632_S_d0_1_2 : S8x2048x5632.ReducesTo [0, 1, 2] S_

variable [Facts]

def fn_part1 {F : FTy → Type} [FloatOps F] (main_v13 : IVec S_ 1) (main_v16 : IVec S8x2048x5632 1) : IVec S_ 1 :=
  let main_c_5 : IVec S_ 1 := constantI S_ 1 1#1
  let main_v17 : IVec S_ 1 := (fun x v => Host.reduce IntOp.andi x v reducesTo_S8x2048x5632_S_d0_1_2 h_S_) main_v16 main_c_5
  let main_v18 : IVec S_ 1 := andi main_v13 main_v17
  main_v18

def fn {F : FTy → Type} [FloatOps F] (main_arg0 : FVec F S4096x2048 .f32) (main_arg1 : IVec S4096x2 32) (main_arg2 : FVec F S4096x2 .f32) (main_arg3 : FVec F S8x11264x2048 .f32) (main_arg4 : FVec F S8x2048x5632 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x11264x2048 .f32 := Host.absf main_arg3
  let main_cst_2 : FVec F S_ .f32 := constant S_ .f32 0x7F800000#32
  let main_v10 : FVec F S8x11264x2048 .f32 := broadcastInDim S8x11264x2048 ![] bcast_S_S8x11264x2048 main_cst_2
  let main_v11 : IVec S8x11264x2048 1 := cmpf .olt main_v9 main_v10
  let main_c_3 : IVec S_ 1 := constantI S_ 1 1#1
  let main_v12 : IVec S_ 1 := (fun x v => Host.reduce IntOp.andi x v reducesTo_S8x11264x2048_S_d0_1_2 h_S_) main_v11 main_c_3
  let main_v13 : IVec S_ 1 := andi main_v8 main_v12
  let main_v14 : FVec F S8x2048x5632 .f32 := Host.absf main_arg4
  let main_cst_4 : FVec F S_ .f32 := constant S_ .f32 0x7F800000#32
  let main_v15 : FVec F S8x2048x5632 .f32 := broadcastInDim S8x2048x5632 ![] bcast_S_S8x2048x5632 main_cst_4
  let main_v16 : IVec S8x2048x5632 1 := cmpf .olt main_v14 main_v15
  fn_part1 (F := F) main_v13 main_v16
-- ==== Kernel.lean ====
abbrev S4096x2048 : Shape := ⟨2, ![4096, 2048]⟩
abbrev S4096x2 : Shape := ⟨2, ![4096, 2]⟩
abbrev S8x11264x2048 : Shape := ⟨3, ![8, 11264, 2048]⟩
abbrev S8x2048x5632 : Shape := ⟨3, ![8, 2048, 5632]⟩
abbrev S_ : Shape := ⟨0, ![]⟩
abbrev S4096x8 : Shape := ⟨2, ![4096, 8]⟩
abbrev S4096x1 : Shape := ⟨2, ![4096, 1]⟩
abbrev S4096 : Shape := ⟨1, ![4096]⟩
abbrev S1x8 : Shape := ⟨2, ![1, 8]⟩
abbrev S512x2048 : Shape := ⟨2, ![512, 2048]⟩
abbrev S1x128x2048 : Shape := ⟨3, ![1, 128, 2048]⟩
abbrev S1x2048x128 : Shape := ⟨3, ![1, 2048, 128]⟩
abbrev S512x8 : Shape := ⟨2, ![512, 8]⟩
abbrev S512x1 : Shape := ⟨2, ![512, 1]⟩
abbrev S512 : Shape := ⟨1, ![512]⟩
abbrev S128x2048 : Shape := ⟨2, ![128, 2048]⟩
abbrev S512x128 : Shape := ⟨2, ![512, 128]⟩
abbrev S2048x128 : Shape := ⟨2, ![2048, 128]⟩

abbrev nBuf : Space → Nat
  | .hbm => 32
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2, .i32⟩
  | .hbm, ⟨2, _⟩ => ⟨S4096x2, .f32⟩
  | .hbm, ⟨3, _⟩ => ⟨S8x11264x2048, .f32⟩
  | .hbm, ⟨4, _⟩ => ⟨S8x2048x5632, .f32⟩
  | .hbm, ⟨5, _⟩ => ⟨S_, .f32⟩
  | .hbm, ⟨6, _⟩ => ⟨S4096x8, .f32⟩
  | .hbm, ⟨7, _⟩ => ⟨S4096x1, .i32⟩
  | .hbm, ⟨8, _⟩ => ⟨S4096, .i32⟩
  | .hbm, ⟨9, _⟩ => ⟨S4096x1, .i32⟩
  | .hbm, ⟨10, _⟩ => ⟨S1x8, .i32⟩
  | .hbm, ⟨11, _⟩ => ⟨S4096x8, .i32⟩
  | .hbm, ⟨12, _⟩ => ⟨S4096x8, .i32⟩
  | .hbm, ⟨13, _⟩ => ⟨S4096x8, .i1⟩
  | .hbm, ⟨14, _⟩ => ⟨S4096x8, .f32⟩
  | .hbm, ⟨15, _⟩ => ⟨S4096x1, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x1, .i32⟩
  | .hbm, ⟨20, _⟩ => ⟨S4096, .i32⟩
  | .hbm, ⟨21, _⟩ => ⟨S4096x1, .i32⟩
  | .hbm, ⟨22, _⟩ => ⟨S1x8, .i32⟩
  | .hbm, ⟨23, _⟩ => ⟨S4096x8, .i32⟩
  | .hbm, ⟨24, _⟩ => ⟨S4096x8, .i32⟩
  | .hbm, ⟨25, _⟩ => ⟨S4096x8, .i1⟩
  | .hbm, ⟨26, _⟩ => ⟨S4096x8, .f32⟩
  | .hbm, ⟨27, _⟩ => ⟨S4096x1, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x2048x128, .f32⟩
  | .local _ .vmem, ⟨7, _⟩ => ⟨S1x2048x128, .f32⟩
  | .local _ .vmem, ⟨8, _⟩ => ⟨S512x8, .f32⟩
  | .local _ .vmem, ⟨9, _⟩ => ⟨S512x8, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 44], ![false, false, false]⟩

def k0_cond3 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c43_i32 : BitVec 32 := 43#32
  let v35 : BitVec 1 := Scalar.cmpi .eq arg2 c43_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi arg2 c44_i32
  let c0_i32 : BitVec 32 := 0#32
  let c0_i32_0 : BitVec 32 := 0#32
  ![arg1.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S4096x8 : S_.BroadcastsInDim S4096x8 (![] : Fin 0 → Fin S4096x8.rank)
  slices_S4096x2_S4096x1_0_0 : S4096x2.Slices ![0, 0] S4096x1
  shapeCasts_S4096x1_S4096 : S4096x1.ShapeCasts S4096
  bcast_S4096_S4096x1_0 : S4096.BroadcastsInDim S4096x1 (![0] : Fin 1 → Fin S4096x1.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  slices_S4096x2_S4096x1_0_1 : S4096x2.Slices ![0, 1] S4096x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S512x8_d1_w32 : S512x8.Iotas .tc 32 [1]
  inb_S512x8_S512x8_0_0 : ∀ a, (![0, 0] : Fin 2 → Nat) a + S512x8.size a ≤ S512x8.size a
  h_S512x8 : 0 < S512x8.numel
  shapeCasts_S512x8_S512x8 : S512x8.ShapeCasts S512x8
  reduces_S512x8_S512 : S512x8.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S512x1_S512x2048 : S512x1.Broadcasts S512x2048
  dot_S512x2048_S128x2048_S512x128_1_1_0_0_n_n_wf : DotDims.WF S512x2048 S128x2048 S512x128 [1] [1] [0] [0] [] []
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S8x11264x2048.size a
  hwx0_1 : ∀ i : grid0.Coords, EltTy.bits .f32 = 32 ∨ (Rect.block (s := S8x11264x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S8x11264x2048.size a
  hwx0_2 : ∀ i : grid0.Coords, EltTy.bits .f32 = 32 ∨ (Rect.block (s := S8x11264x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x5632.size a
  hwx0_3 : ∀ i : grid0.Coords, EltTy.bits .f32 = 32 ∨ (Rect.block (s := S8x2048x5632) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S4096x8.size a
  hwx0_4 : ∀ i : grid0.Coords, EltTy.bits .f32 = 32 ∨ (Rect.block (s := S4096x8) S512x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)

variable [Facts₀]

def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096x2 : Shape := ⟨2, ![4096, 2]⟩
abbrev S8x11264x2048 : Shape := ⟨3, ![8, 11264, 2048]⟩
abbrev S8x2048x5632 : Shape := ⟨3, ![8, 2048, 5632]⟩
abbrev S_ : Shape := ⟨0, ![]⟩
abbrev S4096 : Shape := ⟨1, ![4096]⟩
abbrev S1x11264x2048 : Shape := ⟨3, ![1, 11264, 2048]⟩
abbrev S11264x2048 : Shape := ⟨2, ![11264, 2048]⟩
abbrev S2048x11264 : Shape := ⟨2, ![2048, 11264]⟩
abbrev S4096x11264 : Shape := ⟨2, ![4096, 11264]⟩
abbrev S4096x5632 : Shape := ⟨2, ![4096, 5632]⟩
abbrev S1x2048x5632 : Shape := ⟨3, ![1, 2048, 5632]⟩
abbrev S2048x5632 : Shape := ⟨2, ![2048, 5632]⟩
abbrev S5632x2048 : Shape := ⟨2, ![5632, 2048]⟩
abbrev S4096x1 : Shape := ⟨2, ![4096, 1]⟩

abbrev nBuf : Space → Nat
  | .hbm => 271
  | .vmem => 0
  | .smem => 0
  | _ => 0

abbrev hbmTy0_0 (i : Nat) : BufTy := match i % 128 with
  | 0 => ⟨S4096x2048, .f32⟩
  | 1 => ⟨S4096x2, .i32⟩
  | 2 => ⟨S4096x2, .f32⟩
  | 3 => ⟨S8x11264x2048, .f32⟩
  | 4 => ⟨S8x2048x5632, .f32⟩
  | 5 => ⟨S_, .f32⟩
  | 6 => ⟨S4096x2048, .f32⟩
  | 7 => ⟨S_, .i32⟩
  | 8 => ⟨S4096x2, .i32⟩
  | 9 => ⟨S4096x2, .i1⟩
  | 10 => ⟨S_, .f32⟩
  | 11 => ⟨S_, .f32⟩
  | 12 => ⟨S4096x2, .f32⟩
  | 13 => ⟨S4096x2, .f32⟩
  | 14 => ⟨S_, .f32⟩
  | 15 => ⟨S4096, .f32⟩
  | 16 => ⟨S1x11264x2048, .f32⟩
  | 17 => ⟨S11264x2048, .f32⟩
  | 18 => ⟨S2048x11264, .f32⟩
  | 19 => ⟨S4096x11264, .f32⟩
  | 20 => ⟨S4096x5632, .f32⟩
  | 21 => ⟨S4096x5632, .f32⟩
  | 22 => ⟨S4096x5632, .f32⟩
  | 23 => ⟨S4096x5632, .f32⟩
  | 24 => ⟨S_, .f32⟩
  | 25 => ⟨S4096x5632, .f32⟩
  | 26 => ⟨S4096x5632, .f32⟩
  | 27 => ⟨S_, .f32⟩
  | 28 => ⟨S4096x5632, .f32⟩
  | 29 => ⟨S4096x5632, .f32⟩
  | 30 => ⟨S4096x5632, .f32⟩
  | 31 => ⟨S4096x5632, .f32⟩
  | 32 => ⟨S1x2048x5632, .f32⟩
  | 33 => ⟨S2048x5632, .f32⟩
  | 34 => ⟨S5632x2048, .f32⟩
  | 35 => ⟨S4096x2048, .f32⟩
  | 36 => ⟨S4096x1, .f32⟩
  | 37 => ⟨S4096x2048, .f32⟩
  | 38 => ⟨S4096x2048, .f32⟩
  | 39 => ⟨S4096x2048, .f32⟩
  | 40 => ⟨S_, .i32⟩
  | 41 => ⟨S4096x2, .i32⟩
  | 42 => ⟨S4096x2, .i1⟩
  | 43 => ⟨S_, .f32⟩
  | 44 => ⟨S_, .f32⟩
  | 45 => ⟨S4096x2, .f32⟩
  | 46 => ⟨S4096x2, .f32⟩
  | 47 => ⟨S_, .f32⟩
  | 48 => ⟨S4096, .f32⟩
  | 49 => ⟨S1x11264x2048, .f32⟩
  | 50 => ⟨S11264x2048, .f32⟩
  | 51 => ⟨S2048x11264, .f32⟩
  | 52 => ⟨S4096x11264, .f32⟩
  | 53 => ⟨S4096x5632, .f32⟩
  | 54 => ⟨S4096x5632, .f32⟩
  | 55 => ⟨S4096x5632, .f32⟩
  | 56 => ⟨S4096x5632, .f32⟩
  | 57 => ⟨S_, .f32⟩
  | 58 => ⟨S4096x5632, .f32⟩
  | 59 => ⟨S4096x5632, .f32⟩
  | 60 => ⟨S_, .f32⟩
  | 61 => ⟨S4096x5632, .f32⟩
  | 62 => ⟨S4096x5632, .f32⟩
  | 63 => ⟨S4096x5632, .f32⟩
  | 64 => ⟨S4096x5632, .f32⟩
  | 65 => ⟨S1x2048x5632, .f32⟩
  | 66 => ⟨S2048x5632, .f32⟩
  | 67 => ⟨S5632x2048, .f32⟩
  | 68 => ⟨S4096x2048, .f32⟩
  | 69 => ⟨S4096x1, .f32⟩
  | 70 => ⟨S4096x2048, .f32⟩
  | 71 => ⟨S4096x2048, .f32⟩
  | 72 => ⟨S4096x2048, .f32⟩
  | 73 => ⟨S_, .i32⟩
  | 74 => ⟨S4096x2, .i32⟩
  | 75 => ⟨S4096x2, .i1⟩
  | 76 => ⟨S_, .f32⟩
  | 77 => ⟨S_, .f32⟩
  | 78 => ⟨S4096x2, .f32⟩
  | 79 => ⟨S4096x2, .f32⟩
  | 80 => ⟨S_, .f32⟩
  | 81 => ⟨S4096, .f32⟩
  | 82 => ⟨S1x11264x2048, .f32⟩
  | 83 => ⟨S11264x2048, .f32⟩
  | 84 => ⟨S2048x11264, .f32⟩
  | 85 => ⟨S4096x11264, .f32⟩
  | 86 => ⟨S4096x5632, .f32⟩
  | 87 => ⟨S4096x5632, .f32⟩
  | 88 => ⟨S4096x5632, .f32⟩
  | 89 => ⟨S4096x5632, .f32⟩
  | 90 => ⟨S_, .f32⟩
  | 91 => ⟨S4096x5632, .f32⟩
  | 92 => ⟨S4096x5632, .f32⟩
  | 93 => ⟨S_, .f32⟩
  | 94 => ⟨S4096x5632, .f32⟩
  | 95 => ⟨S4096x5632, .f32⟩
  | 96 => ⟨S4096x5632, .f32⟩
  | 97 => ⟨S4096x5632, .f32⟩
  | 98 => ⟨S1x2048x5632, .f32⟩
  | 99 => ⟨S2048x5632, .f32⟩
  | 100 => ⟨S5632x2048, .f32⟩
  | 101 => ⟨S4096x2048, .f32⟩
  | 102 => ⟨S4096x1, .f32⟩
  | 103 => ⟨S4096x2048, .f32⟩
  | 104 => ⟨S4096x2048, .f32⟩
  | 105 => ⟨S4096x2048, .f32⟩
  | 106 => ⟨S_, .i32⟩
  | 107 => ⟨S4096x2, .i32⟩
  | 108 => ⟨S4096x2, .i1⟩
  | 109 => ⟨S_, .f32⟩
  | 110 => ⟨S_, .f32⟩
  | 111 => ⟨S4096x2, .f32⟩
  | 112 => ⟨S4096x2, .f32⟩
  | 113 => ⟨S_, .f32⟩
  | 114 => ⟨S4096, .f32⟩
  | 115 => ⟨S1x11264x2048, .f32⟩
  | 116 => ⟨S11264x2048, .f32⟩
  | 117 => ⟨S2048x11264, .f32⟩
  | 118 => ⟨S4096x11264, .f32⟩
  | 119 => ⟨S4096x5632, .f32⟩
  | 120 => ⟨S4096x5632, .f32⟩
  | 121 => ⟨S4096x5632, .f32⟩
  | 122 => ⟨S4096x5632, .f32⟩
  | 123 => ⟨S_, .f32⟩
  | 124 => ⟨S4096x5632, .f32⟩
  | 125 => ⟨S4096x5632, .f32⟩
  | 126 => ⟨S_, .f32⟩
  | 127 => ⟨S4096x5632, .f32⟩
  | _ => ⟨S4096x2048, .f32⟩

abbrev hbmTy0_1 (i : Nat) : BufTy := match i % 128 with
  | 0 => ⟨S4096x5632, .f32⟩
  | 1 => ⟨S4096x5632, .f32⟩
  | 2 => ⟨S4096x5632, .f32⟩
  | 3 => ⟨S1x2048x5632, .f32⟩
  | 4 => ⟨S2048x5632, .f32⟩
  | 5 => ⟨S5632x2048, .f32⟩
  | 6 => ⟨S4096x2048, .f32⟩
  | 7 => ⟨S4096x1, .f32⟩
  | 8 => ⟨S4096x2048, .f32⟩
  | 9 => ⟨S4096x2048, .f32⟩
  | 10 => ⟨S4096x2048, .f32⟩
  | 11 => ⟨S_, .i32⟩
  | 12 => ⟨S4096x2, .i32⟩
  | 13 => ⟨S4096x2, .i1⟩
  | 14 => ⟨S_, .f32⟩
  | 15 => ⟨S_, .f32⟩
  | 16 => ⟨S4096x2, .f32⟩
  | 17 => ⟨S4096x2, .f32⟩
  | 18 => ⟨S_, .f32⟩
  | 19 => ⟨S4096, .f32⟩
  | 20 => ⟨S1x11264x2048, .f32⟩
  | 21 => ⟨S11264x2048, .f32⟩
  | 22 => ⟨S2048x11264, .f32⟩
  | 23 => ⟨S4096x11264, .f32⟩
  | 24 => ⟨S4096x5632, .f32⟩
  | 25 => ⟨S4096x5632, .f32⟩
  | 26 => ⟨S4096x5632, .f32⟩
  | 27 => ⟨S4096x5632, .f32⟩
  | 28 => ⟨S_, .f32⟩
  | 29 => ⟨S4096x5632, .f32⟩
  | 30 => ⟨S4096x5632, .f32⟩
  | 31 => ⟨S_, .f32⟩
  | 32 => ⟨S4096x5632, .f32⟩
  | 33 => ⟨S4096x5632, .f32⟩
  | 34 => ⟨S4096x5632, .f32⟩
  | 35 => ⟨S4096x5632, .f32⟩
  | 36 => ⟨S1x2048x5632, .f32⟩
  | 37 => ⟨S2048x5632, .f32⟩
  | 38 => ⟨S5632x2048, .f32⟩
  | 39 => ⟨S4096x2048, .f32⟩
  | 40 => ⟨S4096x1, .f32⟩
  | 41 => ⟨S4096x2048, .f32⟩
  | 42 => ⟨S4096x2048, .f32⟩
  | 43 => ⟨S4096x2048, .f32⟩
  | 44 => ⟨S_, .i32⟩
  | 45 => ⟨S4096x2, .i32⟩
  | 46 => ⟨S4096x2, .i1⟩
  | 47 => ⟨S_, .f32⟩
  | 48 => ⟨S_, .f32⟩
  | 49 => ⟨S4096x2, .f32⟩
  | 50 => ⟨S4096x2, .f32⟩
  | 51 => ⟨S_, .f32⟩
  | 52 => ⟨S4096, .f32⟩
  | 53 => ⟨S1x11264x2048, .f32⟩
  | 54 => ⟨S11264x2048, .f32⟩
  | 55 => ⟨S2048x11264, .f32⟩
  | 56 => ⟨S4096x11264, .f32⟩
  | 57 => ⟨S4096x5632, .f32⟩
  | 58 => ⟨S4096x5632, .f32⟩
  | 59 => ⟨S4096x5632, .f32⟩
  | 60 => ⟨S4096x5632, .f32⟩
  | 61 => ⟨S_, .f32⟩
  | 62 => ⟨S4096x5632, .f32⟩
  | 63 => ⟨S4096x5632, .f32⟩
  | 64 => ⟨S_, .f32⟩
  | 65 => ⟨S4096x5632, .f32⟩
  | 66 => ⟨S4096x5632, .f32⟩
  | 67 => ⟨S4096x5632, .f32⟩
  | 68 => ⟨S4096x5632, .f32⟩
  | 69 => ⟨S1x2048x5632, .f32⟩
  | 70 => ⟨S2048x5632, .f32⟩
  | 71 => ⟨S5632x2048, .f32⟩
  | 72 => ⟨S4096x2048, .f32⟩
  | 73 => ⟨S4096x1, .f32⟩
  | 74 => ⟨S4096x2048, .f32⟩
  | 75 => ⟨S4096x2048, .f32⟩
  | 76 => ⟨S4096x2048, .f32⟩
  | 77 => ⟨S_, .i32⟩
  | 78 => ⟨S4096x2, .i32⟩
  | 79 => ⟨S4096x2, .i1⟩
  | 80 => ⟨S_, .f32⟩
  | 81 => ⟨S_, .f32⟩
  | 82 => ⟨S4096x2, .f32⟩
  | 83 => ⟨S4096x2, .f32⟩
  | 84 => ⟨S_, .f32⟩
  | 85 => ⟨S4096, .f32⟩
  | 86 => ⟨S1x11264x2048, .f32⟩
  | 87 => ⟨S11264x2048, .f32⟩
  | 88 => ⟨S2048x11264, .f32⟩
  | 89 => ⟨S4096x11264, .f32⟩
  | 90 => ⟨S4096x5632, .f32⟩
  | 91 => ⟨S4096x5632, .f32⟩
  | 92 => ⟨S4096x5632, .f32⟩
  | 93 => ⟨S4096x5632, .f32⟩
  | 94 => ⟨S_, .f32⟩
  | 95 => ⟨S4096x5632, .f32⟩
  | 96 => ⟨S4096x5632, .f32⟩
  | 97 => ⟨S_, .f32⟩
  | 98 => ⟨S4096x5632, .f32⟩
  | 99 => ⟨S4096x5632, .f32⟩
  | 100 => ⟨S4096x5632, .f32⟩
  | 101 => ⟨S4096x5632, .f32⟩
  | 102 => ⟨S1x2048x5632, .f32⟩
  | 103 => ⟨S2048x5632, .f32⟩
  | 104 => ⟨S5632x2048, .f32⟩
  | 105 => ⟨S4096x2048, .f32⟩
  | 106 => ⟨S4096x1, .f32⟩
  | 107 => ⟨S4096x2048, .f32⟩
  | 108 => ⟨S4096x2048, .f32⟩
  | 109 => ⟨S4096x2048, .f32⟩
  | 110 => ⟨S_, .i32⟩
  | 111 => ⟨S4096x2, .i32⟩
  | 112 => ⟨S4096x2, .i1⟩
  | 113 => ⟨S_, .f32⟩
  | 114 => ⟨S_, .f32⟩
  | 115 => ⟨S4096x2, .f32⟩
  | 116 => ⟨S4096x2, .f32⟩
  | 117 => ⟨S_, .f32⟩
  | 118 => ⟨S4096, .f32⟩
  | 119 => ⟨S1x11264x2048, .f32⟩
  | 120 => ⟨S11264x2048, .f32⟩
  | 121 => ⟨S2048x11264, .f32⟩
  | 122 => ⟨S4096x11264, .f32⟩
  | 123 => ⟨S4096x5632, .f32⟩
  | 124 => ⟨S4096x5632, .f32⟩
  | 125 => ⟨S4096x5632, .f32⟩
  | 126 => ⟨S4096x5632, .f32⟩
  | 127 => ⟨S_, .f32⟩
  | _ => ⟨S4096x2048, .f32⟩

abbrev hbmTy0_2 (i : Nat) : BufTy := match i % 128 with
  | 0 => ⟨S4096x5632, .f32⟩
  | 1 => ⟨S4096x5632, .f32⟩
  | 2 => ⟨S_, .f32⟩
  | 3 => ⟨S4096x5632, .f32⟩
  | 4 => ⟨S4096x5632, .f32⟩
  | 5 => ⟨S4096x5632, .f32⟩
  | 6 => ⟨S4096x5632, .f32⟩
  | 7 => ⟨S1x2048x5632, .f32⟩
  | 8 => ⟨S2048x5632, .f32⟩
  | 9 => ⟨S5632x2048, .f32⟩
  | 10 => ⟨S4096x2048, .f32⟩
  | 11 => ⟨S4096x1, .f32⟩
  | 12 => ⟨S4096x2048, .f32⟩
  | 13 => ⟨S4096x2048, .f32⟩
  | 14 => ⟨S4096x2048, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_cst_6 : Ref sig .tc := ⟨.hbm, 76, rfl⟩
abbrev main_call4_v0 : Ref sig .tc := ⟨.hbm, 77, rfl⟩
abbrev main_call4_v1 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call5_v0 : Ref sig .tc := ⟨.hbm, 88, rfl⟩
abbrev main_call5_v1 : Ref sig .tc := ⟨.hbm, 89, rfl⟩
abbrev main_call5_cst : Ref sig .tc := ⟨.hbm, 90, rfl⟩
abbrev main_call5_v2 : Ref sig .tc := ⟨.hbm, 91, rfl⟩
abbrev main_call5_v3 : Ref sig .tc := ⟨.hbm, 92, rfl⟩
abbrev main_call5_cst_0 : Ref sig .tc := ⟨.hbm, 93, rfl⟩
abbrev main_call5_v4 : Ref sig .tc := ⟨.hbm, 94, rfl⟩
abbrev main_call5_v5 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_8 : Ref sig .tc := ⟨.hbm, 106, rfl⟩
abbrev main_v61 : Ref sig .tc := ⟨.hbm, 107, rfl⟩
abbrev main_v62 : Ref sig .tc := ⟨.hbm, 108, rfl⟩
abbrev main_cst_9 : Ref sig .tc := ⟨.hbm, 109, rfl⟩
abbrev main_call6_v0 : Ref sig .tc := ⟨.hbm, 110, rfl⟩
abbrev main_call6_v1 : Ref sig .tc := ⟨.hbm, 111, rfl⟩
abbrev main_v63 : Ref sig .tc := ⟨.hbm, 112, rfl⟩
abbrev main_cst_10 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_call7_v0 : Ref sig .tc := ⟨.hbm, 121, rfl⟩
abbrev main_call7_v1 : Ref sig .tc := ⟨.hbm, 122, rfl⟩
abbrev main_call7_cst : Ref sig .tc := ⟨.hbm, 123, rfl⟩
abbrev main_call7_v2 : Ref sig .tc := ⟨.hbm, 124, rfl⟩
abbrev main_call7_v3 : Ref sig .tc := ⟨.hbm, 125, rfl⟩
abbrev main_call7_cst_0 : Ref sig .tc := ⟨.hbm, 126, rfl⟩
abbrev main_call7_v4 : Ref sig .tc := ⟨.hbm, 127, rfl⟩
abbrev main_call7_v5 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_c_11 : Ref sig .tc := ⟨.hbm, 139, rfl⟩
abbrev main_v81 : Ref sig .tc := ⟨.hbm, 140, rfl⟩
abbrev main_v82 : Ref sig .tc := ⟨.hbm, 141, rfl⟩
abbrev main_cst_12 : Ref sig .tc := ⟨.hbm, 142, rfl⟩
abbrev main_call8_v0 : Ref sig .tc := ⟨.hbm, 143, rfl⟩
abbrev main_call8_v1 : Ref sig .tc := ⟨.hbm, 144, rfl⟩
abbrev main_v83 : Ref sig .tc := ⟨.hbm, 145, rfl⟩
abbrev main_cst_13 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_call9_v0 : Ref sig .tc := ⟨.hbm, 154, rfl⟩
abbrev main_call9_v1 : Ref sig .tc := ⟨.hbm, 155, rfl⟩
abbrev main_call9_cst : Ref sig .tc := ⟨.hbm, 156, rfl⟩
abbrev main_call9_v2 : Ref sig .tc := ⟨.hbm, 157, rfl⟩
abbrev main_call9_v3 : Ref sig .tc := ⟨.hbm, 158, rfl⟩
abbrev main_call9_cst_0 : Ref sig .tc := ⟨.hbm, 159, rfl⟩
abbrev main_call9_v4 : Ref sig .tc := ⟨.hbm, 160, rfl⟩
abbrev main_call9_v5 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_c_14 : Ref sig .tc := ⟨.hbm, 172, rfl⟩
abbrev main_v101 : Ref sig .tc := ⟨.hbm, 173, rfl⟩
abbrev main_v102 : Ref sig .tc := ⟨.hbm, 174, rfl⟩
abbrev main_cst_15 : Ref sig .tc := ⟨.hbm, 175, rfl⟩
abbrev main_call10_v0 : Ref sig .tc := ⟨.hbm, 176, rfl⟩
abbrev main_call10_v1 : Ref sig .tc := ⟨.hbm, 177, rfl⟩
abbrev main_v103 : Ref sig .tc := ⟨.hbm, 178, rfl⟩
abbrev main_cst_16 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_call11_v0 : Ref sig .tc := ⟨.hbm, 187, rfl⟩
abbrev main_call11_v1 : Ref sig .tc := ⟨.hbm, 188, rfl⟩
abbrev main_call11_cst : Ref sig .tc := ⟨.hbm, 189, rfl⟩
abbrev main_call11_v2 : Ref sig .tc := ⟨.hbm, 190, rfl⟩
abbrev main_call11_v3 : Ref sig .tc := ⟨.hbm, 191, rfl⟩
abbrev main_call11_cst_0 : Ref sig .tc := ⟨.hbm, 192, rfl⟩
abbrev main_call11_v4 : Ref sig .tc := ⟨.hbm, 193, rfl⟩
abbrev main_call11_v5 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_17 : Ref sig .tc := ⟨.hbm, 205, rfl⟩
abbrev main_v121 : Ref sig .tc := ⟨.hbm, 206, rfl⟩
abbrev main_v122 : Ref sig .tc := ⟨.hbm, 207, rfl⟩
abbrev main_cst_18 : Ref sig .tc := ⟨.hbm, 208, rfl⟩
abbrev main_call12_v0 : Ref sig .tc := ⟨.hbm, 209, rfl⟩
abbrev main_call12_v1 : Ref sig .tc := ⟨.hbm, 210, rfl⟩
abbrev main_v123 : Ref sig .tc := ⟨.hbm, 211, rfl⟩
abbrev main_cst_19 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_call13_v0 : Ref sig .tc := ⟨.hbm, 220, rfl⟩
abbrev main_call13_v1 : Ref sig .tc := ⟨.hbm, 221, rfl⟩
abbrev main_call13_cst : Ref sig .tc := ⟨.hbm, 222, rfl⟩
abbrev main_call13_v2 : Ref sig .tc := ⟨.hbm, 223, rfl⟩
abbrev main_call13_v3 : Ref sig .tc := ⟨.hbm, 224, rfl⟩
abbrev main_call13_cst_0 : Ref sig .tc := ⟨.hbm, 225, rfl⟩
abbrev main_call13_v4 : Ref sig .tc := ⟨.hbm, 226, rfl⟩
abbrev main_call13_v5 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_c_20 : Ref sig .tc := ⟨.hbm, 238, rfl⟩
abbrev main_v141 : Ref sig .tc := ⟨.hbm, 239, rfl⟩
abbrev main_v142 : Ref sig .tc := ⟨.hbm, 240, rfl⟩
abbrev main_cst_21 : Ref sig .tc := ⟨.hbm, 241, rfl⟩
abbrev main_call14_v0 : Ref sig .tc := ⟨.hbm, 242, rfl⟩
abbrev main_call14_v1 : Ref sig .tc := ⟨.hbm, 243, rfl⟩
abbrev main_v143 : Ref sig .tc := ⟨.hbm, 244, rfl⟩
abbrev main_cst_22 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_call15_v0 : Ref sig .tc := ⟨.hbm, 253, rfl⟩
abbrev main_call15_v1 : Ref sig .tc := ⟨.hbm, 254, rfl⟩
abbrev main_call15_cst : Ref sig .tc := ⟨.hbm, 255, rfl⟩
abbrev main_call15_v2 : Ref sig .tc := ⟨.hbm, 256, rfl⟩
abbrev main_call15_v3 : Ref sig .tc := ⟨.hbm, 257, rfl⟩
abbrev main_call15_cst_0 : Ref sig .tc := ⟨.hbm, 258, rfl⟩
abbrev main_call15_v4 : Ref sig .tc := ⟨.hbm, 259, rfl⟩
abbrev main_call15_v5 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S_S4096x2 : S_.BroadcastsInDim S4096x2 (![] : Fin 0 → Fin S4096x2.rank)
  reducesTo_S4096x2_S4096_d1 : S4096x2.ReducesTo [1] S4096
  h_S_ : 0 < S_.numel
  slices_S8x11264x2048_S1x11264x2048_0_0_0 : S8x11264x2048.Slices ![0, 0, 0] S1x11264x2048
  shapeCasts_S1x11264x2048_S11264x2048 : S1x11264x2048.ShapeCasts S11264x2048
  transposes_S11264x2048_S2048x11264_1_0 : S11264x2048.Transposes [1, 0] S2048x11264
  slices_S4096x11264_S4096x5632_0_0 : S4096x11264.Slices ![0, 0] S4096x5632
  slices_S4096x11264_S4096x5632_0_5632 : S4096x11264.Slices ![0, 5632] S4096x5632
  bcast_S_S4096x5632 : S_.BroadcastsInDim S4096x5632 (![] : Fin 0 → Fin S4096x5632.rank)
  slices_S8x2048x5632_S1x2048x5632_0_0_0 : S8x2048x5632.Slices ![0, 0, 0] S1x2048x5632
  shapeCasts_S1x2048x5632_S2048x5632 : S1x2048x5632.ShapeCasts S2048x5632
  transposes_S2048x5632_S5632x2048_1_0 : S2048x5632.Transposes [1, 0] S5632x2048
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  slices_S8x11264x2048_S1x11264x2048_1_0_0 : S8x11264x2048.Slices ![1, 0, 0] S1x11264x2048
  slices_S8x2048x5632_S1x2048x5632_1_0_0 : S8x2048x5632.Slices ![1, 0, 0] S1x2048x5632
  slices_S8x11264x2048_S1x11264x2048_2_0_0 : S8x11264x2048.Slices ![2, 0, 0] S1x11264x2048
  slices_S8x2048x5632_S1x2048x5632_2_0_0 : S8x2048x5632.Slices ![2, 0, 0] S1x2048x5632
  slices_S8x11264x2048_S1x11264x2048_3_0_0 : S8x11264x2048.Slices ![3, 0, 0] S1x11264x2048
  slices_S8x2048x5632_S1x2048x5632_3_0_0 : S8x2048x5632.Slices ![3, 0, 0] S1x2048x5632
  slices_S8x11264x2048_S1x11264x2048_4_0_0 : S8x11264x2048.Slices ![4, 0, 0] S1x11264x2048
  slices_S8x2048x5632_S1x2048x5632_4_0_0 : S8x2048x5632.Slices ![4, 0, 0] S1x2048x5632
  slices_S8x11264x2048_S1x11264x2048_5_0_0 : S8x11264x2048.Slices ![5, 0, 0] S1x11264x2048
  slices_S8x2048x5632_S1x2048x5632_5_0_0 : S8x2048x5632.Slices ![5, 0, 0] S1x2048x5632
  slices_S8x11264x2048_S1x11264x2048_6_0_0 : S8x11264x2048.Slices ![6, 0, 0] S1x11264x2048
  slices_S8x2048x5632_S1x2048x5632_6_0_0 : S8x2048x5632.Slices ![6, 0, 0] S1x2048x5632
  slices_S8x11264x2048_S1x11264x2048_7_0_0 : S8x11264x2048.Slices ![7, 0, 0] S1x11264x2048
  slices_S8x2048x5632_S1x2048x5632_7_0_0 : S8x2048x5632.Slices ![7, 0, 0] S1x2048x5632
  dot_S4096x2048_S2048x11264_S4096x11264_1_0_0_1_n_n_wf : DotDims.WF S4096x2048 S2048x11264 S4096x11264 [1] [0] [0] [1] [] []
  dot_S4096x5632_S5632x2048_S4096x2048_1_0_0_1_n_n_wf : DotDims.WF S4096x5632 S5632x2048 S4096x2048 [1] [0] [0] [1] [] []

variable [Facts₀]

def dot_S4096x2048_S2048x11264_S4096x11264_1_0_0_1_n_n : DotDims S4096x2048 S2048x11264 S4096x11264 where
  lhsContracting := [1]
  rhsContracting := [0]
  lhsNonContracting := [0]
  rhsNonContracting := [1]
  lhsBatch := []
  rhsBatch := []
  wf := dot_S4096x2048_S2048x11264_S4096x11264_1_0_0_1_n_n_wf
def dot_S4096x5632_S5632x2048_S4096x2048_1_0_0_1_n_n : DotDims S4096x5632 S5632x2048 S4096x2048 where
  lhsContracting := [1]
  rhsContracting := [0]
  lhsNonContracting := [0]
  rhsNonContracting := [1]
  lhsBatch := []
  rhsBatch := []
  wf := dot_S4096x5632_S5632x2048_S4096x2048_1_0_0_1_n_n_wf

class Facts : Prop extends Facts₀ where

variable [Facts]
-- ==== Proof.BitsFrameBase.lean ====
/-
  The kernel's run over its grid, part one: the program around its one region, the windows' blocks, the three
  conditions of the body decided over the grid, and the memrefs the body is called with.
-/
import proofs.«100299_j31928786879171_1_alg».proof.Proof.Gen.Kernel.Launch
import proofs.«100299_j31928786879171_1_alg».proof.Proof.Gen.Kernel.Skeleton
import proofs.«100299_j31928786879171_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

Before the region the program computes, on the host, the dense table of routing weights (one row per token, one
column per expert) from the selected experts and the router weights; the region then reads that table and the three
float arguments. -/

/-- What every buffer of the core holds when the region is entered: the memory at launch, after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes an argument array: the region finds each as launched. -/
theorem V_of_arg (c : Dev nD) (b : Ref sig .tc)
    (hb : b = main_arg0 ∨ b = main_arg1 ∨ b = main_arg2 ∨ b = main_arg3 ∨ b = main_arg4) :
    V m c b = m ((c : Thread nD τ).loc b) := by
  rcases hb with rfl | rfl | rfl | rfl | rfl
  all_goals
    exact StableHlo.after_of_forall_not_mem (b := Proc.devRef .tc _) _ _ (List.forall_iff_forall_mem.mp (by
      simp only [hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, StableHlo.TRef.unary, StableHlo.TRef.nullary,
        StableHlo.TRef.binary, Finset.mem_singleton]
      repeat' apply And.intro
      all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched the block index has not moved). One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid

The grid is 8 token tiles × 8 experts × 44 column tiles, walked in that order: point `t` is token tile `t / 352`,
expert `(t / 44) % 8`, column tile `t % 44`. -/

/-- The accumulator is reset: first expert and first column tile. -/
abbrev condReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcondReset : ∀ t : Fin cfg0.N, condReset (grid0.coords t) ↔ t.val % 352 = 0 :=
  (by decide +kernel : ∀ t : Fin grid0.N, condReset (grid0.coords t) ↔ t.val % 352 = 0)

/-- The expert's weight column is recomputed: first column tile. -/
abbrev condCol (i : grid0.Coords) : Prop :=
  (Scalar.cmpi .ne (Scalar.extui (Scalar.cmpi .eq (BitVec.ofNat 32 (i 2).val) 0#32)) 0#32) = 1#1
theorem hcondCol : ∀ t : Fin cfg0.N, condCol (grid0.coords t) ↔ t.val % 44 = 0 :=
  (by decide +kernel : ∀ t : Fin grid0.N, condCol (grid0.coords t) ↔ t.val % 44 = 0)

/-- The accumulator is written out: last expert and last column tile. -/
abbrev condOut (i : grid0.Coords) : Prop := k0_cond3 i = 1#1
theorem hcondOut : ∀ t : Fin cfg0.N, condOut (grid0.coords t) ↔ t.val % 352 = 351 :=
  (by decide +kernel : ∀ t : Fin grid0.N, condOut (grid0.coords t) ↔ t.val % 352 = 351)

/-- The output window is idle exactly where the accumulator is not written out, and is not written back there. -/
theorem idle_out : ∀ t : Fin cfg0.N, ¬condOut (grid0.coords t) → cfg0.idle 5 (grid0.coords t) = true := by decide +kernel
theorem noFlush_out : ∀ t : Fin cfg0.N, ¬condOut (grid0.coords t) → (cfg0.win 5).flush t = false := by decide +kernel
theorem live_out : ∀ t : Fin cfg0.N, condOut (grid0.coords t) → cfg0.idle 5 (grid0.coords t) = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x8 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .f32 := win0_5.stage (cfg0.slots t 5)
abbrev hs5 (t : Fin cfg0.N) : (ms5 t).IsWhole := hstage0_5 ((cfg0.slots t 5).cast nbuf0_5)
/-- The accumulator and the weight column: scratch buffers of the kernel's own. -/
abbrev accM : Memref sig .tc .vmem S512x2048 .f32 := Memref.whole cc0_scratch0
abbrev colM : Memref sig .tc .vmem S512x1 .f32 := Memref.whole cc0_scratch1
abbrev VO : View sig .tc .vmem S512x2048 .f32 := (Memref.whole cc0_stg5_0 : Memref sig .tc .vmem S512x2048 .f32).view
abbrev VAcc : View sig .tc .vmem S512x2048 .f32 := accM.view
abbrev VCol : View sig .tc .vmem S512x1 .f32 := colM.view

/-- The scratch buffers, each owned at some contents: what the region's entry hands the body and takes back. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ (∃ d, owns (c : Thread nD τ) colM fullShare d)) := by
  rw [scopedRest0_eq]; simp only [accM, colM, owns_whole]; try rfl

end Cert.Kernel.Hand

end
-- ==== Proof.BitsRunA.lean ====
/-
  The kernel's run over its grid, part two: the body on whole memrefs, in case A of its three conditions.
-/
import proofs.«100299_j31928786879171_1_alg».proof.Proof.BitsFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that starts a token tile (first expert, first column tile): the accumulator is stored to zero, the weight column recomputed, then the point's product added; the output block is not touched. On whole memrefs, the inputs at their contents, the body runs to a continuation holding the inputs as they were and the two scratch buffers with the pieces it stored (the lists are what the run finds). -/
noncomputable def kernelRunA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) :
    Σ' (LA : List (View.Piece (Elt F) S512x2048 .f32)), { LC : List (View.Piece (Elt F) S512x1 .f32) //
      ∀ (xi5 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, ?_, fun xi5 E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%da, %fa, -, HA⟩, ⟨%dc, %fc, -, HC⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HA]; · iexists _; iexact HA
    iexists _; iexact HC

end Cert.Kernel.Hand

end
-- ==== Proof.BitsRunB.lean ====
/-
  The kernel's run over its grid, part two: the body on whole memrefs, in case B of its three conditions.
-/
import proofs.«100299_j31928786879171_1_alg».proof.Proof.BitsRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that starts a later expert (first column tile): the weight column is recomputed and the point's product added to the accumulator the point before left. -/
noncomputable def kernelRunB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) :
    Σ' (LA : List (View.Piece (Elt F) S512x2048 .f32)), { LC : List (View.Piece (Elt F) S512x1 .f32) //
      ∀ (xi5 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, ?_, fun xi5 E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fa, %hfa, HA⟩, ⟨%dc, %fc, -, HC⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HA]; · iexists _; iexact HA
    iexists _; iexact HC

end Cert.Kernel.Hand

end
-- ==== Proof.BitsRunC.lean ====
/-
  The kernel's run over its grid, part two: the body on whole memrefs, in case C of its three conditions.
-/
import proofs.«100299_j31928786879171_1_alg».proof.Proof.BitsRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an inner point: the point's product, weighted by the column the expert's first point left, is added to the accumulator the point before left. -/
noncomputable def kernelRunC (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) :
    { LA : List (View.Piece (Elt F) S512x2048 .f32) //
      ∀ (xi5 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LA) ∗ owns (c : Thread nD τ) arg10 fullShare xs1) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, fun xi5 E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fa, %hfa, HA⟩, ⟨%fc, %hfc, HC⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfa; obtain rfl := harg10.eq_unread hfc
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HA]; · iexists _; iexact HA
    iexists _; isplitr; · ipureintro; exact harg10.read_unread _
    iexact HC

end Cert.Kernel.Hand

end
-- ==== Proof.BitsRunD.lean ====
/-
  The kernel's run over its grid, part two: the body on whole memrefs, in case D of its three conditions.
-/
import proofs.«100299_j31928786879171_1_alg».proof.Proof.BitsRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a token tile's last point (last expert, last column tile): as at an inner point, and the accumulator is then copied whole into the output block. -/
noncomputable def kernelRunD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) :
    Σ' (L5 : List (View.Piece (Elt F) S512x2048 .f32)), { LA : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LA) ∗ owns (c : Thread nD τ) arg10 fullShare xs1) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fa, %hfa, HA⟩, ⟨%fc, %hfc, HC⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfa; obtain rfl := harg10.eq_unread hfc
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HA]; · iexists _; iexact HA
    iexists _; isplitr; · ipureintro; exact harg10.read_unread _
    iexact HC

end Cert.Kernel.Hand

end
-- ==== Proof.BitsAccum.lean ====
/-
  The kernel's run over its grid, part three: what each case of the body leaves in the accumulator, the weight
  column and the output block; their values point by point over the grid; the invariant and the proof data.
-/
import proofs.«100299_j31928786879171_1_alg».proof.Proof.BitsRunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into the accumulator cover it. -/
theorem coverAccA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (y : S512x2048.Idx) :
    ∃ pc ∈ (kernelRunA c i arg3 harg3 arg4 harg4 arg5 harg5 arg6 harg6 arg7 harg7 arg8 harg8 arg9 harg9 arg10 harg10 hc0 hc1 hc2 x0 x1 x2 x3 x4).1, y ∈ pc.1.set :=
  View.cover_of_tiledL (kernelRunA c i arg3 harg3 arg4 harg4 arg5 harg5 arg6 harg6 arg7 harg7 arg8 harg8 arg9 harg9 arg10 harg10 hc0 hc1 hc2 x0 x1 x2 x3 x4).1 S512x2048.size (by sl_kernel_rfl) y

/-- What case A leaves in the accumulator: its stores read back. -/
def accA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) : Vec F S512x2048 .f32 :=
  VAcc.read (Elt F) (VAcc.writes (Elt F) VAcc.junk (kernelRunA c i arg3 harg3 arg4 harg4 arg5 harg5 arg6 harg6 arg7 harg7 arg8 harg8 arg9 harg9 arg10 harg10 hc0 hc1 hc2 x0 x1 x2 x3 x4).1)

/-- Case A's store into the weight column covers it. -/
theorem coverColA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (y : S512x1.Idx) :
    ∃ pc ∈ (kernelRunA c i arg3 harg3 arg4 harg4 arg5 harg5 arg6 harg6 arg7 harg7 arg8 harg8 arg9 harg9 arg10 harg10 hc0 hc1 hc2 x0 x1 x2 x3 x4).2.1, y ∈ pc.1.set :=
  View.cover_of_tiledL (kernelRunA c i arg3 harg3 arg4 harg4 arg5 harg5 arg6 harg6 arg7 harg7 arg8 harg8 arg9 harg9 arg10 harg10 hc0 hc1 hc2 x0 x1 x2 x3 x4).2.1 S512x1.size (by sl_kernel_rfl) y

/-- What case A leaves in the weight column. -/
def colA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) : Vec F S512x1 .f32 :=
  VCol.read (Elt F) (VCol.writes (Elt F) VCol.junk (kernelRunA c i arg3 harg3 arg4 harg4 arg5 harg5 arg6 harg6 arg7 harg7 arg8 harg8 arg9 harg9 arg10 harg10 hc0 hc1 hc2 x0 x1 x2 x3 x4).2.1)

/-- Case B's stores into the accumulator cover it. -/
theorem coverAccB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (y : S512x2048.Idx) :
    ∃ pc ∈ (kernelRunB c i arg3 harg3 arg4 harg4 arg5 harg5 arg6 harg6 arg7 harg7 arg8 harg8 arg9 harg9 arg10 harg10 hc0 hc1 hc2 x0 x1 x2 x3 x4 xs0).1, y ∈ pc.1.set :=
  View.cover_of_tiledL (kernelRunB c i arg3 harg3 arg4 harg4 arg5 harg5 arg6 harg6 arg7 harg7 arg8 harg8 arg9 harg9 arg10 harg10 hc0 hc1 hc2 x0 x1 x2 x3 x4 xs0).1 S512x2048.size (by sl_kernel_rfl) y

/-- What case B leaves in the accumulator: its stores read back. -/
def accB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) : Vec F S512x2048 .f32 :=
  VAcc.read (Elt F) (VAcc.writes (Elt F) VAcc.junk (kernelRunB c i arg3 harg3 arg4 harg4 arg5 harg5 arg6 harg6 arg7 harg7 arg8 harg8 arg9 harg9 arg10 harg10 hc0 hc1 hc2 x0 x1 x2 x3 x4 xs0).1)

/-- Case B's store into the weight column covers it. -/
theorem coverColB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (y : S512x1.Idx) :
    ∃ pc ∈ (kernelRunB c i arg3 harg3 arg4 harg4 arg5 harg5 arg6 harg6 arg7 harg7 arg8 harg8 arg9 harg9 arg10 harg10 hc0 hc1 hc2 x0 x1 x2 x3 x4 xs0).2.1, y ∈ pc.1.set :=
  View.cover_of_tiledL (kernelRunB c i arg3 harg3 arg4 harg4 arg5 harg5 arg6 harg6 arg7 harg7 arg8 harg8 arg9 harg9 arg10 harg10 hc0 hc1 hc2 x0 x1 x2 x3 x4 xs0).2.1 S512x1.size (by sl_kernel_rfl) y

/-- What case B leaves in the weight column. -/
def colB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) : Vec F S512x1 .f32 :=
  VCol.read (Elt F) (VCol.writes (Elt F) VCol.junk (kernelRunB c i arg3 harg3 arg4 harg4 arg5 harg5 arg6 harg6 arg7 harg7 arg8 harg8 arg9 harg9 arg10 harg10 hc0 hc1 hc2 x0 x1 x2 x3 x4 xs0).2.1)

/-- Case C's stores into the accumulator cover it. -/
theorem coverAccC (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) (y : S512x2048.Idx) :
    ∃ pc ∈ (kernelRunC c i arg3 harg3 arg4 harg4 arg5 harg5 arg6 harg6 arg7 harg7 arg8 harg8 arg9 harg9 arg10 harg10 hc0 hc1 hc2 x0 x1 x2 x3 x4 xs0 xs1).1, y ∈ pc.1.set :=
  View.cover_of_tiledL (kernelRunC c i arg3 harg3 arg4 harg4 arg5 harg5 arg6 harg6 arg7 harg7 arg8 harg8 arg9 harg9 arg10 harg10 hc0 hc1 hc2 x0 x1 x2 x3 x4 xs0 xs1).1 S512x2048.size (by sl_kernel_rfl) y

/-- What case C leaves in the accumulator: its stores read back. -/
def accC (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : Vec F S512x2048 .f32 :=
  VAcc.read (Elt F) (VAcc.writes (Elt F) VAcc.junk (kernelRunC c i arg3 harg3 arg4 harg4 arg5 harg5 arg6 harg6 arg7 harg7 arg8 harg8 arg9 harg9 arg10 harg10 hc0 hc1 hc2 x0 x1 x2 x3 x4 xs0 xs1).1)

/-- Case D's stores into the accumulator cover it. -/
theorem coverAccD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) (y : S512x2048.Idx) :
    ∃ pc ∈ (kernelRunD c i arg3 harg3 arg4 harg4 arg5 harg5 arg6 harg6 arg7 harg7 arg8 harg8 arg9 harg9 arg10 harg10 hc0 hc1 hc2 x0 x1 x2 x3 x4 xs0 xs1).2.1, y ∈ pc.1.set :=
  View.cover_of_tiledL (kernelRunD c i arg3 harg3 arg4 harg4 arg5 harg5 arg6 harg6 arg7 harg7 arg8 harg8 arg9 harg9 arg10 harg10 hc0 hc1 hc2 x0 x1 x2 x3 x4 xs0 xs1).2.1 S512x2048.size (by sl_kernel_rfl) y

/-- What case D leaves in the accumulator: its stores read back. -/
def accD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : Vec F S512x2048 .f32 :=
  VAcc.read (Elt F) (VAcc.writes (Elt F) VAcc.junk (kernelRunD c i arg3 harg3 arg4 harg4 arg5 harg5 arg6 harg6 arg7 harg7 arg8 harg8 arg9 harg9 arg10 harg10 hc0 hc1 hc2 x0 x1 x2 x3 x4 xs0 xs1).2.1)

/-- Case D's store into the output block covers it. -/
theorem coverOutD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) (y : S512x2048.Idx) :
    ∃ pc ∈ (kernelRunD c i arg3 harg3 arg4 harg4 arg5 harg5 arg6 harg6 arg7 harg7 arg8 harg8 arg9 harg9 arg10 harg10 hc0 hc1 hc2 x0 x1 x2 x3 x4 xs0 xs1).1, y ∈ pc.1.set :=
  View.cover_of_tiledL (kernelRunD c i arg3 harg3 arg4 harg4 arg5 harg5 arg6 harg6 arg7 harg7 arg8 harg8 arg9 harg9 arg10 harg10 hc0 hc1 hc2 x0 x1 x2 x3 x4 xs0 xs1).1 S512x2048.size (by sl_kernel_rfl) y

/-- What case D leaves in the output block. -/
def outD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : Vec F S512x2048 .f32 :=
  VO.read (Elt F) (VO.writes (Elt F) VO.junk (kernelRunD c i arg3 harg3 arg4 harg4 arg5 harg5 arg6 harg6 arg7 harg7 arg8 harg8 arg9 harg9 arg10 harg10 hc0 hc1 hc2 x0 x1 x2 x3 x4 xs0 xs1).1)

/-! ## What the output block, the accumulator and the weight column hold after each point -/

/-- A token tile's first point: the accumulator restarts from zero, the weight column is the first expert's. -/
def stepA (c : Dev nD) (t : Fin cfg0.N) (h0 : t.val % 352 = 0) : Vec F S512x2048 .f32 × Vec F S512x2048 .f32 × Vec F S512x1 .f32 :=
  (VO.read (Elt F) VO.junk, accA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t), colA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))

/-- A later expert's first point: the weight column is that expert's, the accumulator goes on from `xs0`. -/
def stepB (c : Dev nD) (t : Fin cfg0.N) (h0 : ¬t.val % 352 = 0) (h1 : t.val % 44 = 0) (xs0 : Vec F S512x2048 .f32) : Vec F S512x2048 .f32 × Vec F S512x2048 .f32 × Vec F S512x1 .f32 :=
  (VO.read (Elt F) VO.junk, accB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) xs0, colB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) xs0)

/-- An inner point: the accumulator goes on from `xs0`, the weight column `xs1` stays. -/
def stepC (c : Dev nD) (t : Fin cfg0.N) (h1 : ¬t.val % 44 = 0) (h2 : ¬t.val % 352 = 351) (xs0 : Vec F S512x2048 .f32) (xs1 : Vec F S512x1 .f32) : Vec F S512x2048 .f32 × Vec F S512x2048 .f32 × Vec F S512x1 .f32 :=
  (VO.read (Elt F) VO.junk, accC c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => h1 ((hcondCol t).mp h)) (fun h => h2 ((hcondOut t).mp h)) (iblk m c 0 t) (iblk m c 1 t) (iblk m c 2 t) (iblk m c 3 t) (iblk m c 4 t) xs0 xs1, xs1)

/-- A token tile's last point: as an inner point, and the output block receives the accumulator. -/
def stepD (c : Dev nD) (t : Fin cfg0.N) (h2 : t.val % 352 = 351) (xs0 : Vec F S512x2048 .f32) (xs1 : Vec F S512x1 .f32) : Vec F S512x2048 .f32 × Vec F S512x2048 .f32 × Vec F S512x1 .f32 :=
  (outD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) xs0 xs1, accD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) xs0 xs1, xs1)

/-- THE ACCUMULATION over the grid, point by point: (output block, accumulator, weight column) after point `n`. -/
def outsAt (c : Dev nD) : (n : ℕ) → n < cfg0.N → Vec F S512x2048 .f32 × Vec F S512x2048 .f32 × Vec F S512x1 .f32
  | 0, hn => stepA m c ⟨0, hn⟩ (Nat.zero_mod _)
  | n + 1, hn =>
    if h0 : (n + 1) % 352 = 0 then stepA m c ⟨n + 1, hn⟩ h0
    else if h1 : (n + 1) % 44 = 0 then stepB m c ⟨n + 1, hn⟩ h0 h1 (outsAt c n (Nat.lt_of_succ_lt hn)).2.1
    else if h2 : (n + 1) % 352 = 351 then stepD m c ⟨n + 1, hn⟩ h2 (outsAt c n (Nat.lt_of_succ_lt hn)).2.1 (outsAt c n (Nat.lt_of_succ_lt hn)).2.2
    else stepC m c ⟨n + 1, hn⟩ h1 h2 (outsAt c n (Nat.lt_of_succ_lt hn)).2.1 (outsAt c n (Nat.lt_of_succ_lt hn)).2.2

/-- The point before `t`. -/
abbrev prevLt (t : Fin cfg0.N) : t.val - 1 < cfg0.N := Nat.lt_of_le_of_lt (Nat.sub_le _ _) t.isLt

theorem outsAt_A (c : Dev nD) (t : Fin cfg0.N) (h0 : t.val % 352 = 0) : outsAt m c t.val t.isLt = stepA m c t h0 := by
  obtain ⟨n, hn⟩ := t
  cases n with
  | zero => exact rfl
  | succ n => exact (dif_pos h0).trans rfl

theorem outsAt_B (c : Dev nD) (t : Fin cfg0.N) (h0 : ¬t.val % 352 = 0) (h1 : t.val % 44 = 0) :
    outsAt m c t.val t.isLt = stepB m c t h0 h1 (outsAt m c (t.val - 1) (prevLt t)).2.1 := by
  obtain ⟨n, hn⟩ := t
  cases n with
  | zero => exact absurd (Nat.zero_mod _) h0
  | succ n => exact (dif_neg h0).trans ((dif_pos h1).trans rfl)

theorem outsAt_C (c : Dev nD) (t : Fin cfg0.N) (h1 : ¬t.val % 44 = 0) (h2 : ¬t.val % 352 = 351) :
    outsAt m c t.val t.isLt = stepC m c t h1 h2 (outsAt m c (t.val - 1) (prevLt t)).2.1 (outsAt m c (t.val - 1) (prevLt t)).2.2 := by
  obtain ⟨n, hn⟩ := t
  cases n with
  | zero => exact absurd (Nat.zero_mod _) h1
  | succ n =>
    have h0 : ¬(n + 1) % 352 = 0 := fun h => h1 (by dsimp only at h ⊢; omega)
    exact (dif_neg h0).trans ((dif_neg h1).trans ((dif_neg h2).trans rfl))

theorem outsAt_D (c : Dev nD) (t : Fin cfg0.N) (h2 : t.val % 352 = 351) :
    outsAt m c t.val t.isLt = stepD m c t h2 (outsAt m c (t.val - 1) (prevLt t)).2.1 (outsAt m c (t.val - 1) (prevLt t)).2.2 := by
  obtain ⟨n, hn⟩ := t
  cases n with
  | zero => exact (by dsimp only at h2; omega)
  | succ n =>
    have h0 : ¬(n + 1) % 352 = 0 := fun h => by dsimp only at h h2; omega
    have h1 : ¬(n + 1) % 44 = 0 := fun h => by dsimp only at h h2; omega
    exact (dif_neg h0).trans ((dif_neg h1).trans ((dif_pos h2).trans rfl))

/-! ## The invariant and the proof data -/

/-- Before the first point the two scratch buffers hold anything; after point `n` they hold what it left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare (outsAt m c n hn).2.1 ∗ owns (c : Thread nD τ) colM fullShare (outsAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) accM fullShare (outsAt m c n hn).2.1 ∗ owns (c : Thread nD τ) colM fullShare (outsAt m c n hn).2.2) := rfl

theorem PhiS_pos (c : Dev nD) (n : ℕ) (h : n ≤ cfg0.N) (hz : n ≠ 0) :
    PhiS m c n h = iprop(owns (c : Thread nD τ) accM fullShare (outsAt m c (n - 1) (by omega)).2.1 ∗ owns (c : Thread nD τ) colM fullShare (outsAt m c (n - 1) (by omega)).2.2) := by
  cases n with
  | zero => exact absurd rfl hz
  | succ n => rfl

/-- The proof data of the region on core `c`. The two windows on the gate/up weight array hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t := before_in0_of m (dats m 0 c) (A_eq m c 0) (after0 m c) t d
theorem before1 (c : Dev nD) (t : Fin cfg0.N) (d) : (dats m 0 c).before 1 t d = iblk m c 1 t := before_in1_of m (dats m 0 c) (A_eq m c 1) (after1 m c) t d
theorem before2 (c : Dev nD) (t : Fin cfg0.N) (d) : (dats m 0 c).before 2 t d = iblk m c 2 t := before_in2_of m (dats m 0 c) (A_eq m c 2) (after2 m c) t d
theorem before3 (c : Dev nD) (t : Fin cfg0.N) (d) : (dats m 0 c).before 3 t d = iblk m c 3 t := before_in3_of m (dats m 0 c) (A_eq m c 3) (after3 m c) t d
theorem before4 (c : Dev nD) (t : Fin cfg0.N) (d) : (dats m 0 c).before 4 t d = iblk m c 4 t := before_in4_of m (dats m 0 c) (A_eq m c 4) (after4 m c) t d

end Cert.Kernel.Hand

end
-- ==== Proof.BitsBody.lean ====
/-
  The kernel's run over its grid, part four: the body obligation at every grid point, by the point's case.
-/
import proofs.«100299_j31928786879171_1_alg».proof.Proof.BitsAccum

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the point's position in its token tile says which
    case it is in; the invariant hands the body the accumulator and the weight column at what the point before left
    (at anything before the first point) and takes them back at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [show cfg0.idle 0 (grid0.coords t) = false from rfl], after0]
  rw [show (dats m 0 c).leavesExact 1 t = owns (c : Thread nD τ) (ms1 t) fullShare ((dats m 0 c).after 1 t) from by
    unfold Dat.leavesExact; rw [show cfg0.idle 1 (grid0.coords t) = false from rfl], after1]
  rw [show (dats m 0 c).leavesExact 2 t = owns (c : Thread nD τ) (ms2 t) fullShare ((dats m 0 c).after 2 t) from by
    unfold Dat.leavesExact; rw [show cfg0.idle 2 (grid0.coords t) = false from rfl], after2]
  rw [show (dats m 0 c).leavesExact 3 t = owns (c : Thread nD τ) (ms3 t) fullShare ((dats m 0 c).after 3 t) from by
    unfold Dat.leavesExact; rw [show cfg0.idle 3 (grid0.coords t) = false from rfl], after3]
  rw [show (dats m 0 c).leavesExact 4 t = owns (c : Thread nD τ) (ms4 t) fullShare ((dats m 0 c).after 4 t) from by
    unfold Dat.leavesExact; rw [show cfg0.idle 4 (grid0.coords t) = false from rfl], after4]
  have hN : t.val < 2816 := lt_of_lt_of_eq t.isLt (show cfg0.N = 2816 from N_0)
  by_cases h0 : t.val % 352 = 0
  · rw [Dat.leavesExact_idle (dats m 0 c) 5 t (idle_out t (fun h => by have := (hcondOut t).mp h; omega)) (noFlush_out t (fun h => by have := (hcondOut t).mp h; omega))]
    rw [outsAt_A m c t h0]
    unfold stepA accA colA; dsimp only
    by_cases hz : t.val = 0
    · rw [PhiS_castSucc m c t, PhiS_zero m c _ _ hz, scoped_eq]
      iintro ⟨⟨⟨%da, HA⟩, ⟨%dc, HC⟩⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexists _; iexact HA
      isplitl [HC]; · iexists _; iexact HC
      iintro ⟨H0, H1, H2, H3, H4, H5, ⟨%ea, HA⟩, ⟨%ec, HC⟩⟩
      isplitl [HA HC]
      · isplitl [HA]
        · unfold owns; iexists _; isplitr
          swap; · iexact HA
          ipureintro; exact View.read_writes_of_cover _ _ _ _ _ (coverAccA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
        unfold owns; iexists _; isplitr
        swap; · iexact HC
        ipureintro; exact View.read_writes_of_cover _ _ _ _ _ (coverColA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
      isplitl [Ho]; · iexact Ho
      isplitl [H0]; · iexact H0
      isplitl [H1]; · iexact H1
      isplitl [H2]; · iexact H2
      isplitl [H3]; · iexact H3
      isplitl [H4]; · iexact H4
      iexists _; iexact H5

    · rw [PhiS_castSucc m c t, PhiS_pos m c _ _ hz];
      iintro ⟨⟨HA, HC⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexists _; iexact HA
      isplitl [HC]; · iexists _; iexact HC
      iintro ⟨H0, H1, H2, H3, H4, H5, ⟨%ea, HA⟩, ⟨%ec, HC⟩⟩
      isplitl [HA HC]
      · isplitl [HA]
        · unfold owns; iexists _; isplitr
          swap; · iexact HA
          ipureintro; exact View.read_writes_of_cover _ _ _ _ _ (coverAccA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
        unfold owns; iexists _; isplitr
        swap; · iexact HC
        ipureintro; exact View.read_writes_of_cover _ _ _ _ _ (coverColA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
      isplitl [Ho]; · iexact Ho
      isplitl [H0]; · iexact H0
      isplitl [H1]; · iexact H1
      isplitl [H2]; · iexact H2
      isplitl [H3]; · iexact H3
      isplitl [H4]; · iexact H4
      iexists _; iexact H5

  · have hz : t.val ≠ 0 := fun h => h0 (by rw [h])
    by_cases h1 : t.val % 44 = 0
    · rw [Dat.leavesExact_idle (dats m 0 c) 5 t (idle_out t (fun h => by have := (hcondOut t).mp h; omega)) (noFlush_out t (fun h => by have := (hcondOut t).mp h; omega))]
      rw [outsAt_B m c t h0 h1]
      unfold stepB accB colB; dsimp only
      rw [PhiS_castSucc m c t, PhiS_pos m c _ _ hz];
      iintro ⟨⟨HA, HC⟩, Ho, ⟨%d0, H0⟩, ⟨%d1, H1⟩, ⟨%d2, H2⟩, ⟨%d3, H3⟩, ⟨%d4, H4⟩, ⟨%d5, H5⟩⟩
      iapply ((kernelRunB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) (outsAt m c (t.val - 1) (prevLt t)).2.1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HC]; · iexists _; iexact HC
      iintro ⟨H0, H1, H2, H3, H4, H5, ⟨%ea, HA⟩, ⟨%ec, HC⟩⟩
      isplitl [HA HC]
      · isplitl [HA]
        · unfold owns; iexists _; isplitr
          swap; · iexact HA
          ipureintro; exact View.read_writes_of_cover _ _ _ _ _ (coverAccB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) (outsAt m c (t.val - 1) (prevLt t)).2.1)
        unfold owns; iexists _; isplitr
        swap; · iexact HC
        ipureintro; exact View.read_writes_of_cover _ _ _ _ _ (coverColB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) (outsAt m c (t.val - 1) (prevLt t)).2.1)
      isplitl [Ho]; · iexact Ho
      isplitl [H0]; · iexact H0
      isplitl [H1]; · iexact H1
      isplitl [H2]; · iexact H2
      isplitl [H3]; · iexact H3
      isplitl [H4]; · iexact H4
      iexists _; iexact H5

    · by_cases h2 : t.val % 352 = 351
      · rw [show (dats m 0 c).leavesExact 5 t = owns (c : Thread nD τ) (ms5 t) fullShare ((dats m 0 c).after 5 t) from by
          unfold Dat.leavesExact; rw [live_out t ((hcondOut t).mpr h2)], after5]
        rw [outsAt_D m c t h2]
        unfold stepD accD outD; dsimp only
        rw [PhiS_castSucc m c t, PhiS_pos m c _ _ hz];
        iintro ⟨⟨HA, HC⟩, Ho, ⟨%d0, H0⟩, ⟨%d1, H1⟩, ⟨%d2, H2⟩, ⟨%d3, H3⟩, ⟨%d4, H4⟩, ⟨%d5, H5⟩⟩
        iapply ((kernelRunD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) (outsAt m c (t.val - 1) (prevLt t)).2.1 (outsAt m c (t.val - 1) (prevLt t)).2.2).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HA]; · iexact HA
        isplitl [HC]; · iexact HC
        iintro ⟨H0, H1, H2, H3, H4, ⟨%e5, H5⟩, ⟨%ea, HA⟩, HC⟩
        isplitl [HA HC]
        · isplitl [HA]
          · unfold owns; iexists _; isplitr
            swap; · iexact HA
            ipureintro; exact View.read_writes_of_cover _ _ _ _ _ (coverAccD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) (outsAt m c (t.val - 1) (prevLt t)).2.1 (outsAt m c (t.val - 1) (prevLt t)).2.2)
          iexact HC
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverOutD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) (outsAt m c (t.val - 1) (prevLt t)).2.1 (outsAt m c (t.val - 1) (prevLt t)).2.2)

      · rw [Dat.leavesExact_idle (dats m 0 c) 5 t (idle_out t (fun h => h2 ((hcondOut t).mp h))) (noFlush_out t (fun h => h2 ((hcondOut t).mp h)))]
        rw [outsAt_C m c t h1 h2]
        unfold stepC accC; dsimp only
        rw [PhiS_castSucc m c t, PhiS_pos m c _ _ hz];
        iintro ⟨⟨HA, HC⟩, Ho, ⟨%d0, H0⟩, ⟨%d1, H1⟩, ⟨%d2, H2⟩, ⟨%d3, H3⟩, ⟨%d4, H4⟩, ⟨%d5, H5⟩⟩
        iapply ((kernelRunC c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => h1 ((hcondCol t).mp h)) (fun h => h2 ((hcondOut t).mp h)) (iblk m c 0 t) (iblk m c 1 t) (iblk m c 2 t) (iblk m c 3 t) (iblk m c 4 t) (outsAt m c (t.val - 1) (prevLt t)).2.1 (outsAt m c (t.val - 1) (prevLt t)).2.2).2 _ Set.univ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HC]; · iexact HC
        iintro ⟨H0, H1, H2, H3, H4, H5, ⟨%ea, HA⟩, HC⟩
        isplitl [HA HC]
        · isplitl [HA]
          · unfold owns; iexists _; isplitr
            swap; · iexact HA
            ipureintro; exact View.read_writes_of_cover _ _ _ _ _ (coverAccC c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => h1 ((hcondCol t).mp h)) (fun h => h2 ((hcondOut t).mp h)) (iblk m c 0 t) (iblk m c 1 t) (iblk m c 2 t) (iblk m c 3 t) (iblk m c 4 t) (outsAt m c (t.val - 1) (prevLt t)).2.1 (outsAt m c (t.val - 1) (prevLt t)).2.2)
          iexact HC
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the region's entry hands the body is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back, their contents forgotten. -/
theorem Phi_out (c : Dev nD) (t : Fin (cfg0.N + 1)) (ht : t.val ≠ 0) : (dats m 0 c).Φ t ⊢
    (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scoped_eq]
  iintro ⟨HA, HC⟩
  isplitl [HA]
  · iexists _; iexact HA
  iexists _; iexact HC

/-- The same after the last point. -/
theorem hout (c : Dev nD) : (dats m 0 c).Φ (Fin.last cfg0.N) ⊢
    (Pipeline.scopedRest (Ix := Unit) (Name := ℕ) (U := UR sig nD τ) (Lvl := ℕ) (Val := Elt F) spec0 c : sProp 𝕄) :=
  Phi_out m c _ (by rw [Fin.val_last]; have : cfg0.N = 2816 := N_0; omega)

end Cert.Kernel.Hand

end
-- ==== Proof.BitsLaunch.lean ====
/-
  The kernel's run over its grid, part five: the launch. Two of the region's windows read one array (the gate
  and the up halves of an expert's weights), so the array's ownership is dealt between them by halves.
-/
import proofs.«100299_j31928786879171_1_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline in
/-- The five distinct buffers behind the six windows' arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg3) ↦{fullShare} V m c main_arg3)
          ∗ (((c.tc : Thread nD τ).loc main_arg4) ↦{fullShare} V m c main_arg4) ∗ (((c.tc : Thread nD τ).loc main_v14) ↦{fullShare} V m c main_v14)
          ∗ (((c.tc : Thread nD τ).loc main_v15) ↦{fullShare} V m c main_v15)) := by
  unfold Pipeline.arrBufs
  exact bigSep_eq_bigSepL_of_eq [main_arg0, main_arg3, main_arg4, main_v14, main_v15] (by decide) (by decide) _

open Idealize.ShloMosaic.Pipeline in
/-- The buffers behind the windows' arrays, each whole, make the proof data's arrays at entry: the gate/up weight
    array, which two windows read, is split between them half and half. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Dat.arrays
  rw [arrBufs_eq, bigSep_W0]
  have e0 : (dats m 0 c).share 0 = fullShare := rfl
  have e1 : (dats m 0 c).share 1 = fullShare.left := rfl
  have e2 : (dats m 0 c).share 2 = fullShare.right := rfl
  have e3 : (dats m 0 c).share 3 = fullShare := rfl
  have e4 : (dats m 0 c).share 4 = fullShare := rfl
  have e5 : (dats m 0 c).share 5 = fullShare := rfl
  rw [e0, e1, e2, e3, e4, e5]
  simp only [(arr_whole0 0).set_eq_univ, (arr_whole0 1).set_eq_univ, (arr_whole0 2).set_eq_univ, (arr_whole0 3).set_eq_univ,
    (arr_whole0 4).set_eq_univ, (arr_whole0 5).set_eq_univ]
  iintro ⟨H0, H3, H4, H14, H15⟩
  ihave Hs := (pointsTo_share (PosShare.mem_left_op_right fullShare)).1 $$ H3
  icases Hs with ⟨Hl, Hr⟩
  isplitl [H0]; · iexact H0
  isplitl [Hl]; · iexact Hl
  isplitl [Hr]; · iexact Hr
  isplitl [H4]; · iexact H4
  isplitl [H14]; · iexact H14
  iexact H15

/-- Nothing of the buffers that bypass the region is handed to the body. -/
theorem hX' (c : Dev nD) :
    (Pipeline.unscopedRest (Ix := Unit) (Name := ℕ) (U := UR sig nD τ) (Lvl := ℕ) spec0 c (V m c) : sProp 𝕄)
      ⊢ iprop(emp ∗ Pipeline.unscopedRest (Ix := Unit) (Name := ℕ) (U := UR sig nD τ) (Lvl := ℕ) spec0 c (V m c)) := by
  iintro H
  isplitr
  · iempintro
  iexact H

theorem hin' (c : Dev nD) :
    iprop(emp ∗ (Pipeline.scopedRest (Ix := Unit) (Name := ℕ) (U := UR sig nD τ) (Lvl := ℕ) (Val := Elt F) spec0 c : sProp 𝕄)) ⊢ (dats m 0 c).Φ 0 := by
  refine BIBase.Entails.trans ?_ (hin m c)
  iintro ⟨-, H⟩
  iexact H

theorem hout' (c : Dev nD) : (dats m 0 c).Φ (Fin.last cfg0.N) ⊢
    iprop(emp ∗ (Pipeline.scopedRest (Ix := Unit) (Name := ℕ) (U := UR sig nD τ) (Lvl := ℕ) (Val := Elt F) spec0 c : sProp 𝕄)) := by
  refine BIBase.Entails.trans (hout m c) ?_
  iintro H
  isplitr
  · iempintro
  iexact H

theorem hY' (c : Dev nD) (s' : Phys nD τ sig (Elt F)) :
    iprop(emp ∗ (Pipeline.unscopedRest (Ix := Unit) (Name := ℕ) (U := UR sig nD τ) (Lvl := ℕ) spec0 c (V m c) : sProp 𝕄) ∗ SI s')
      ⊢ |={Set.univ}=> iprop(⌜∀ b ∈ Pipeline.restRefs sig spec0, s'.mem.mem ((c.tc : Thread nD τ).loc b) = V m c b⌝ ∗ SI s') := by
  iintro ⟨-, HU, HSI⟩
  unfold Pipeline.unscopedRest
  imodintro
  iapply (pointsTo_read_all (Pipeline.restRefs sig spec0) (fun b => (c.tc : Thread nD τ).loc b) (V m c) s')
  isplitl [HU] <;> iassumption

open Idealize.ShloMosaic.Pipeline in
set_option backward.isDefEq.respectTransparency.types false in
/-- THE RUN. From any memory with zero counters every weakly fair execution of the program terminates without a fault;
    at the end every window's array holds what the write-backs of the proof data leave in it, and every other buffer
    that outlives the region what it held when the region was entered. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  Pipeline.θ_run_region_noSem_shared (Ix := Unit) (Name := ℕ) (U := UR sig nD τ) (Lvl := ℕ) cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (cells cfgs cellOf_inj) (launchToks cfgs cellOf_inj)) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := hX' m) (hin := hin' m) (hout := hout' m)
    (QY := fun c s => ∀ b ∈ Pipeline.restRefs sig spec0, s.mem ((c.tc : Thread nD τ).loc b) = V m c b)
    (hY := hY' m)
    (hQ := fun s h c => ⟨(h c).1, (h c).2⟩)

/-- The argument arrays end as launched: those a window stages are inputs, never written back; the other two bypass
    the region. The result array ends at what the write-backs leave in it. -/
theorem run_args : θ_run defs (onTc (τ := τ) (main (F := F))) ⟨m, fun _ => 0, ρ⟩ (fun r => ∀ c : Dev nD,
      r.2.mem ((c.tc : Thread nD τ).loc main_v15) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
    ((h c).1 0).trans (((dats m 0 c).arrAt_in 0 rfl _).trans ((A_eq m c 0).trans (V_of_arg m c main_arg0 (.inl rfl)))),
    ((h c).2 main_arg1 (Pipeline.mem_restRefs_of main_arg1 rfl (by decide))).trans (V_of_arg m c main_arg1 (.inr (.inl rfl))),
    ((h c).2 main_arg2 (Pipeline.mem_restRefs_of main_arg2 rfl (by decide))).trans (V_of_arg m c main_arg2 (.inr (.inr (.inl rfl)))),
    ((h c).1 1).trans (((dats m 0 c).arrAt_in 1 rfl _).trans ((A_eq m c 1).trans (V_of_arg m c main_arg3 (.inr (.inr (.inr (.inl rfl))))))),
    ((h c).1 3).trans (((dats m 0 c).arrAt_in 3 rfl _).trans ((A_eq m c 3).trans (V_of_arg m c main_arg4 (.inr (.inr (.inr (.inr rfl)))))))⟩) (run_main m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_args m ρ)

end Cert.Kernel.Hand

end
-- ==== Proof.IdealFrameBase.lean ====
/-
  The kernel's run over its grid, part one: the program around its one region, the windows' blocks, the three
  conditions of the body decided over the grid, and the memrefs the body is called with.
-/
import proofs.«100299_j31928786879171_1_alg».proof.Proof.Gen.KernelIdeal.Launch
import proofs.«100299_j31928786879171_1_alg».proof.Proof.Gen.KernelIdeal.Skeleton
import proofs.«100299_j31928786879171_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

Before the region the program computes, on the host, the dense table of routing weights (one row per token, one
column per expert) from the selected experts and the router weights; the region then reads that table and the three
float arguments. -/

/-- What every buffer of the core holds when the region is entered: the memory at launch, after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes an argument array: the region finds each as launched. -/
theorem V_of_arg (c : Dev nD) (b : Ref sig .tc)
    (hb : b = main_arg0 ∨ b = main_arg1 ∨ b = main_arg2 ∨ b = main_arg3 ∨ b = main_arg4) :
    V m c b = m ((c : Thread nD τ).loc b) := by
  rcases hb with rfl | rfl | rfl | rfl | rfl
  all_goals
    exact StableHlo.after_of_forall_not_mem (b := Proc.devRef .tc _) _ _ (List.forall_iff_forall_mem.mp (by
      simp only [hostOps0, hostOps0_1, hostOps0_2, hostOps0_3, hostOps0_4, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, StableHlo.TRef.unary, StableHlo.TRef.nullary,
        StableHlo.TRef.binary, Finset.mem_singleton]
      repeat' apply And.intro
      all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when it is not
    fetched the block index has not moved). One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid

The grid is 8 token tiles × 8 experts × 44 column tiles, walked in that order: point `t` is token tile `t / 352`,
expert `(t / 44) % 8`, column tile `t % 44`. -/

/-- The accumulator is reset: first expert and first column tile. -/
abbrev condReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcondReset : ∀ t : Fin cfg0.N, condReset (grid0.coords t) ↔ t.val % 352 = 0 :=
  (by decide +kernel : ∀ t : Fin grid0.N, condReset (grid0.coords t) ↔ t.val % 352 = 0)

/-- The expert's weight column is recomputed: first column tile. -/
abbrev condCol (i : grid0.Coords) : Prop :=
  (Scalar.cmpi .ne (Scalar.extui (Scalar.cmpi .eq (BitVec.ofNat 32 (i 2).val) 0#32)) 0#32) = 1#1
theorem hcondCol : ∀ t : Fin cfg0.N, condCol (grid0.coords t) ↔ t.val % 44 = 0 :=
  (by decide +kernel : ∀ t : Fin grid0.N, condCol (grid0.coords t) ↔ t.val % 44 = 0)

/-- The accumulator is written out: last expert and last column tile. -/
abbrev condOut (i : grid0.Coords) : Prop := k0_cond3 i = 1#1
theorem hcondOut : ∀ t : Fin cfg0.N, condOut (grid0.coords t) ↔ t.val % 352 = 351 :=
  (by decide +kernel : ∀ t : Fin grid0.N, condOut (grid0.coords t) ↔ t.val % 352 = 351)

/-- The output window is idle exactly where the accumulator is not written out, and is not written back there. -/
theorem idle_out : ∀ t : Fin cfg0.N, ¬condOut (grid0.coords t) → cfg0.idle 5 (grid0.coords t) = true := by decide +kernel
theorem noFlush_out : ∀ t : Fin cfg0.N, ¬condOut (grid0.coords t) → (cfg0.win 5).flush t = false := by decide +kernel
theorem live_out : ∀ t : Fin cfg0.N, condOut (grid0.coords t) → cfg0.idle 5 (grid0.coords t) = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x8 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .f32 := win0_5.stage (cfg0.slots t 5)
abbrev hs5 (t : Fin cfg0.N) : (ms5 t).IsWhole := hstage0_5 ((cfg0.slots t 5).cast nbuf0_5)
/-- The accumulator and the weight column: scratch buffers of the kernel's own. -/
abbrev accM : Memref sig .tc .vmem S512x2048 .f32 := Memref.whole cc0_scratch0
abbrev colM : Memref sig .tc .vmem S512x1 .f32 := Memref.whole cc0_scratch1
abbrev VO : View sig .tc .vmem S512x2048 .f32 := (Memref.whole cc0_stg5_0 : Memref sig .tc .vmem S512x2048 .f32).view
abbrev VAcc : View sig .tc .vmem S512x2048 .f32 := accM.view
abbrev VCol : View sig .tc .vmem S512x1 .f32 := colM.view

/-- The scratch buffers, each owned at some contents: what the region's entry hands the body and takes back. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ (∃ d, owns (c : Thread nD τ) colM fullShare d)) := by
  rw [scopedRest0_eq]; simp only [accM, colM, owns_whole]; try rfl

end Cert.KernelIdeal.Hand

end
-- ==== Proof.IdealRunA.lean ====
/-
  The kernel's run over its grid, part two: the body on whole memrefs, in case A of its three conditions.
-/
import proofs.«100299_j31928786879171_1_alg».proof.Proof.IdealFrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that starts a token tile (first expert, first column tile): the accumulator is stored to zero, the weight column recomputed, then the point's product added; the output block is not touched. On whole memrefs, the inputs at their contents, the body runs to a continuation holding the inputs as they were and the two scratch buffers with the pieces it stored (the lists are what the run finds). -/
noncomputable def kernelRunA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) :
    Σ' (LA : List (View.Piece (Elt F) S512x2048 .f32)), { LC : List (View.Piece (Elt F) S512x1 .f32) //
      ∀ (xi5 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, ?_, fun xi5 E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%da, %fa, -, HA⟩, ⟨%dc, %fc, -, HC⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HA]; · iexists _; iexact HA
    iexists _; iexact HC

end Cert.KernelIdeal.Hand

end
-- ==== Proof.IdealRunB.lean ====
/-
  The kernel's run over its grid, part two: the body on whole memrefs, in case B of its three conditions.
-/
import proofs.«100299_j31928786879171_1_alg».proof.Proof.IdealRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that starts a later expert (first column tile): the weight column is recomputed and the point's product added to the accumulator the point before left. -/
noncomputable def kernelRunB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) :
    Σ' (LA : List (View.Piece (Elt F) S512x2048 .f32)), { LC : List (View.Piece (Elt F) S512x1 .f32) //
      ∀ (xi5 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC)) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, ?_, fun xi5 E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fa, %hfa, HA⟩, ⟨%dc, %fc, -, HC⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfa
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HA]; · iexists _; iexact HA
    iexists _; iexact HC

end Cert.KernelIdeal.Hand

end
-- ==== Proof.IdealRunC.lean ====
/-
  The kernel's run over its grid, part two: the body on whole memrefs, in case C of its three conditions.
-/
import proofs.«100299_j31928786879171_1_alg».proof.Proof.IdealRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an inner point: the point's product, weighted by the column the expert's first point left, is added to the accumulator the point before left. -/
noncomputable def kernelRunC (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) :
    { LA : List (View.Piece (Elt F) S512x2048 .f32) //
      ∀ (xi5 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LA) ∗ owns (c : Thread nD τ) arg10 fullShare xs1) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, fun xi5 E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fa, %hfa, HA⟩, ⟨%fc, %hfc, HC⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfa; obtain rfl := harg10.eq_unread hfc
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HA]; · iexists _; iexact HA
    iexists _; isplitr; · ipureintro; exact harg10.read_unread _
    iexact HC

end Cert.KernelIdeal.Hand

end
-- ==== Proof.IdealRunD.lean ====
/-
  The kernel's run over its grid, part two: the body on whole memrefs, in case D of its three conditions.
-/
import proofs.«100299_j31928786879171_1_alg».proof.Proof.IdealRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a token tile's last point (last expert, last column tile): as at an inner point, and the accumulator is then copied whole into the output block. -/
noncomputable def kernelRunD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) :
    Σ' (L5 : List (View.Piece (Elt F) S512x2048 .f32)), { LA : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LA) ∗ owns (c : Thread nD τ) arg10 fullShare xs1) -∗ K ⟨⟩))
          ⊢ wp frame (wpE (defs₀ (F := F)) Variants.none c none) E (cc0__moe_kernel i arg3 harg3 arg4 harg4 arg5 harg5 arg6 harg6 arg7 harg7 arg8 harg8 arg9 harg9 arg10 harg10) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fa, %hfa, HA⟩, ⟨%fc, %hfc, HC⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfa; obtain rfl := harg10.eq_unread hfc
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HA]; · iexists _; iexact HA
    iexists _; isplitr; · ipureintro; exact harg10.read_unread _
    iexact HC

end Cert.KernelIdeal.Hand

end
-- ==== Proof.IdealAccum.lean ====
/-
  The kernel's run over its grid, part three: what each case of the body leaves in the accumulator, the weight
  column and the output block; their values point by point over the grid; the invariant and the proof data.
-/
import proofs.«100299_j31928786879171_1_alg».proof.Proof.IdealRunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into the accumulator cover it. -/
theorem coverAccA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (y : S512x2048.Idx) :
    ∃ pc ∈ (kernelRunA c i arg3 harg3 arg4 harg4 arg5 harg5 arg6 harg6 arg7 harg7 arg8 harg8 arg9 harg9 arg10 harg10 hc0 hc1 hc2 x0 x1 x2 x3 x4).1, y ∈ pc.1.set :=
  View.cover_of_tiledL (kernelRunA c i arg3 harg3 arg4 harg4 arg5 harg5 arg6 harg6 arg7 harg7 arg8 harg8 arg9 harg9 arg10 harg10 hc0 hc1 hc2 x0 x1 x2 x3 x4).1 S512x2048.size (by sl_kernel_rfl) y

/-- What case A leaves in the accumulator: its stores read back. -/
def accA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) : Vec F S512x2048 .f32 :=
  VAcc.read (Elt F) (VAcc.writes (Elt F) VAcc.junk (kernelRunA c i arg3 harg3 arg4 harg4 arg5 harg5 arg6 harg6 arg7 harg7 arg8 harg8 arg9 harg9 arg10 harg10 hc0 hc1 hc2 x0 x1 x2 x3 x4).1)

/-- Case A's store into the weight column covers it. -/
theorem coverColA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (y : S512x1.Idx) :
    ∃ pc ∈ (kernelRunA c i arg3 harg3 arg4 harg4 arg5 harg5 arg6 harg6 arg7 harg7 arg8 harg8 arg9 harg9 arg10 harg10 hc0 hc1 hc2 x0 x1 x2 x3 x4).2.1, y ∈ pc.1.set :=
  View.cover_of_tiledL (kernelRunA c i arg3 harg3 arg4 harg4 arg5 harg5 arg6 harg6 arg7 harg7 arg8 harg8 arg9 harg9 arg10 harg10 hc0 hc1 hc2 x0 x1 x2 x3 x4).2.1 S512x1.size (by sl_kernel_rfl) y

/-- What case A leaves in the weight column. -/
def colA (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) : Vec F S512x1 .f32 :=
  VCol.read (Elt F) (VCol.writes (Elt F) VCol.junk (kernelRunA c i arg3 harg3 arg4 harg4 arg5 harg5 arg6 harg6 arg7 harg7 arg8 harg8 arg9 harg9 arg10 harg10 hc0 hc1 hc2 x0 x1 x2 x3 x4).2.1)

/-- Case B's stores into the accumulator cover it. -/
theorem coverAccB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (y : S512x2048.Idx) :
    ∃ pc ∈ (kernelRunB c i arg3 harg3 arg4 harg4 arg5 harg5 arg6 harg6 arg7 harg7 arg8 harg8 arg9 harg9 arg10 harg10 hc0 hc1 hc2 x0 x1 x2 x3 x4 xs0).1, y ∈ pc.1.set :=
  View.cover_of_tiledL (kernelRunB c i arg3 harg3 arg4 harg4 arg5 harg5 arg6 harg6 arg7 harg7 arg8 harg8 arg9 harg9 arg10 harg10 hc0 hc1 hc2 x0 x1 x2 x3 x4 xs0).1 S512x2048.size (by sl_kernel_rfl) y

/-- What case B leaves in the accumulator: its stores read back. -/
def accB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) : Vec F S512x2048 .f32 :=
  VAcc.read (Elt F) (VAcc.writes (Elt F) VAcc.junk (kernelRunB c i arg3 harg3 arg4 harg4 arg5 harg5 arg6 harg6 arg7 harg7 arg8 harg8 arg9 harg9 arg10 harg10 hc0 hc1 hc2 x0 x1 x2 x3 x4 xs0).1)

/-- Case B's store into the weight column covers it. -/
theorem coverColB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (y : S512x1.Idx) :
    ∃ pc ∈ (kernelRunB c i arg3 harg3 arg4 harg4 arg5 harg5 arg6 harg6 arg7 harg7 arg8 harg8 arg9 harg9 arg10 harg10 hc0 hc1 hc2 x0 x1 x2 x3 x4 xs0).2.1, y ∈ pc.1.set :=
  View.cover_of_tiledL (kernelRunB c i arg3 harg3 arg4 harg4 arg5 harg5 arg6 harg6 arg7 harg7 arg8 harg8 arg9 harg9 arg10 harg10 hc0 hc1 hc2 x0 x1 x2 x3 x4 xs0).2.1 S512x1.size (by sl_kernel_rfl) y

/-- What case B leaves in the weight column. -/
def colB (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) : Vec F S512x1 .f32 :=
  VCol.read (Elt F) (VCol.writes (Elt F) VCol.junk (kernelRunB c i arg3 harg3 arg4 harg4 arg5 harg5 arg6 harg6 arg7 harg7 arg8 harg8 arg9 harg9 arg10 harg10 hc0 hc1 hc2 x0 x1 x2 x3 x4 xs0).2.1)

/-- Case C's stores into the accumulator cover it. -/
theorem coverAccC (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) (y : S512x2048.Idx) :
    ∃ pc ∈ (kernelRunC c i arg3 harg3 arg4 harg4 arg5 harg5 arg6 harg6 arg7 harg7 arg8 harg8 arg9 harg9 arg10 harg10 hc0 hc1 hc2 x0 x1 x2 x3 x4 xs0 xs1).1, y ∈ pc.1.set :=
  View.cover_of_tiledL (kernelRunC c i arg3 harg3 arg4 harg4 arg5 harg5 arg6 harg6 arg7 harg7 arg8 harg8 arg9 harg9 arg10 harg10 hc0 hc1 hc2 x0 x1 x2 x3 x4 xs0 xs1).1 S512x2048.size (by sl_kernel_rfl) y

/-- What case C leaves in the accumulator: its stores read back. -/
def accC (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : Vec F S512x2048 .f32 :=
  VAcc.read (Elt F) (VAcc.writes (Elt F) VAcc.junk (kernelRunC c i arg3 harg3 arg4 harg4 arg5 harg5 arg6 harg6 arg7 harg7 arg8 harg8 arg9 harg9 arg10 harg10 hc0 hc1 hc2 x0 x1 x2 x3 x4 xs0 xs1).1)

/-- Case D's stores into the accumulator cover it. -/
theorem coverAccD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) (y : S512x2048.Idx) :
    ∃ pc ∈ (kernelRunD c i arg3 harg3 arg4 harg4 arg5 harg5 arg6 harg6 arg7 harg7 arg8 harg8 arg9 harg9 arg10 harg10 hc0 hc1 hc2 x0 x1 x2 x3 x4 xs0 xs1).2.1, y ∈ pc.1.set :=
  View.cover_of_tiledL (kernelRunD c i arg3 harg3 arg4 harg4 arg5 harg5 arg6 harg6 arg7 harg7 arg8 harg8 arg9 harg9 arg10 harg10 hc0 hc1 hc2 x0 x1 x2 x3 x4 xs0 xs1).2.1 S512x2048.size (by sl_kernel_rfl) y

/-- What case D leaves in the accumulator: its stores read back. -/
def accD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : Vec F S512x2048 .f32 :=
  VAcc.read (Elt F) (VAcc.writes (Elt F) VAcc.junk (kernelRunD c i arg3 harg3 arg4 harg4 arg5 harg5 arg6 harg6 arg7 harg7 arg8 harg8 arg9 harg9 arg10 harg10 hc0 hc1 hc2 x0 x1 x2 x3 x4 xs0 xs1).2.1)

/-- Case D's store into the output block covers it. -/
theorem coverOutD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) (y : S512x2048.Idx) :
    ∃ pc ∈ (kernelRunD c i arg3 harg3 arg4 harg4 arg5 harg5 arg6 harg6 arg7 harg7 arg8 harg8 arg9 harg9 arg10 harg10 hc0 hc1 hc2 x0 x1 x2 x3 x4 xs0 xs1).1, y ∈ pc.1.set :=
  View.cover_of_tiledL (kernelRunD c i arg3 harg3 arg4 harg4 arg5 harg5 arg6 harg6 arg7 harg7 arg8 harg8 arg9 harg9 arg10 harg10 hc0 hc1 hc2 x0 x1 x2 x3 x4 xs0 xs1).1 S512x2048.size (by sl_kernel_rfl) y

/-- What case D leaves in the output block. -/
def outD (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : Vec F S512x2048 .f32 :=
  VO.read (Elt F) (VO.writes (Elt F) VO.junk (kernelRunD c i arg3 harg3 arg4 harg4 arg5 harg5 arg6 harg6 arg7 harg7 arg8 harg8 arg9 harg9 arg10 harg10 hc0 hc1 hc2 x0 x1 x2 x3 x4 xs0 xs1).1)

/-! ## What the output block, the accumulator and the weight column hold after each point -/

/-- A token tile's first point: the accumulator restarts from zero, the weight column is the first expert's. -/
def stepA (c : Dev nD) (t : Fin cfg0.N) (h0 : t.val % 352 = 0) : Vec F S512x2048 .f32 × Vec F S512x2048 .f32 × Vec F S512x1 .f32 :=
  (VO.read (Elt F) VO.junk, accA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t), colA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))

/-- A later expert's first point: the weight column is that expert's, the accumulator goes on from `xs0`. -/
def stepB (c : Dev nD) (t : Fin cfg0.N) (h0 : ¬t.val % 352 = 0) (h1 : t.val % 44 = 0) (xs0 : Vec F S512x2048 .f32) : Vec F S512x2048 .f32 × Vec F S512x2048 .f32 × Vec F S512x1 .f32 :=
  (VO.read (Elt F) VO.junk, accB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) xs0, colB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) xs0)

/-- An inner point: the accumulator goes on from `xs0`, the weight column `xs1` stays. -/
def stepC (c : Dev nD) (t : Fin cfg0.N) (h1 : ¬t.val % 44 = 0) (h2 : ¬t.val % 352 = 351) (xs0 : Vec F S512x2048 .f32) (xs1 : Vec F S512x1 .f32) : Vec F S512x2048 .f32 × Vec F S512x2048 .f32 × Vec F S512x1 .f32 :=
  (VO.read (Elt F) VO.junk, accC c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => h1 ((hcondCol t).mp h)) (fun h => h2 ((hcondOut t).mp h)) (iblk m c 0 t) (iblk m c 1 t) (iblk m c 2 t) (iblk m c 3 t) (iblk m c 4 t) xs0 xs1, xs1)

/-- A token tile's last point: as an inner point, and the output block receives the accumulator. -/
def stepD (c : Dev nD) (t : Fin cfg0.N) (h2 : t.val % 352 = 351) (xs0 : Vec F S512x2048 .f32) (xs1 : Vec F S512x1 .f32) : Vec F S512x2048 .f32 × Vec F S512x2048 .f32 × Vec F S512x1 .f32 :=
  (outD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) xs0 xs1, accD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) xs0 xs1, xs1)

/-- THE ACCUMULATION over the grid, point by point: (output block, accumulator, weight column) after point `n`. -/
def outsAt (c : Dev nD) : (n : ℕ) → n < cfg0.N → Vec F S512x2048 .f32 × Vec F S512x2048 .f32 × Vec F S512x1 .f32
  | 0, hn => stepA m c ⟨0, hn⟩ (Nat.zero_mod _)
  | n + 1, hn =>
    if h0 : (n + 1) % 352 = 0 then stepA m c ⟨n + 1, hn⟩ h0
    else if h1 : (n + 1) % 44 = 0 then stepB m c ⟨n + 1, hn⟩ h0 h1 (outsAt c n (Nat.lt_of_succ_lt hn)).2.1
    else if h2 : (n + 1) % 352 = 351 then stepD m c ⟨n + 1, hn⟩ h2 (outsAt c n (Nat.lt_of_succ_lt hn)).2.1 (outsAt c n (Nat.lt_of_succ_lt hn)).2.2
    else stepC m c ⟨n + 1, hn⟩ h1 h2 (outsAt c n (Nat.lt_of_succ_lt hn)).2.1 (outsAt c n (Nat.lt_of_succ_lt hn)).2.2

/-- The point before `t`. -/
abbrev prevLt (t : Fin cfg0.N) : t.val - 1 < cfg0.N := Nat.lt_of_le_of_lt (Nat.sub_le _ _) t.isLt

theorem outsAt_A (c : Dev nD) (t : Fin cfg0.N) (h0 : t.val % 352 = 0) : outsAt m c t.val t.isLt = stepA m c t h0 := by
  obtain ⟨n, hn⟩ := t
  cases n with
  | zero => exact rfl
  | succ n => exact (dif_pos h0).trans rfl

theorem outsAt_B (c : Dev nD) (t : Fin cfg0.N) (h0 : ¬t.val % 352 = 0) (h1 : t.val % 44 = 0) :
    outsAt m c t.val t.isLt = stepB m c t h0 h1 (outsAt m c (t.val - 1) (prevLt t)).2.1 := by
  obtain ⟨n, hn⟩ := t
  cases n with
  | zero => exact absurd (Nat.zero_mod _) h0
  | succ n => exact (dif_neg h0).trans ((dif_pos h1).trans rfl)

theorem outsAt_C (c : Dev nD) (t : Fin cfg0.N) (h1 : ¬t.val % 44 = 0) (h2 : ¬t.val % 352 = 351) :
    outsAt m c t.val t.isLt = stepC m c t h1 h2 (outsAt m c (t.val - 1) (prevLt t)).2.1 (outsAt m c (t.val - 1) (prevLt t)).2.2 := by
  obtain ⟨n, hn⟩ := t
  cases n with
  | zero => exact absurd (Nat.zero_mod _) h1
  | succ n =>
    have h0 : ¬(n + 1) % 352 = 0 := fun h => h1 (by dsimp only at h ⊢; omega)
    exact (dif_neg h0).trans ((dif_neg h1).trans ((dif_neg h2).trans rfl))

theorem outsAt_D (c : Dev nD) (t : Fin cfg0.N) (h2 : t.val % 352 = 351) :
    outsAt m c t.val t.isLt = stepD m c t h2 (outsAt m c (t.val - 1) (prevLt t)).2.1 (outsAt m c (t.val - 1) (prevLt t)).2.2 := by
  obtain ⟨n, hn⟩ := t
  cases n with
  | zero => exact (by dsimp only at h2; omega)
  | succ n =>
    have h0 : ¬(n + 1) % 352 = 0 := fun h => by dsimp only at h h2; omega
    have h1 : ¬(n + 1) % 44 = 0 := fun h => by dsimp only at h h2; omega
    exact (dif_neg h0).trans ((dif_neg h1).trans ((dif_pos h2).trans rfl))

/-! ## The invariant and the proof data -/

/-- Before the first point the two scratch buffers hold anything; after point `n` they hold what it left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare (outsAt m c n hn).2.1 ∗ owns (c : Thread nD τ) colM fullShare (outsAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) accM fullShare (outsAt m c n hn).2.1 ∗ owns (c : Thread nD τ) colM fullShare (outsAt m c n hn).2.2) := rfl

theorem PhiS_pos (c : Dev nD) (n : ℕ) (h : n ≤ cfg0.N) (hz : n ≠ 0) :
    PhiS m c n h = iprop(owns (c : Thread nD τ) accM fullShare (outsAt m c (n - 1) (by omega)).2.1 ∗ owns (c : Thread nD τ) colM fullShare (outsAt m c (n - 1) (by omega)).2.2) := by
  cases n with
  | zero => exact absurd rfl hz
  | succ n => rfl

/-- The proof data of the region on core `c`. The two windows on the gate/up weight array hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t := before_in0_of m (dats m 0 c) (A_eq m c 0) (after0 m c) t d
theorem before1 (c : Dev nD) (t : Fin cfg0.N) (d) : (dats m 0 c).before 1 t d = iblk m c 1 t := before_in1_of m (dats m 0 c) (A_eq m c 1) (after1 m c) t d
theorem before2 (c : Dev nD) (t : Fin cfg0.N) (d) : (dats m 0 c).before 2 t d = iblk m c 2 t := before_in2_of m (dats m 0 c) (A_eq m c 2) (after2 m c) t d
theorem before3 (c : Dev nD) (t : Fin cfg0.N) (d) : (dats m 0 c).before 3 t d = iblk m c 3 t := before_in3_of m (dats m 0 c) (A_eq m c 3) (after3 m c) t d
theorem before4 (c : Dev nD) (t : Fin cfg0.N) (d) : (dats m 0 c).before 4 t d = iblk m c 4 t := before_in4_of m (dats m 0 c) (A_eq m c 4) (after4 m c) t d

end Cert.KernelIdeal.Hand

end
-- ==== Proof.IdealBody.lean ====
/-
  The kernel's run over its grid, part four: the body obligation at every grid point, by the point's case.
-/
import proofs.«100299_j31928786879171_1_alg».proof.Proof.IdealAccum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the point's position in its token tile says which
    case it is in; the invariant hands the body the accumulator and the weight column at what the point before left
    (at anything before the first point) and takes them back at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [show cfg0.idle 0 (grid0.coords t) = false from rfl], after0]
  rw [show (dats m 0 c).leavesExact 1 t = owns (c : Thread nD τ) (ms1 t) fullShare ((dats m 0 c).after 1 t) from by
    unfold Dat.leavesExact; rw [show cfg0.idle 1 (grid0.coords t) = false from rfl], after1]
  rw [show (dats m 0 c).leavesExact 2 t = owns (c : Thread nD τ) (ms2 t) fullShare ((dats m 0 c).after 2 t) from by
    unfold Dat.leavesExact; rw [show cfg0.idle 2 (grid0.coords t) = false from rfl], after2]
  rw [show (dats m 0 c).leavesExact 3 t = owns (c : Thread nD τ) (ms3 t) fullShare ((dats m 0 c).after 3 t) from by
    unfold Dat.leavesExact; rw [show cfg0.idle 3 (grid0.coords t) = false from rfl], after3]
  rw [show (dats m 0 c).leavesExact 4 t = owns (c : Thread nD τ) (ms4 t) fullShare ((dats m 0 c).after 4 t) from by
    unfold Dat.leavesExact; rw [show cfg0.idle 4 (grid0.coords t) = false from rfl], after4]
  have hN : t.val < 2816 := lt_of_lt_of_eq t.isLt (show cfg0.N = 2816 from N_0)
  by_cases h0 : t.val % 352 = 0
  · rw [Dat.leavesExact_idle (dats m 0 c) 5 t (idle_out t (fun h => by have := (hcondOut t).mp h; omega)) (noFlush_out t (fun h => by have := (hcondOut t).mp h; omega))]
    rw [outsAt_A m c t h0]
    unfold stepA accA colA; dsimp only
    by_cases hz : t.val = 0
    · rw [PhiS_castSucc m c t, PhiS_zero m c _ _ hz, scoped_eq]
      iintro ⟨⟨⟨%da, HA⟩, ⟨%dc, HC⟩⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexists _; iexact HA
      isplitl [HC]; · iexists _; iexact HC
      iintro ⟨H0, H1, H2, H3, H4, H5, ⟨%ea, HA⟩, ⟨%ec, HC⟩⟩
      isplitl [HA HC]
      · isplitl [HA]
        · unfold owns; iexists _; isplitr
          swap; · iexact HA
          ipureintro; exact View.read_writes_of_cover _ _ _ _ _ (coverAccA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
        unfold owns; iexists _; isplitr
        swap; · iexact HC
        ipureintro; exact View.read_writes_of_cover _ _ _ _ _ (coverColA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
      isplitl [Ho]; · iexact Ho
      isplitl [H0]; · iexact H0
      isplitl [H1]; · iexact H1
      isplitl [H2]; · iexact H2
      isplitl [H3]; · iexact H3
      isplitl [H4]; · iexact H4
      iexists _; iexact H5

    · rw [PhiS_castSucc m c t, PhiS_pos m c _ _ hz];
      iintro ⟨⟨HA, HC⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexists _; iexact HA
      isplitl [HC]; · iexists _; iexact HC
      iintro ⟨H0, H1, H2, H3, H4, H5, ⟨%ea, HA⟩, ⟨%ec, HC⟩⟩
      isplitl [HA HC]
      · isplitl [HA]
        · unfold owns; iexists _; isplitr
          swap; · iexact HA
          ipureintro; exact View.read_writes_of_cover _ _ _ _ _ (coverAccA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
        unfold owns; iexists _; isplitr
        swap; · iexact HC
        ipureintro; exact View.read_writes_of_cover _ _ _ _ _ (coverColA c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) ((hcondReset t).mpr h0) ((hcondCol t).mpr (by omega)) (fun h => by have := (hcondOut t).mp h; omega) (iblk m c 0 t) (iblk m c 1 t) (iblk m c 2 t) (iblk m c 3 t) (iblk m c 4 t))
      isplitl [Ho]; · iexact Ho
      isplitl [H0]; · iexact H0
      isplitl [H1]; · iexact H1
      isplitl [H2]; · iexact H2
      isplitl [H3]; · iexact H3
      isplitl [H4]; · iexact H4
      iexists _; iexact H5

  · have hz : t.val ≠ 0 := fun h => h0 (by rw [h])
    by_cases h1 : t.val % 44 = 0
    · rw [Dat.leavesExact_idle (dats m 0 c) 5 t (idle_out t (fun h => by have := (hcondOut t).mp h; omega)) (noFlush_out t (fun h => by have := (hcondOut t).mp h; omega))]
      rw [outsAt_B m c t h0 h1]
      unfold stepB accB colB; dsimp only
      rw [PhiS_castSucc m c t, PhiS_pos m c _ _ hz];
      iintro ⟨⟨HA, HC⟩, Ho, ⟨%d0, H0⟩, ⟨%d1, H1⟩, ⟨%d2, H2⟩, ⟨%d3, H3⟩, ⟨%d4, H4⟩, ⟨%d5, H5⟩⟩
      iapply ((kernelRunB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) (outsAt m c (t.val - 1) (prevLt t)).2.1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HC]; · iexists _; iexact HC
      iintro ⟨H0, H1, H2, H3, H4, H5, ⟨%ea, HA⟩, ⟨%ec, HC⟩⟩
      isplitl [HA HC]
      · isplitl [HA]
        · unfold owns; iexists _; isplitr
          swap; · iexact HA
          ipureintro; exact View.read_writes_of_cover _ _ _ _ _ (coverAccB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) (outsAt m c (t.val - 1) (prevLt t)).2.1)
        unfold owns; iexists _; isplitr
        swap; · iexact HC
        ipureintro; exact View.read_writes_of_cover _ _ _ _ _ (coverColB c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => h0 ((hcondReset t).mp h)) ((hcondCol t).mpr h1) (fun h => by have := (hcondOut t).mp h; omega) (iblk m c 0 t) (iblk m c 1 t) (iblk m c 2 t) (iblk m c 3 t) (iblk m c 4 t) (outsAt m c (t.val - 1) (prevLt t)).2.1)
      isplitl [Ho]; · iexact Ho
      isplitl [H0]; · iexact H0
      isplitl [H1]; · iexact H1
      isplitl [H2]; · iexact H2
      isplitl [H3]; · iexact H3
      isplitl [H4]; · iexact H4
      iexists _; iexact H5

    · by_cases h2 : t.val % 352 = 351
      · rw [show (dats m 0 c).leavesExact 5 t = owns (c : Thread nD τ) (ms5 t) fullShare ((dats m 0 c).after 5 t) from by
          unfold Dat.leavesExact; rw [live_out t ((hcondOut t).mpr h2)], after5]
        rw [outsAt_D m c t h2]
        unfold stepD accD outD; dsimp only
        rw [PhiS_castSucc m c t, PhiS_pos m c _ _ hz];
        iintro ⟨⟨HA, HC⟩, Ho, ⟨%d0, H0⟩, ⟨%d1, H1⟩, ⟨%d2, H2⟩, ⟨%d3, H3⟩, ⟨%d4, H4⟩, ⟨%d5, H5⟩⟩
        iapply ((kernelRunD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) (outsAt m c (t.val - 1) (prevLt t)).2.1 (outsAt m c (t.val - 1) (prevLt t)).2.2).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HA]; · iexact HA
        isplitl [HC]; · iexact HC
        iintro ⟨H0, H1, H2, H3, H4, ⟨%e5, H5⟩, ⟨%ea, HA⟩, HC⟩
        isplitl [HA HC]
        · isplitl [HA]
          · unfold owns; iexists _; isplitr
            swap; · iexact HA
            ipureintro; exact View.read_writes_of_cover _ _ _ _ _ (coverAccD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) (outsAt m c (t.val - 1) (prevLt t)).2.1 (outsAt m c (t.val - 1) (prevLt t)).2.2)
          iexact HC
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverOutD c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => by have := (hcondCol t).mp h; omega) ((hcondOut t).mpr h2) (iblk m c 0 t) (iblk m c 1 t) (iblk m c 2 t) (iblk m c 3 t) (iblk m c 4 t) (outsAt m c (t.val - 1) (prevLt t)).2.1 (outsAt m c (t.val - 1) (prevLt t)).2.2)

      · rw [Dat.leavesExact_idle (dats m 0 c) 5 t (idle_out t (fun h => h2 ((hcondOut t).mp h))) (noFlush_out t (fun h => h2 ((hcondOut t).mp h)))]
        rw [outsAt_C m c t h1 h2]
        unfold stepC accC; dsimp only
        rw [PhiS_castSucc m c t, PhiS_pos m c _ _ hz];
        iintro ⟨⟨HA, HC⟩, Ho, ⟨%d0, H0⟩, ⟨%d1, H1⟩, ⟨%d2, H2⟩, ⟨%d3, H3⟩, ⟨%d4, H4⟩, ⟨%d5, H5⟩⟩
        iapply ((kernelRunC c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => h1 ((hcondCol t).mp h)) (fun h => h2 ((hcondOut t).mp h)) (iblk m c 0 t) (iblk m c 1 t) (iblk m c 2 t) (iblk m c 3 t) (iblk m c 4 t) (outsAt m c (t.val - 1) (prevLt t)).2.1 (outsAt m c (t.val - 1) (prevLt t)).2.2).2 _ Set.univ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HC]; · iexact HC
        iintro ⟨H0, H1, H2, H3, H4, H5, ⟨%ea, HA⟩, HC⟩
        isplitl [HA HC]
        · isplitl [HA]
          · unfold owns; iexists _; isplitr
            swap; · iexact HA
            ipureintro; exact View.read_writes_of_cover _ _ _ _ _ (coverAccC c (grid0.coords t) (ms0 t) (hs0 t) (ms1 t) (hs1 t) (ms2 t) (hs2 t) (ms3 t) (hs3 t) (ms4 t) (hs4 t) (ms5 t) (hs5 t) accM (Memref.isWhole_whole _) colM (Memref.isWhole_whole _) (fun h => by have := (hcondReset t).mp h; omega) (fun h => h1 ((hcondCol t).mp h)) (fun h => h2 ((hcondOut t).mp h)) (iblk m c 0 t) (iblk m c 1 t) (iblk m c 2 t) (iblk m c 3 t) (iblk m c 4 t) (outsAt m c (t.val - 1) (prevLt t)).2.1 (outsAt m c (t.val - 1) (prevLt t)).2.2)
          iexact HC
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the region's entry hands the body is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back, their contents forgotten. -/
theorem Phi_out (c : Dev nD) (t : Fin (cfg0.N + 1)) (ht : t.val ≠ 0) : (dats m 0 c).Φ t ⊢
    (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scoped_eq]
  iintro ⟨HA, HC⟩
  isplitl [HA]
  · iexists _; iexact HA
  iexists _; iexact HC

/-- The same after the last point. -/
theorem hout (c : Dev nD) : (dats m 0 c).Φ (Fin.last cfg0.N) ⊢
    (Pipeline.scopedRest (Ix := Unit) (Name := ℕ) (U := UR sig nD τ) (Lvl := ℕ) (Val := Elt F) spec0 c : sProp 𝕄) :=
  Phi_out m c _ (by rw [Fin.val_last]; have : cfg0.N = 2816 := N_0; omega)

end Cert.KernelIdeal.Hand

end
-- ==== Proof.IdealLaunch.lean ====
/-
  The kernel's run over its grid, part five: the launch. Two of the region's windows read one array (the gate
  and the up halves of an expert's weights), so the array's ownership is dealt between them by halves.
-/
import proofs.«100299_j31928786879171_1_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline in
/-- The five distinct buffers behind the six windows' arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg3) ↦{fullShare} V m c main_arg3)
          ∗ (((c.tc : Thread nD τ).loc main_arg4) ↦{fullShare} V m c main_arg4) ∗ (((c.tc : Thread nD τ).loc main_v14) ↦{fullShare} V m c main_v14)
          ∗ (((c.tc : Thread nD τ).loc main_v15) ↦{fullShare} V m c main_v15)) := by
  unfold Pipeline.arrBufs
  exact bigSep_eq_bigSepL_of_eq [main_arg0, main_arg3, main_arg4, main_v14, main_v15] (by decide) (by decide) _

open Idealize.ShloMosaic.Pipeline in
/-- The buffers behind the windows' arrays, each whole, make the proof data's arrays at entry: the gate/up weight
    array, which two windows read, is split between them half and half. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Dat.arrays
  rw [arrBufs_eq, bigSep_W0]
  have e0 : (dats m 0 c).share 0 = fullShare := rfl
  have e1 : (dats m 0 c).share 1 = fullShare.left := rfl
  have e2 : (dats m 0 c).share 2 = fullShare.right := rfl
  have e3 : (dats m 0 c).share 3 = fullShare := rfl
  have e4 : (dats m 0 c).share 4 = fullShare := rfl
  have e5 : (dats m 0 c).share 5 = fullShare := rfl
  rw [e0, e1, e2, e3, e4, e5]
  simp only [(arr_whole0 0).set_eq_univ, (arr_whole0 1).set_eq_univ, (arr_whole0 2).set_eq_univ, (arr_whole0 3).set_eq_univ,
    (arr_whole0 4).set_eq_univ, (arr_whole0 5).set_eq_univ]
  iintro ⟨H0, H3, H4, H14, H15⟩
  ihave Hs := (pointsTo_share (PosShare.mem_left_op_right fullShare)).1 $$ H3
  icases Hs with ⟨Hl, Hr⟩
  isplitl [H0]; · iexact H0
  isplitl [Hl]; · iexact Hl
  isplitl [Hr]; · iexact Hr
  isplitl [H4]; · iexact H4
  isplitl [H14]; · iexact H14
  iexact H15

/-- Nothing of the buffers that bypass the region is handed to the body. -/
theorem hX' (c : Dev nD) :
    (Pipeline.unscopedRest (Ix := Unit) (Name := ℕ) (U := UR sig nD τ) (Lvl := ℕ) spec0 c (V m c) : sProp 𝕄)
      ⊢ iprop(emp ∗ Pipeline.unscopedRest (Ix := Unit) (Name := ℕ) (U := UR sig nD τ) (Lvl := ℕ) spec0 c (V m c)) := by
  iintro H
  isplitr
  · iempintro
  iexact H

theorem hin' (c : Dev nD) :
    iprop(emp ∗ (Pipeline.scopedRest (Ix := Unit) (Name := ℕ) (U := UR sig nD τ) (Lvl := ℕ) (Val := Elt F) spec0 c : sProp 𝕄)) ⊢ (dats m 0 c).Φ 0 := by
  refine BIBase.Entails.trans ?_ (hin m c)
  iintro ⟨-, H⟩
  iexact H

theorem hout' (c : Dev nD) : (dats m 0 c).Φ (Fin.last cfg0.N) ⊢
    iprop(emp ∗ (Pipeline.scopedRest (Ix := Unit) (Name := ℕ) (U := UR sig nD τ) (Lvl := ℕ) (Val := Elt F) spec0 c : sProp 𝕄)) := by
  refine BIBase.Entails.trans (hout m c) ?_
  iintro H
  isplitr
  · iempintro
  iexact H

theorem hY' (c : Dev nD) (s' : Phys nD τ sig (Elt F)) :
    iprop(emp ∗ (Pipeline.unscopedRest (Ix := Unit) (Name := ℕ) (U := UR sig nD τ) (Lvl := ℕ) spec0 c (V m c) : sProp 𝕄) ∗ SI s')
      ⊢ |={Set.univ}=> iprop(⌜∀ b ∈ Pipeline.restRefs sig spec0, s'.mem.mem ((c.tc : Thread nD τ).loc b) = V m c b⌝ ∗ SI s') := by
  iintro ⟨-, HU, HSI⟩
  unfold Pipeline.unscopedRest
  imodintro
  iapply (pointsTo_read_all (Pipeline.restRefs sig spec0) (fun b => (c.tc : Thread nD τ).loc b) (V m c) s')
  isplitl [HU] <;> iassumption

open Idealize.ShloMosaic.Pipeline in
set_option backward.isDefEq.respectTransparency.types false in
/-- THE RUN. From any memory with zero counters every weakly fair execution of the program terminates without a fault;
    at the end every window's array holds what the write-backs of the proof data leave in it, and every other buffer
    that outlives the region what it held when the region was entered. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  Pipeline.θ_run_region_noSem_shared (Ix := Unit) (Name := ℕ) (U := UR sig nD τ) (Lvl := ℕ) cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (cells cfgs cellOf_inj) (launchToks cfgs cellOf_inj)) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := hX' m) (hin := hin' m) (hout := hout' m)
    (QY := fun c s => ∀ b ∈ Pipeline.restRefs sig spec0, s.mem ((c.tc : Thread nD τ).loc b) = V m c b)
    (hY := hY' m)
    (hQ := fun s h c => ⟨(h c).1, (h c).2⟩)

/-- The argument arrays end as launched: those a window stages are inputs, never written back; the other two bypass
    the region. The result array ends at what the write-backs leave in it. -/
theorem run_args : θ_run defs (onTc (τ := τ) (main (F := F))) ⟨m, fun _ => 0, ρ⟩ (fun r => ∀ c : Dev nD,
      r.2.mem ((c.tc : Thread nD τ).loc main_v15) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
    ((h c).1 0).trans (((dats m 0 c).arrAt_in 0 rfl _).trans ((A_eq m c 0).trans (V_of_arg m c main_arg0 (.inl rfl)))),
    ((h c).2 main_arg1 (Pipeline.mem_restRefs_of main_arg1 rfl (by decide))).trans (V_of_arg m c main_arg1 (.inr (.inl rfl))),
    ((h c).2 main_arg2 (Pipeline.mem_restRefs_of main_arg2 rfl (by decide))).trans (V_of_arg m c main_arg2 (.inr (.inr (.inl rfl)))),
    ((h c).1 1).trans (((dats m 0 c).arrAt_in 1 rfl _).trans ((A_eq m c 1).trans (V_of_arg m c main_arg3 (.inr (.inr (.inr (.inl rfl))))))),
    ((h c).1 3).trans (((dats m 0 c).arrAt_in 3 rfl _).trans ((A_eq m c 3).trans (V_of_arg m c main_arg4 (.inr (.inr (.inr (.inr rfl)))))))⟩) (run_main m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_args m ρ)

end Cert.KernelIdeal.Hand

end
-- ==== Proof.LibWholeStore.lean ====
/-
  Stores through the whole of a buffer: after a sequence of stores of which the LAST wrote the whole buffer, the
  buffer reads as that last store's payload, whatever it held before and whatever the earlier stores were.
-/
import Idealize.ShloMosaic.Lib.Pipeline.Value

noncomputable section

namespace Idealize.ShloMosaic.LibWholeStore

open Idealize.ShloMosaic

variable {Val : EltTy → Type} {S : Shape} {e : EltTy}

/-- Every index lies under the most recent store's rectangle when that rectangle is the whole shape. -/
theorem cover_head_whole {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-- The buffer read whole after those stores is the last store's payload `w`. -/
theorem read_writes_head_whole [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (cover_head_whole h inb w L)).trans (View.canon_cons_unit_zero h inb w L)

end Idealize.ShloMosaic.LibWholeStore

end
-- ==== Proof.LibReadBack.lean ====
/-
  A load that reads back a whole buffer after a sequence of stores, the LAST of which overwrote the whole buffer,
  reads that last store's payload, whatever the earlier stores were.
-/
import Idealize.ShloMosaic.Lib.Pipeline.Value

noncomputable section

namespace Idealize.ShloMosaic.LibReadBack

open Idealize.ShloMosaic

variable {Val : EltTy → Type} {S : Shape} {e : EltTy}

/-- Reading the whole shape (zero offsets, the shape's own sizes) after stores of which the most recent one wrote the whole
    shape gives that store's payload `w`: every index is under the most recent store's rectangle, so the earlier stores
    `L` are all overwritten. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Idealize.ShloMosaic.LibReadBack

end
-- ==== Proof.IdealPieces.lean ====
/-
  What each case of the body leaves behind, as the body's arithmetic: every store of the body writes a whole
  buffer, so a buffer read back holds the last store's payload, and a load after a store reads that payload.
  `k0_pay4 x gate up down acc col` is the accumulator plus the point's weighted product, `k0_pay3 i w` the
  weight column of expert `i 1`, `k0_pay2` the zero block, `k0_pay1` a reshape to the same shape.
-/
import proofs.«100299_j31928786879171_1_alg».proof.Proof.IdealAccum
import proofs.«100299_j31928786879171_1_alg».proof.Proof.LibWholeStore
import proofs.«100299_j31928786879171_1_alg».proof.Proof.LibReadBack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem accA_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) : accA c i arg3 harg3 arg4 harg4 arg5 harg5 arg6 harg6 arg7 harg7 arg8 harg8 arg9 harg9 arg10 harg10 hc0 hc1 hc2 x0 x1 x2 x3 x4 = k0_pay1 (k0_pay4 x0 x1 x2 x3 k0_pay2 (k0_pay3 i x4)) := by
  unfold accA kernelRunA
  dsimp only
  sl_unfold_words
  have hz2 : (![0, 0] : Fin 2 → Nat) = fun _ => 0 := by funext a; fin_cases a <;> rfl
  have hz3 : (![0, 0, 0] : Fin 3 → Nat) = fun _ => 0 := by funext a; fin_cases a <;> rfl
  refine (Idealize.ShloMosaic.LibWholeStore.read_writes_head_whole VAcc _ hz2 _ _ _).trans ?_
  simp only [View.readAt_eq_ld, harg3.read_unread, harg4.read_unread, harg5.read_unread, harg6.read_unread, harg7.read_unread, harg9.read_unread, harg10.read_unread,
    View.ld_unit_zero (S := S512x2048) hz2, View.ld_unit_zero (S := S1x128x2048) hz3, View.ld_unit_zero (S := S1x2048x128) hz3, View.ld_unit_zero (S := S512x1) hz2, View.ld_unit_zero (S := S512x8) hz2,
    Idealize.ShloMosaic.LibReadBack.readCov_cons_unit_zero (S := S512x2048) _ hz2, Idealize.ShloMosaic.LibReadBack.readCov_cons_unit_zero (S := S512x1) _ hz2]

theorem colA_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) : colA c i arg3 harg3 arg4 harg4 arg5 harg5 arg6 harg6 arg7 harg7 arg8 harg8 arg9 harg9 arg10 harg10 hc0 hc1 hc2 x0 x1 x2 x3 x4 = k0_pay3 i x4 := by
  unfold colA kernelRunA
  dsimp only
  sl_unfold_words
  have hz2 : (![0, 0] : Fin 2 → Nat) = fun _ => 0 := by funext a; fin_cases a <;> rfl
  have hz3 : (![0, 0, 0] : Fin 3 → Nat) = fun _ => 0 := by funext a; fin_cases a <;> rfl
  refine (Idealize.ShloMosaic.LibWholeStore.read_writes_head_whole VCol _ hz2 _ _ _).trans ?_
  simp only [View.readAt_eq_ld, harg3.read_unread, harg4.read_unread, harg5.read_unread, harg6.read_unread, harg7.read_unread, harg9.read_unread, harg10.read_unread,
    View.ld_unit_zero (S := S512x2048) hz2, View.ld_unit_zero (S := S1x128x2048) hz3, View.ld_unit_zero (S := S1x2048x128) hz3, View.ld_unit_zero (S := S512x1) hz2, View.ld_unit_zero (S := S512x8) hz2,
    Idealize.ShloMosaic.LibReadBack.readCov_cons_unit_zero (S := S512x2048) _ hz2, Idealize.ShloMosaic.LibReadBack.readCov_cons_unit_zero (S := S512x1) _ hz2]

theorem accB_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) : accB c i arg3 harg3 arg4 harg4 arg5 harg5 arg6 harg6 arg7 harg7 arg8 harg8 arg9 harg9 arg10 harg10 hc0 hc1 hc2 x0 x1 x2 x3 x4 xs0 = k0_pay1 (k0_pay4 x0 x1 x2 x3 xs0 (k0_pay3 i x4)) := by
  unfold accB kernelRunB
  dsimp only
  sl_unfold_words
  have hz2 : (![0, 0] : Fin 2 → Nat) = fun _ => 0 := by funext a; fin_cases a <;> rfl
  have hz3 : (![0, 0, 0] : Fin 3 → Nat) = fun _ => 0 := by funext a; fin_cases a <;> rfl
  refine (Idealize.ShloMosaic.LibWholeStore.read_writes_head_whole VAcc _ hz2 _ _ _).trans ?_
  simp only [View.readAt_eq_ld, harg3.read_unread, harg4.read_unread, harg5.read_unread, harg6.read_unread, harg7.read_unread, harg9.read_unread, harg10.read_unread,
    View.ld_unit_zero (S := S512x2048) hz2, View.ld_unit_zero (S := S1x128x2048) hz3, View.ld_unit_zero (S := S1x2048x128) hz3, View.ld_unit_zero (S := S512x1) hz2, View.ld_unit_zero (S := S512x8) hz2,
    Idealize.ShloMosaic.LibReadBack.readCov_cons_unit_zero (S := S512x2048) _ hz2, Idealize.ShloMosaic.LibReadBack.readCov_cons_unit_zero (S := S512x1) _ hz2]

theorem colB_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) : colB c i arg3 harg3 arg4 harg4 arg5 harg5 arg6 harg6 arg7 harg7 arg8 harg8 arg9 harg9 arg10 harg10 hc0 hc1 hc2 x0 x1 x2 x3 x4 xs0 = k0_pay3 i x4 := by
  unfold colB kernelRunB
  dsimp only
  sl_unfold_words
  have hz2 : (![0, 0] : Fin 2 → Nat) = fun _ => 0 := by funext a; fin_cases a <;> rfl
  have hz3 : (![0, 0, 0] : Fin 3 → Nat) = fun _ => 0 := by funext a; fin_cases a <;> rfl
  refine (Idealize.ShloMosaic.LibWholeStore.read_writes_head_whole VCol _ hz2 _ _ _).trans ?_
  simp only [View.readAt_eq_ld, harg3.read_unread, harg4.read_unread, harg5.read_unread, harg6.read_unread, harg7.read_unread, harg9.read_unread, harg10.read_unread,
    View.ld_unit_zero (S := S512x2048) hz2, View.ld_unit_zero (S := S1x128x2048) hz3, View.ld_unit_zero (S := S1x2048x128) hz3, View.ld_unit_zero (S := S512x1) hz2, View.ld_unit_zero (S := S512x8) hz2,
    Idealize.ShloMosaic.LibReadBack.readCov_cons_unit_zero (S := S512x2048) _ hz2, Idealize.ShloMosaic.LibReadBack.readCov_cons_unit_zero (S := S512x1) _ hz2]

theorem accC_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : ¬condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : accC c i arg3 harg3 arg4 harg4 arg5 harg5 arg6 harg6 arg7 harg7 arg8 harg8 arg9 harg9 arg10 harg10 hc0 hc1 hc2 x0 x1 x2 x3 x4 xs0 xs1 = k0_pay1 (k0_pay4 x0 x1 x2 x3 xs0 xs1) := by
  unfold accC kernelRunC
  dsimp only
  sl_unfold_words
  have hz2 : (![0, 0] : Fin 2 → Nat) = fun _ => 0 := by funext a; fin_cases a <;> rfl
  have hz3 : (![0, 0, 0] : Fin 3 → Nat) = fun _ => 0 := by funext a; fin_cases a <;> rfl
  refine (Idealize.ShloMosaic.LibWholeStore.read_writes_head_whole VAcc _ hz2 _ _ _).trans ?_
  simp only [View.readAt_eq_ld, harg3.read_unread, harg4.read_unread, harg5.read_unread, harg6.read_unread, harg7.read_unread, harg9.read_unread, harg10.read_unread,
    View.ld_unit_zero (S := S512x2048) hz2, View.ld_unit_zero (S := S1x128x2048) hz3, View.ld_unit_zero (S := S1x2048x128) hz3, View.ld_unit_zero (S := S512x1) hz2, View.ld_unit_zero (S := S512x8) hz2,
    Idealize.ShloMosaic.LibReadBack.readCov_cons_unit_zero (S := S512x2048) _ hz2, Idealize.ShloMosaic.LibReadBack.readCov_cons_unit_zero (S := S512x1) _ hz2]

theorem accD_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : accD c i arg3 harg3 arg4 harg4 arg5 harg5 arg6 harg6 arg7 harg7 arg8 harg8 arg9 harg9 arg10 harg10 hc0 hc1 hc2 x0 x1 x2 x3 x4 xs0 xs1 = k0_pay1 (k0_pay4 x0 x1 x2 x3 xs0 xs1) := by
  unfold accD kernelRunD
  dsimp only
  sl_unfold_words
  have hz2 : (![0, 0] : Fin 2 → Nat) = fun _ => 0 := by funext a; fin_cases a <;> rfl
  have hz3 : (![0, 0, 0] : Fin 3 → Nat) = fun _ => 0 := by funext a; fin_cases a <;> rfl
  refine (Idealize.ShloMosaic.LibWholeStore.read_writes_head_whole VAcc _ hz2 _ _ _).trans ?_
  simp only [View.readAt_eq_ld, harg3.read_unread, harg4.read_unread, harg5.read_unread, harg6.read_unread, harg7.read_unread, harg9.read_unread, harg10.read_unread,
    View.ld_unit_zero (S := S512x2048) hz2, View.ld_unit_zero (S := S1x128x2048) hz3, View.ld_unit_zero (S := S1x2048x128) hz3, View.ld_unit_zero (S := S512x1) hz2, View.ld_unit_zero (S := S512x8) hz2,
    Idealize.ShloMosaic.LibReadBack.readCov_cons_unit_zero (S := S512x2048) _ hz2, Idealize.ShloMosaic.LibReadBack.readCov_cons_unit_zero (S := S512x1) _ hz2]

theorem outD_eq (c : Dev nD) (i : grid0.Coords) (arg3 : Memref sig .tc .vmem S512x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x2048x128 .f32) (harg6 : arg6.IsWhole) (arg7 : Memref sig .tc .vmem S512x8 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x1 .f32) (harg10 : arg10.IsWhole) (hc0 : ¬condReset i) (hc1 : ¬condCol i) (hc2 : condOut i)
    (x0 : Vec F S512x2048 .f32) (x1 : Vec F S1x128x2048 .f32) (x2 : Vec F S1x128x2048 .f32) (x3 : Vec F S1x2048x128 .f32) (x4 : Vec F S512x8 .f32) (xs0 : Vec F S512x2048 .f32) (xs1 : Vec F S512x1 .f32) : outD c i arg3 harg3 arg4 harg4 arg5 harg5 arg6 harg6 arg7 harg7 arg8 harg8 arg9 harg9 arg10 harg10 hc0 hc1 hc2 x0 x1 x2 x3 x4 xs0 xs1 = k0_pay1 (k0_pay4 x0 x1 x2 x3 xs0 xs1) := by
  unfold outD kernelRunD
  dsimp only
  sl_unfold_words
  have hz2 : (![0, 0] : Fin 2 → Nat) = fun _ => 0 := by funext a; fin_cases a <;> rfl
  have hz3 : (![0, 0, 0] : Fin 3 → Nat) = fun _ => 0 := by funext a; fin_cases a <;> rfl
  refine (Idealize.ShloMosaic.LibWholeStore.read_writes_head_whole VO _ hz2 _ _ _).trans ?_
  simp only [View.readAt_eq_ld, harg3.read_unread, harg4.read_unread, harg5.read_unread, harg6.read_unread, harg7.read_unread, harg9.read_unread, harg10.read_unread,
    View.ld_unit_zero (S := S512x2048) hz2, View.ld_unit_zero (S := S1x128x2048) hz3, View.ld_unit_zero (S := S1x2048x128) hz3, View.ld_unit_zero (S := S512x1) hz2, View.ld_unit_zero (S := S512x8) hz2,
    Idealize.ShloMosaic.LibReadBack.readCov_cons_unit_zero (S := S512x2048) _ hz2, Idealize.ShloMosaic.LibReadBack.readCov_cons_unit_zero (S := S512x1) _ hz2]

end Cert.KernelIdeal.Hand

end
-- ==== Proof.IdealSteps.lean ====
/-
  The accumulation over the grid as arithmetic: each point's step through the body's payloads.
-/
import proofs.«100299_j31928786879171_1_alg».proof.Proof.IdealPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A token tile's first point, as arithmetic. -/
theorem stepA_eq (c : Dev nD) (t : Fin cfg0.N) (h0 : t.val % 352 = 0) :
    stepA m c t h0 = (VO.read (Elt F) VO.junk, k0_pay1 (k0_pay4 (iblk m c 0 t) (iblk m c 1 t) (iblk m c 2 t) (iblk m c 3 t) k0_pay2 (k0_pay3 (grid0.coords t) (iblk m c 4 t))), (k0_pay3 (grid0.coords t) (iblk m c 4 t))) := by
  unfold stepA; rw [accA_eq, colA_eq]

/-- A later expert's first point, as arithmetic. -/
theorem stepB_eq (c : Dev nD) (t : Fin cfg0.N) (h0 : ¬t.val % 352 = 0) (h1 : t.val % 44 = 0) (xs0 : Vec F S512x2048 .f32) :
    stepB m c t h0 h1 xs0 = (VO.read (Elt F) VO.junk, k0_pay1 (k0_pay4 (iblk m c 0 t) (iblk m c 1 t) (iblk m c 2 t) (iblk m c 3 t) xs0 (k0_pay3 (grid0.coords t) (iblk m c 4 t))), (k0_pay3 (grid0.coords t) (iblk m c 4 t))) := by
  unfold stepB; rw [accB_eq, colB_eq]

/-- An inner point, as arithmetic. -/
theorem stepC_eq (c : Dev nD) (t : Fin cfg0.N) (h1 : ¬t.val % 44 = 0) (h2 : ¬t.val % 352 = 351) (xs0 : Vec F S512x2048 .f32) (xs1 : Vec F S512x1 .f32) :
    stepC m c t h1 h2 xs0 xs1 = (VO.read (Elt F) VO.junk, k0_pay1 (k0_pay4 (iblk m c 0 t) (iblk m c 1 t) (iblk m c 2 t) (iblk m c 3 t) xs0 xs1), xs1) := by
  unfold stepC; rw [accC_eq]

/-- A token tile's last point, as arithmetic: the output block receives the accumulator. -/
theorem stepD_eq (c : Dev nD) (t : Fin cfg0.N) (h2 : t.val % 352 = 351) (xs0 : Vec F S512x2048 .f32) (xs1 : Vec F S512x1 .f32) :
    stepD m c t h2 xs0 xs1 = (k0_pay1 (k0_pay4 (iblk m c 0 t) (iblk m c 1 t) (iblk m c 2 t) (iblk m c 3 t) xs0 xs1), k0_pay1 (k0_pay4 (iblk m c 0 t) (iblk m c 1 t) (iblk m c 2 t) (iblk m c 3 t) xs0 xs1), xs1) := by
  unfold stepD; rw [accD_eq, outD_eq]

/-- At a token tile's last point the output block holds the accumulator. -/
theorem out_eq_acc (c : Dev nD) (t : Fin cfg0.N) (h2 : t.val % 352 = 351) :
    (outsAt m c t.val t.isLt).1 = (outsAt m c t.val t.isLt).2.1 := by
  rw [outsAt_D m c t h2, stepD_eq]

end Cert.KernelIdeal.Hand

end
-- ==== Proof.Spec.lean ====
/-
  The mathematics of the mixture-of-experts layer both programs compute, stated once over the reals.

  For token `t`, expert `e` and intermediate column `J` (of 5632):
    gate t e J = Σ_k x[t,k] · gu[e, J, k]          up t e J = Σ_k x[t,k] · gu[e, 5632 + J, k]
    hid  t e J = (gate · σ(gate)) · up             with σ(g) = 1 / (1 + e^(-g))
    wE   t e   = Σ_{k<2} (rw[t,k] if sel[t,k] = e else 0)
    out  t h   = Σ_e (Σ_J hid t e J · dn[e, h, J]) · wE t e
  `G` is that function of the five argument arrays as they sit in memory (extended reals, read through `toReal`:
  under the precondition every float entry is a real and the reading loses nothing).
-/
import Idealize.ShloMosaic.PureOps.Ideal
import Idealize.ShloMosaic.Lib.ValueIdx

noncomputable section

namespace Cert.Moe

open Idealize.ShloMosaic Idealize.ShloMosaic.ValueIdx

/-- The logistic function on the reals. -/
def sigm (g : ℝ) : ℝ := (1 + Real.exp (-g))⁻¹

/-- The gate projection: row `J` of expert `e`'s first 5632 rows against token `t`. -/
def gate (x : Fin 4096 → Fin 2048 → ℝ) (gu : Fin 8 → Fin 11264 → Fin 2048 → ℝ) (t : Fin 4096) (e : Fin 8) (J : Fin 5632) : ℝ :=
  ∑ k : Fin 2048, x t k * gu e ⟨J.val, by omega⟩ k

/-- The up projection: row `5632 + J` of expert `e` against token `t`. -/
def up (x : Fin 4096 → Fin 2048 → ℝ) (gu : Fin 8 → Fin 11264 → Fin 2048 → ℝ) (t : Fin 4096) (e : Fin 8) (J : Fin 5632) : ℝ :=
  ∑ k : Fin 2048, x t k * gu e ⟨5632 + J.val, by omega⟩ k

/-- The hidden activation `silu(gate) · up`, with `silu(g) = g · σ(g)`. -/
def hid (x : Fin 4096 → Fin 2048 → ℝ) (gu : Fin 8 → Fin 11264 → Fin 2048 → ℝ) (t : Fin 4096) (e : Fin 8) (J : Fin 5632) : ℝ :=
  (gate x gu t e J * sigm (gate x gu t e J)) * up x gu t e J

/-- Token `t`'s combined routing weight for expert `e`: the router weights of the slots that selected `e`. -/
def wE (sel : Fin 4096 → Fin 2 → BitVec 32) (rw : Fin 4096 → Fin 2 → ℝ) (t : Fin 4096) (e : Fin 8) : ℝ :=
  ∑ k : Fin 2, if sel t k = BitVec.ofNat 32 e.val then rw t k else 0

/-- Expert `e`'s output for token `t`, column `h`: the down projection of the hidden activation. -/
def yE (x : Fin 4096 → Fin 2048 → ℝ) (gu : Fin 8 → Fin 11264 → Fin 2048 → ℝ) (dn : Fin 8 → Fin 2048 → Fin 5632 → ℝ)
    (t : Fin 4096) (e : Fin 8) (h : Fin 2048) : ℝ :=
  ∑ J : Fin 5632, hid x gu t e J * dn e h J

/-- The layer's output: the experts' outputs weighted and summed. -/
def outR (x : Fin 4096 → Fin 2048 → ℝ) (sel : Fin 4096 → Fin 2 → BitVec 32) (rw : Fin 4096 → Fin 2 → ℝ)
    (gu : Fin 8 → Fin 11264 → Fin 2048 → ℝ) (dn : Fin 8 → Fin 2048 → Fin 5632 → ℝ) (t : Fin 4096) (h : Fin 2048) : ℝ :=
  ∑ e : Fin 8, yE x gu dn t e h * wE sel rw t e

/-- The five argument arrays as they sit in memory, read as real arrays. -/
def xR (X0 : (⟨2, ![4096, 2048]⟩ : Shape).Idx → EReal) : Fin 4096 → Fin 2048 → ℝ := fun t k => (X0 (ix2 t k)).toReal
def selR (X1 : (⟨2, ![4096, 2]⟩ : Shape).Idx → BitVec 32) : Fin 4096 → Fin 2 → BitVec 32 := fun t k => X1 (ix2 t k)
def rwR (X2 : (⟨2, ![4096, 2]⟩ : Shape).Idx → EReal) : Fin 4096 → Fin 2 → ℝ := fun t k => (X2 (ix2 t k)).toReal
def guR (X3 : (⟨3, ![8, 11264, 2048]⟩ : Shape).Idx → EReal) : Fin 8 → Fin 11264 → Fin 2048 → ℝ := fun e r k => (X3 (ix3 e r k)).toReal
def dnR (X4 : (⟨3, ![8, 2048, 5632]⟩ : Shape).Idx → EReal) : Fin 8 → Fin 2048 → Fin 5632 → ℝ := fun e h J => (X4 (ix3 e h J)).toReal

/-- The result array both programs end with, as ONE function of the argument arrays. -/
def G (X0 : (⟨2, ![4096, 2048]⟩ : Shape).Idx → EReal) (X1 : (⟨2, ![4096, 2]⟩ : Shape).Idx → BitVec 32)
    (X2 : (⟨2, ![4096, 2]⟩ : Shape).Idx → EReal) (X3 : (⟨3, ![8, 11264, 2048]⟩ : Shape).Idx → EReal)
    (X4 : (⟨3, ![8, 2048, 5632]⟩ : Shape).Idx → EReal) : (⟨2, ![4096, 2048]⟩ : Shape).Idx → EReal :=
  fun j => ((outR (xR X0) (selR X1) (rwR X2) (guR X3) (dnR X4) ⟨(j 0).val, idx2_lt0 j⟩ ⟨(j 1).val, idx2_lt1 j⟩ : ℝ) : EReal)

theorem G_ix2 (X0 : (⟨2, ![4096, 2048]⟩ : Shape).Idx → EReal) (X1 : (⟨2, ![4096, 2]⟩ : Shape).Idx → BitVec 32)
    (X2 : (⟨2, ![4096, 2]⟩ : Shape).Idx → EReal) (X3 : (⟨3, ![8, 11264, 2048]⟩ : Shape).Idx → EReal)
    (X4 : (⟨3, ![8, 2048, 5632]⟩ : Shape).Idx → EReal) (t : Fin 4096) (h : Fin 2048) :
    G X0 X1 X2 X3 X4 (ix2 t h) = ((outR (xR X0) (selR X1) (rwR X2) (guR X3) (dnR X4) t h : ℝ) : EReal) := rfl

end Cert.Moe

end
-- ==== Proof.KWfull.lean ====
/-
  The dense routing table the kernel's program builds on the host before its one region: for token `t` and expert `e`,
      w_full t e = (0 + onehot(sel t 0) e · rw t 0) + onehot(sel t 1) e · rw t 1 ,
  where `onehot(s) e` is 1 when the selected expert `s` is `e` and 0 otherwise (a comparison with the column
  number, converted to a float). With real router weights this is the real number
      Σ_{k<2} (rw t k if sel t k = e else 0).
-/
import proofs.«100299_j31928786879171_1_alg».proof.Proof.Gen.KernelIdeal
import proofs.«100299_j31928786879171_1_alg».proof.Proof.Spec
import Idealize.ShloMosaic.PureOps.Ideal.Laws
import Idealize.ShloMosaic.Lib.ValueLayout
import Idealize.ShloMosaic.Lib.IdealHost
import Idealize.ShloMosaic.Lib.Affine

noncomputable section

namespace Cert.Moe.K

open Idealize.ShloMosaic Idealize.ShloMosaic.ValueIdx
open Cert.KernelIdeal Cert.KernelIdeal.Gen

/-! ## The operations, composed as the program composes them -/

/-- The one-hot rows of a column of expert numbers: "the expert number is the column number", as a float. -/
def oneHot (c : IVec S4096 32) : FVec Ideal S4096x8 .f32 :=
  uitofp (F := Ideal) .f32
    (cmpi .eq
      (broadcastInDim S4096x8 ![0, 1] bcast_S4096x1_S4096x8_0_1 (broadcastInDim S4096x1 ![0] bcast_S4096_S4096x1_0 c))
      (broadcastInDim S4096x8 ![0, 1] bcast_S1x8_S4096x8_0_1 (iotaInDim S1x8 32 1)))

/-- Slot 0's selected experts, as a vector. -/
def sel0 (a1 : IVec S4096x2 32) : IVec S4096 32 :=
  shapeCast S4096 (extractStridedSlice S4096x1 ![0, 0] a1 slices_S4096x2_S4096x1_0_0) shapeCasts_S4096x1_S4096
/-- Slot 1's selected experts, as a vector. -/
def sel1 (a1 : IVec S4096x2 32) : IVec S4096 32 :=
  shapeCast S4096 (extractStridedSlice S4096x1 ![0, 1] a1 slices_S4096x2_S4096x1_0_1) shapeCasts_S4096x1_S4096
/-- Slot 0's router weights across the eight columns. -/
def rw0 (a2 : FVec Ideal S4096x2 .f32) : FVec Ideal S4096x8 .f32 :=
  broadcastInDim S4096x8 ![0, 1] bcast_S4096x1_S4096x8_0_1 (extractStridedSlice S4096x1 ![0, 0] a2 slices_S4096x2_S4096x1_0_0)
/-- Slot 1's router weights across the eight columns. -/
def rw1 (a2 : FVec Ideal S4096x2 .f32) : FVec Ideal S4096x8 .f32 :=
  broadcastInDim S4096x8 ![0, 1] bcast_S4096x1_S4096x8_0_1 (extractStridedSlice S4096x1 ![0, 1] a2 slices_S4096x2_S4096x1_0_1)
/-- The table of zeros the sum starts from. -/
def zero8 : FVec Ideal S4096x8 .f32 :=
  broadcastInDim S4096x8 ![] bcast_S_S4096x8 (constant (F := Ideal) S_ .f32 0x00000000#32)

/-- The dense routing table, as the program computes it from the selected experts and the router weights. -/
def wfullTerm (a1 : IVec S4096x2 32) (a2 : FVec Ideal S4096x2 .f32) : FVec Ideal S4096x8 .f32 :=
  addf (addf zero8 (mulf (oneHot (sel0 a1)) (rw0 a2))) (mulf (oneHot (sel1 a1)) (rw1 a2))

/-! ## Each operation at an entry -/

theorem zero8_apply (t : Fin 4096) (e : Fin 8) : zero8 (ix2 t e) = 0 := by
  unfold zero8
  rw [broadcastInDim_scalar_apply]
  exact Ideal.ofBits_zero_f32

theorem sel0_apply (a1 : IVec S4096x2 32) (t : Fin 4096) : sel0 a1 (ix1 t) = a1 (ix2 t (0 : Fin 2)) := by
  unfold sel0
  refine (shapeCast_apply _ _ (ix1 t) (ix2 t (0 : Fin 1)) ?_).trans ?_
  · rw [Shape.rowMajor_val_one, Shape.rowMajor_val_two]
    show t.val * 1 + 0 = t.val
    omega
  exact slice2_axis1_apply 0 a1 slices_S4096x2_S4096x1_0_0 t (0 : Fin 1) (0 : Fin 2) rfl

theorem sel1_apply (a1 : IVec S4096x2 32) (t : Fin 4096) : sel1 a1 (ix1 t) = a1 (ix2 t (1 : Fin 2)) := by
  unfold sel1
  refine (shapeCast_apply _ _ (ix1 t) (ix2 t (0 : Fin 1)) ?_).trans ?_
  · rw [Shape.rowMajor_val_one, Shape.rowMajor_val_two]
    show t.val * 1 + 0 = t.val
    omega
  exact slice2_axis1_apply 1 a1 slices_S4096x2_S4096x1_0_1 t (0 : Fin 1) (1 : Fin 2) rfl

/-- A column `[4096, 1]` broadcast across eight columns reads its row's entry. -/
theorem bcast_col_apply {α : Type} (v : S4096x1.Idx → α) (t : Fin 4096) (e : Fin 8) :
    broadcastInDim S4096x8 ![0, 1] bcast_S4096x1_S4096x8_0_1 v (ix2 t e) = v (ix2 t (0 : Fin 1)) := by
  refine broadcastInDim_apply _ _ v (ix2 t e) (ix2 t (0 : Fin 1)) fun a => ?_
  match a with
  | ⟨0, _⟩ => rfl
  | ⟨1, _⟩ => rfl

theorem rw0_apply (a2 : FVec Ideal S4096x2 .f32) (t : Fin 4096) (e : Fin 8) : rw0 a2 (ix2 t e) = a2 (ix2 t (0 : Fin 2)) := by
  unfold rw0
  rw [bcast_col_apply]
  exact slice2_axis1_apply 0 a2 slices_S4096x2_S4096x1_0_0 t (0 : Fin 1) (0 : Fin 2) rfl

theorem rw1_apply (a2 : FVec Ideal S4096x2 .f32) (t : Fin 4096) (e : Fin 8) : rw1 a2 (ix2 t e) = a2 (ix2 t (1 : Fin 2)) := by
  unfold rw1
  rw [bcast_col_apply]
  exact slice2_axis1_apply 1 a2 slices_S4096x2_S4096x1_0_1 t (0 : Fin 1) (1 : Fin 2) rfl

/-- The one-hot entry: 1 where the expert number is the column number, else 0. -/
theorem oneHot_apply (c : IVec S4096 32) (t : Fin 4096) (e : Fin 8) :
    oneHot c (ix2 t e) = (((if c (ix1 t) = BitVec.ofNat 32 e.val then 1 else 0 : ℝ)) : EReal) := by
  unfold oneHot
  have h2 : broadcastInDim S4096x8 ![0, 1] bcast_S4096x1_S4096x8_0_1 (broadcastInDim S4096x1 ![0] bcast_S4096_S4096x1_0 c) (ix2 t e) = c (ix1 t) := by
    rw [bcast_col_apply]
    refine broadcastInDim_apply _ _ c (ix2 t (0 : Fin 1)) (ix1 t) fun a => ?_
    match a with
    | ⟨0, _⟩ => rfl
  have h3 : broadcastInDim S4096x8 ![0, 1] bcast_S1x8_S4096x8_0_1 (iotaInDim S1x8 32 1) (ix2 t e) = BitVec.ofNat 32 e.val := by
    refine (broadcastInDim_apply _ _ (iotaInDim S1x8 32 1) (ix2 t e) (ix2 (0 : Fin 1) e) fun a => ?_).trans rfl
    match a with
    | ⟨0, _⟩ => rfl
    | ⟨1, _⟩ => rfl
  show FloatOps.uitofp (F := Ideal) .f32 (IntOp.cmpi .eq
      (broadcastInDim S4096x8 ![0, 1] bcast_S4096x1_S4096x8_0_1 (broadcastInDim S4096x1 ![0] bcast_S4096_S4096x1_0 c) (ix2 t e))
      (broadcastInDim S4096x8 ![0, 1] bcast_S1x8_S4096x8_0_1 (iotaInDim S1x8 32 1) (ix2 t e))) = _
  rw [h2, h3]
  by_cases h : c (ix1 t) = BitVec.ofNat 32 e.val
  · rw [if_pos h, IntOp.cmpi_eq.mpr h]
    show (((1#1 : BitVec 1).toNat : ℝ) : EReal) = _
    norm_num
  · rw [if_neg h, eq_zero_of_ne_one fun h1 => h (IntOp.cmpi_eq.mp h1)]
    show (((0#1 : BitVec 1).toNat : ℝ) : EReal) = _
    norm_num

/-! ## The table at an entry -/

/-- THE TABLE at token `t`, expert `e`, for real router weights: the combined routing weight `wE`. -/
theorem wfullTerm_apply (a1 : IVec S4096x2 32) (a2 : FVec Ideal S4096x2 .f32)
    (h2 : ∀ j, a2 j = (((a2 j).toReal : ℝ) : EReal)) (t : Fin 4096) (e : Fin 8) :
    wfullTerm a1 a2 (ix2 t e) = ((Cert.Moe.wE (Cert.Moe.selR a1) (Cert.Moe.rwR a2) t e : ℝ) : EReal) := by
  have hs : wfullTerm a1 a2 (ix2 t e)
      = (zero8 (ix2 t e) + oneHot (sel0 a1) (ix2 t e) * rw0 a2 (ix2 t e)) + oneHot (sel1 a1) (ix2 t e) * rw1 a2 (ix2 t e) := rfl
  rw [hs, zero8_apply, oneHot_apply, oneHot_apply, sel0_apply, sel1_apply, rw0_apply, rw1_apply,
    h2 (ix2 t (0 : Fin 2)), h2 (ix2 t (1 : Fin 2)), zero_add, ← EReal.coe_mul, ← EReal.coe_mul, ← EReal.coe_add]
  refine congrArg _ ?_
  unfold Cert.Moe.wE Cert.Moe.selR Cert.Moe.rwR
  rw [Fin.sum_univ_two]
  simp only [EReal.toReal_coe, ite_mul, one_mul, zero_mul]

end Cert.Moe.K

end
-- ==== Proof.KBlocks.lean ====
/-
  The blocks the kernel's windows hand the body, read off the argument arrays.

  The grid is 8 token tiles × 8 experts × 44 column tiles in row-major order: point `t` is token tile `t / 352`, expert
  `(t / 44) % 8`, column tile `t % 44`. At that point the body sees rows `512·(t/352) …` of the tokens and of the dense
  routing table, rows `128·(t%44) …` of the expert's gate matrix (the first 5632 rows of its fused matrix) and the same
  rows of its up matrix (the next 5632), and columns `128·(t%44) …` of its down matrix. The routing table is what the
  program's host operations compute from the selected experts and the router weights.
-/
import proofs.«100299_j31928786879171_1_alg».proof.Proof.IdealFrameBase
import proofs.«100299_j31928786879171_1_alg».proof.Proof.KWfull

set_option maxRecDepth 16384

noncomputable section

namespace Cert.Moe.K

open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.KernelIdeal Cert.KernelIdeal.Gen Cert.KernelIdeal.Hand

variable (m : (ℓ : Loc nD τ sig) → Buf (Elt Ideal) ℓ)

/-! ## The index maps over the grid -/

theorem idx_facts : ∀ t : Fin cfg0.N,
    win0_0.index t (0 : Fin 2) = t.val / 352 ∧ win0_0.index t (1 : Fin 2) = 0
    ∧ win0_1.index t (0 : Fin 3) = (t.val / 44) % 8 ∧ win0_1.index t (1 : Fin 3) = t.val % 44 ∧ win0_1.index t (2 : Fin 3) = 0
    ∧ win0_2.index t (0 : Fin 3) = (t.val / 44) % 8 ∧ win0_2.index t (1 : Fin 3) = t.val % 44 + 44 ∧ win0_2.index t (2 : Fin 3) = 0
    ∧ win0_3.index t (0 : Fin 3) = (t.val / 44) % 8 ∧ win0_3.index t (1 : Fin 3) = 0 ∧ win0_3.index t (2 : Fin 3) = t.val % 44
    ∧ win0_4.index t (0 : Fin 2) = t.val / 352 ∧ win0_4.index t (1 : Fin 2) = 0 :=
  (by decide +kernel : ∀ t : Fin grid0.N, _)

/-- The expert coordinate of point `t`. -/
theorem coord1 : ∀ t : Fin cfg0.N, (grid0.coords t 1).val = (t.val / 44) % 8 :=
  (by decide +kernel : ∀ t : Fin grid0.N, _)

theorem tile_lt (t : Fin cfg0.N) : t.val / 352 < 8 := by
  have h : t.val < 2816 := Nat.lt_of_lt_of_eq t.isLt N_0
  omega

/-- Row `r` of point `t`'s token tile. -/
def tokOf (t : Fin cfg0.N) (r : Fin 512) : Fin 4096 := ⟨(t.val / 352) * 512 + r.val, by have := tile_lt t; have := r.isLt; omega⟩
/-- Point `t`'s expert. -/
def expOf (t : Fin cfg0.N) : Fin 8 := ⟨(t.val / 44) % 8, Nat.mod_lt _ (by decide)⟩
/-- Row `j` of point `t`'s slab of the gate matrix. -/
def gateRow (t : Fin cfg0.N) (j : Fin 128) : Fin 11264 := ⟨(t.val % 44) * 128 + j.val, by have := Nat.mod_lt t.val (show 0 < 44 by decide); have := j.isLt; omega⟩
/-- Row `j` of point `t`'s slab of the up matrix. -/
def upRow (t : Fin cfg0.N) (j : Fin 128) : Fin 11264 := ⟨5632 + (t.val % 44) * 128 + j.val, by have := Nat.mod_lt t.val (show 0 < 44 by decide); have := j.isLt; omega⟩
/-- Column `j` of point `t`'s slab of the down matrix. -/
def dnCol (t : Fin cfg0.N) (j : Fin 128) : Fin 5632 := ⟨(t.val % 44) * 128 + j.val, by have := Nat.mod_lt t.val (show 0 < 44 by decide); have := j.isLt; omega⟩

/-! ## The block reads -/

theorem blk0_read (c : Dev nD) (t : Fin cfg0.N) (r : Fin 512) (k : Fin 2048) :
    iblk m c 0 t (ix2 r k) = m ((c : Thread nD τ).loc main_arg0) (ix2 (tokOf t r) k) := by
  rw [← V_of_arg m c main_arg0 (Or.inl rfl)]
  obtain ⟨e0, e1, -⟩ := idx_facts t
  show V m c main_arg0 (((cfg0.win 0).blk t).view.emb (ix2 r k)) = _
  refine congrArg _ (funext fun a => Fin.ext ?_)
  match a with
  | ⟨0, _⟩ => show win0_0.index t (0 : Fin 2) * 512 + 1 * r.val = (t.val / 352) * 512 + r.val; omega
  | ⟨1, _⟩ => show win0_0.index t (1 : Fin 2) * 2048 + 1 * k.val = k.val; omega

theorem blk1_read (c : Dev nD) (t : Fin cfg0.N) (j : Fin 128) (k : Fin 2048) :
    iblk m c 1 t (ix3 (0 : Fin 1) j k) = m ((c : Thread nD τ).loc main_arg3) (ix3 (expOf t) (gateRow t j) k) := by
  rw [← V_of_arg m c main_arg3 (Or.inr (Or.inr (Or.inr (Or.inl rfl))))]
  obtain ⟨-, -, e0, e1, e2, -⟩ := idx_facts t
  show V m c main_arg3 (((cfg0.win 1).blk t).view.emb (ix3 (0 : Fin 1) j k)) = _
  refine congrArg _ (funext fun a => Fin.ext ?_)
  match a with
  | ⟨0, _⟩ => show win0_1.index t (0 : Fin 3) * 1 + 1 * 0 = (t.val / 44) % 8; omega
  | ⟨1, _⟩ => show win0_1.index t (1 : Fin 3) * 128 + 1 * j.val = (t.val % 44) * 128 + j.val; omega
  | ⟨2, _⟩ => show win0_1.index t (2 : Fin 3) * 2048 + 1 * k.val = k.val; omega

theorem blk2_read (c : Dev nD) (t : Fin cfg0.N) (j : Fin 128) (k : Fin 2048) :
    iblk m c 2 t (ix3 (0 : Fin 1) j k) = m ((c : Thread nD τ).loc main_arg3) (ix3 (expOf t) (upRow t j) k) := by
  rw [← V_of_arg m c main_arg3 (Or.inr (Or.inr (Or.inr (Or.inl rfl))))]
  obtain ⟨-, -, -, -, -, e0, e1, e2, -⟩ := idx_facts t
  show V m c main_arg3 (((cfg0.win 2).blk t).view.emb (ix3 (0 : Fin 1) j k)) = _
  refine congrArg _ (funext fun a => Fin.ext ?_)
  match a with
  | ⟨0, _⟩ => show win0_2.index t (0 : Fin 3) * 1 + 1 * 0 = (t.val / 44) % 8; omega
  | ⟨1, _⟩ => show win0_2.index t (1 : Fin 3) * 128 + 1 * j.val = 5632 + (t.val % 44) * 128 + j.val; omega
  | ⟨2, _⟩ => show win0_2.index t (2 : Fin 3) * 2048 + 1 * k.val = k.val; omega

theorem blk3_read (c : Dev nD) (t : Fin cfg0.N) (h : Fin 2048) (j : Fin 128) :
    iblk m c 3 t (ix3 (0 : Fin 1) h j) = m ((c : Thread nD τ).loc main_arg4) (ix3 (expOf t) h (dnCol t j)) := by
  rw [← V_of_arg m c main_arg4 (Or.inr (Or.inr (Or.inr (Or.inr rfl))))]
  obtain ⟨-, -, -, -, -, -, -, -, e0, e1, e2, -⟩ := idx_facts t
  show V m c main_arg4 (((cfg0.win 3).blk t).view.emb (ix3 (0 : Fin 1) h j)) = _
  refine congrArg _ (funext fun a => Fin.ext ?_)
  match a with
  | ⟨0, _⟩ => show win0_3.index t (0 : Fin 3) * 1 + 1 * 0 = (t.val / 44) % 8; omega
  | ⟨1, _⟩ => show win0_3.index t (1 : Fin 3) * 2048 + 1 * h.val = h.val; omega
  | ⟨2, _⟩ => show win0_3.index t (2 : Fin 3) * 128 + 1 * j.val = (t.val % 44) * 128 + j.val; omega

theorem blk4_read (c : Dev nD) (t : Fin cfg0.N) (r : Fin 512) (e' : Fin 8) :
    iblk m c 4 t (ix2 r e') = V m c main_v14 (ix2 (tokOf t r) e') := by
  obtain ⟨-, -, -, -, -, -, -, -, -, -, -, e0, e1⟩ := idx_facts t
  show V m c main_v14 (((cfg0.win 4).blk t).view.emb (ix2 r e')) = _
  refine congrArg _ (funext fun a => Fin.ext ?_)
  match a with
  | ⟨0, _⟩ => show win0_4.index t (0 : Fin 2) * 512 + 1 * r.val = (t.val / 352) * 512 + r.val; omega
  | ⟨1, _⟩ => show win0_4.index t (1 : Fin 2) * 8 + 1 * e'.val = e'.val; omega

set_option maxHeartbeats 1600000 in
/-- The dense routing table as the region finds it: the host operations' composition of the selected experts and the
    router weights. -/
theorem V_wfull (c : Dev nD) :
    (V m c main_v14 : S4096x8.Idx → EReal)
      = wfullTerm (m ((c : Thread nD τ).loc main_arg1)) (m ((c : Thread nD τ).loc main_arg2)) := by
  dsimp only [V]
  simp only [hostOps0, hostOps0_1, hostOps0_2, hostOps0_3, hostOps0_4, List.flatten_cons, List.flatten_nil, List.append_nil,
    List.cons_append, List.nil_append, StableHlo.TRef.unary, StableHlo.TRef.nullary, StableHlo.TRef.binary]
  after_results_simp
  rfl

/-! ## The output window -/

theorem idx_facts5 : ∀ t : Fin cfg0.N, win0_5.index t (0 : Fin 2) = t.val / 352 ∧ win0_5.index t (1 : Fin 2) = 0 :=
  (by decide +kernel : ∀ t : Fin grid0.N, _)

/-- A block of the output window read off any contents of its array: rows `512·(t/352) …`. -/
theorem blk5_read (Y : S4096x2048.Idx → EReal) (t : Fin cfg0.N) (r : Fin 512) (h : Fin 2048) :
    ((cfg0.win 5).blk t).view.read (Elt Ideal) Y (ix2 r h) = Y (ix2 (tokOf t r) h) := by
  obtain ⟨e0, e1⟩ := idx_facts5 t
  show Y (((cfg0.win 5).blk t).view.emb (ix2 r h)) = _
  refine congrArg _ (funext fun a => Fin.ext ?_)
  match a with
  | ⟨0, _⟩ => show win0_5.index t (0 : Fin 2) * 512 + 1 * r.val = (t.val / 352) * 512 + r.val; omega
  | ⟨1, _⟩ => show win0_5.index t (1 : Fin 2) * 2048 + 1 * h.val = h.val; omega

/-- An index of the output array is in point `t`'s block iff each coordinate is in the block's range on its axis. -/
theorem mem_blk5 (t : Fin cfg0.N) (i : S4096x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v15).slice (win0_5.rect t)).set ↔ _
  rw [View.set_slice_whole, Rect.mem_set_unit]
  exact Iff.rfl

/-- Every entry of the output array is in the block some point writes back: the last point of its token tile. -/
theorem cover5 (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hlt : ((i 0).val / 512) * 352 + 351 < cfg0.N := by
    have hN : cfg0.N = 2816 := N_0
    rw [hN]; omega
  refine ⟨⟨((i 0).val / 512) * 352 + 351, hlt⟩, (flush0_5 _).mpr (by show (((i 0).val / 512) * 352 + 351) % 352 = 351; omega), ?_⟩
  rw [mem_blk5]
  obtain ⟨e0, e1⟩ := idx_facts5 ⟨((i 0).val / 512) * 352 + 351, hlt⟩
  have e0' : win0_5.index ⟨((i 0).val / 512) * 352 + 351, hlt⟩ (0 : Fin 2) = (i 0).val / 512 := by
    rw [e0]; show (((i 0).val / 512) * 352 + 351) / 352 = (i 0).val / 512; omega
  intro a
  match a with
  | ⟨0, _⟩ =>
    show win0_5.index _ (0 : Fin 2) * 512 ≤ (i 0).val ∧ (i 0).val < win0_5.index _ (0 : Fin 2) * 512 + 512
    rw [e0']; omega
  | ⟨1, _⟩ =>
    show win0_5.index _ (1 : Fin 2) * 2048 ≤ (i 1).val ∧ (i 1).val < win0_5.index _ (1 : Fin 2) * 2048 + 2048
    rw [e1]; omega

end Cert.Moe.K

end
-- ==== Proof.KPay3.lean ====
/-
  The routing-weight column the kernel keeps for one expert: from a token block's rows of the dense routing table
  (eight columns, one per expert) it keeps, in each row, the entry of the current expert's column. The kernel takes
  it as a sum along the row of the entries masked by "the column number is the expert's": seven terms of that sum are
  the zero word, which denotes 0, and the eighth is the entry itself.
-/
import proofs.«100299_j31928786879171_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Moe.K

open Idealize.ShloMosaic Idealize.ShloMosaic.ValueIdx
open Cert.KernelIdeal Cert.KernelIdeal.Gen

/-- Two column numbers below 8 written as 32-bit words are the same word exactly when they are the same number. -/
theorem ofNat32_eq_iff (k e : Fin 8) : (BitVec.ofNat 32 k.val = BitVec.ofNat 32 e.val) ↔ k = e := by
  constructor
  · intro h
    have := congrArg BitVec.toNat h
    simp only [BitVec.toNat_ofNat] at this
    have hk := k.isLt; have hl := e.isLt
    exact Fin.ext (by omega)
  · rintro rfl; rfl

/-- The masked entry: the entry where the column is the expert's, else 0. -/
theorem masked_entry (k e : Fin 8) (x : EReal) :
    Scalar.select (IntOp.cmpi .eq (BitVec.ofNat 32 k.val) (BitVec.ofNat 32 e.val)) x (Ideal.ofBits .f32 0x00000000#32)
      = if k = e then x else 0 := by
  rw [Ideal.ofBits_zero_f32]
  by_cases h : k = e
  · subst h
    rw [if_pos rfl, (IntOp.cmpi_eq).mpr rfl]; exact select_one _ _
  · rw [if_neg h]
    have : IntOp.cmpi .eq (BitVec.ofNat 32 k.val) (BitVec.ofNat 32 e.val) = 0#1 :=
      eq_zero_of_ne_one fun h1 => h ((ofNat32_eq_iff k e).mp (IntOp.cmpi_eq.mp h1))
    rw [this]; exact select_zero _ _

/-- The kept column at row `r`: the table block's entry at row `r` and the expert's column. -/
theorem pay3_ix2 (i : grid0.Coords) (e : Fin 8) (he : (i 1).val = e.val) (v42 : Vec Ideal S512x8 .f32) (r : Fin 512) :
    k0_pay3 (F := Ideal) i v42 (ix2 r (0 : Fin 1)) = v42 (ix2 r e) := by
  unfold k0_pay3
  dsimp only
  refine (congrFun (shapeCast_self _ _) _).trans ?_
  refine (shapeCast_apply _ _ (ix2 r (0 : Fin 1)) (ix1 r) ?_).trans ?_
  · rw [Shape.rowMajor_val_one, Shape.rowMajor_val_two]
    show r.val = r.val * 1 + 0
    omega
  refine (Ideal.multiReduction_add_single _ 0x00000000#32 reduces_S512x8_S512 _ _ (ix1 r)).trans ?_
  have hterm : ∀ k : Fin 8, (select (cmpi .eq (iota .tc S512x8 32 [1] iota_S512x8_d1_w32) (broadcast S512x8 (BitVec.ofNat 32 (i 1).val)))
        (shapeCast S512x8 v42 shapeCasts_S512x8_S512x8) (broadcast S512x8 (Scalar.ofBits (F := Ideal) .f32 0x00000000#32)))
        (reduces_S512x8_S512.lift (ix1 r) k) = if k = e then v42 (ix2 r k) else 0 := by
    intro k
    have hidx : reduces_S512x8_S512.lift (ix1 r) k = ix2 r k := by
      funext a; apply Fin.ext
      match a with
      | ⟨0, _⟩ => rfl
      | ⟨1, _⟩ => rfl
    rw [hidx, select_apply, shapeCast_self]
    show Scalar.select (IntOp.cmpi .eq (iota .tc S512x8 32 [1] iota_S512x8_d1_w32 (ix2 r k)) (BitVec.ofNat 32 (i 1).val)) (v42 (ix2 r k)) (Ideal.ofBits .f32 0x00000000#32) = _
    rw [iota_single_apply, he]
    exact masked_entry k e _
  show ∑ k : Fin 8, _ = _
  rw [Finset.sum_congr rfl fun k _ => hterm k, Finset.sum_ite_eq' Finset.univ e]
  simp

/-- The same with the expert's column written from the grid coordinate. -/
theorem pay3_coord (i : grid0.Coords) (v42 : Vec Ideal S512x8 .f32) (r : Fin 512) :
    k0_pay3 (F := Ideal) i v42 (ix2 r (0 : Fin 1)) = v42 (ix2 r (⟨(i 1).val, (i 1).isLt⟩ : Fin 8)) :=
  pay3_ix2 i ⟨(i 1).val, (i 1).isLt⟩ rfl v42 r

end Cert.Moe.K

end
-- ==== Proof.LibERealSum.lean ====
/-
  The coercion of the reals into the extended reals, pushed through finite sums.

  A finite sum of (coercions of) real numbers is the coercion of the real sum, and likewise for a sum of products of
  real numbers: inside the extended reals such a sum never meets an infinity.
-/
import Mathlib.Data.EReal.Operations
import Mathlib.Algebra.BigOperators.Group.Finset.Basic

namespace LibERealSum

open Finset

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of real numbers, taken in the extended reals, is the coercion of the real sum. -/
theorem sum_coe_mul_coe {ι : Type*} (s : Finset ι) (f g : ι → ℝ) :
    ∑ i ∈ s, ((f i : ℝ) : EReal) * ((g i : ℝ) : EReal) = ((∑ i ∈ s, f i * g i : ℝ) : EReal) := by
  rw [coe_sum]
  exact Finset.sum_congr rfl fun i _ => (EReal.coe_mul _ _).symm

/-- The same with the factors given as extended reals known to be real. -/
theorem sum_mul_of_real {ι : Type*} (s : Finset ι) (a b : ι → EReal)
    (ha : ∀ i, a i = (((a i).toReal : ℝ) : EReal)) (hb : ∀ i, b i = (((b i).toReal : ℝ) : EReal)) :
    ∑ i ∈ s, a i * b i = ((∑ i ∈ s, (a i).toReal * (b i).toReal : ℝ) : EReal) := by
  rw [← sum_coe_mul_coe]
  exact Finset.sum_congr rfl fun i _ => by rw [← ha i, ← hb i]

end LibERealSum
-- ==== Proof.LibColumnBroadcast.lean ====
/-
  A column broadcast across a row, read at an index given by coordinates.

  An array of shape `[a, 1]` (one entry per row, as a sum along the rows kept as a column leaves it) broadcast to
  `[a, b]` reads, at row `p` and column `c`, the column's entry of row `p`.
-/
import Idealize.ShloMosaic.Lib.Pipeline.Value
import Idealize.ShloMosaic.Lib.ValueIdx

namespace LibColumnBroadcast

open Idealize.ShloMosaic Idealize.ShloMosaic.ValueIdx

/-- An `[a, 1]` array broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibColumnBroadcast
-- ==== Proof.KMat.lean ====
/-
  The kernel's two matrix products read at an entry, at the ideal values.

  Both contract the LAST axis of both operands (the right operand is used transposed) into a zero accumulator:
  the first, `[512, 2048] × [128, 2048] → [512, 128]`, is at `(r, j)` the sum over `k` of `lhs (r, k) · rhs (j, k)`;
  the second, `[512, 128] × [2048, 128] → [512, 2048]`, is at `(r, h)` the sum over `j` of `lhs (r, j) · rhs (h, j)`.
-/
import proofs.«100299_j31928786879171_1_alg».proof.Proof.Gen.KernelIdeal.Skeleton
import Idealize.ShloMosaic.PureOps.Ideal.Laws
import Idealize.ShloMosaic.Lib.ValueIdx

noncomputable section

namespace Cert.Moe.K

open Idealize.ShloMosaic Idealize.ShloMosaic.ValueIdx
open Cert.KernelIdeal Cert.KernelIdeal.Gen

/-! ## The first product: `[512, 2048] × [128, 2048] → [512, 128]` -/

theorem mm1_lhs0 (i : S512x128.Idx) (q : dot_S512x2048_S128x2048_S512x128_1_1_0_0_n_n.contr.Idx) :
    (dot_S512x2048_S128x2048_S512x128_1_1_0_0_n_n.lhsIdx i q 0).val = (i 0).val := by
  unfold DotDims.lhsIdx
  rw [dif_neg (show ¬(0 : Fin S512x2048.rank) ∈ dot_S512x2048_S128x2048_S512x128_1_1_0_0_n_n.lhsBatch by decide),
    dif_pos (show (0 : Fin S512x2048.rank) ∈ dot_S512x2048_S128x2048_S512x128_1_1_0_0_n_n.lhsNonContracting by decide)]
  rfl
theorem mm1_lhs1 (i : S512x128.Idx) (q : dot_S512x2048_S128x2048_S512x128_1_1_0_0_n_n.contr.Idx) :
    (dot_S512x2048_S128x2048_S512x128_1_1_0_0_n_n.lhsIdx i q 1).val = (q ⟨0, by decide⟩).val :=
  dot_S512x2048_S128x2048_S512x128_1_1_0_0_n_n.lhsIdx_val_of_single rfl i q
theorem mm1_rhs0 (i : S512x128.Idx) (q : dot_S512x2048_S128x2048_S512x128_1_1_0_0_n_n.contr.Idx) :
    (dot_S512x2048_S128x2048_S512x128_1_1_0_0_n_n.rhsIdx i q 0).val = (i 1).val := by
  unfold DotDims.rhsIdx
  rw [dif_neg (show ¬(0 : Fin S128x2048.rank) ∈ dot_S512x2048_S128x2048_S512x128_1_1_0_0_n_n.rhsBatch by decide),
    dif_pos (show (0 : Fin S128x2048.rank) ∈ dot_S512x2048_S128x2048_S512x128_1_1_0_0_n_n.rhsNonContracting by decide)]
  rfl
theorem mm1_rhs1 (i : S512x128.Idx) (q : dot_S512x2048_S128x2048_S512x128_1_1_0_0_n_n.contr.Idx) :
    (dot_S512x2048_S128x2048_S512x128_1_1_0_0_n_n.rhsIdx i q 1).val = (q ⟨0, by decide⟩).val :=
  dot_S512x2048_S128x2048_S512x128_1_1_0_0_n_n.rhsIdx_val_of_single rfl i q

/-- The first product into the zero accumulator, at entry `(r, j)`. -/
theorem mm1_apply {φ₁ φ₂ : FTy} (lhs : FVec Ideal S512x2048 φ₁) (rhs : FVec Ideal S128x2048 φ₂) (r : Fin 512) (j : Fin 128) :
    matmul dot_S512x2048_S128x2048_S512x128_1_1_0_0_n_n none lhs rhs (constant (F := Ideal) S512x128 .f32 0x00000000#32) (ix2 r j)
      = ∑ k : Fin 2048, lhs (ix2 r k) * rhs (ix2 j k) := by
  refine (Ideal.matmul_constant_zero_apply dot_S512x2048_S128x2048_S512x128_1_1_0_0_n_n none lhs rhs (ix2 r j)).trans ?_
  rw [← Equiv.sum_comp (contrEquiv1 dot_S512x2048_S128x2048_S512x128_1_1_0_0_n_n 2048 rfl rfl).symm]
  refine Finset.sum_congr rfl fun k _ => ?_
  have hk := contrEquiv1_symm_val dot_S512x2048_S128x2048_S512x128_1_1_0_0_n_n 2048 rfl rfl k
  have el : dot_S512x2048_S128x2048_S512x128_1_1_0_0_n_n.lhsIdx (ix2 r j) ((contrEquiv1 dot_S512x2048_S128x2048_S512x128_1_1_0_0_n_n 2048 rfl rfl).symm k) = ix2 r k :=
    funext fun a => Fin.ext (by
      match a with
      | ⟨0, _⟩ => exact mm1_lhs0 _ _
      | ⟨1, _⟩ => exact (mm1_lhs1 _ _).trans hk)
  have er : dot_S512x2048_S128x2048_S512x128_1_1_0_0_n_n.rhsIdx (ix2 r j) ((contrEquiv1 dot_S512x2048_S128x2048_S512x128_1_1_0_0_n_n 2048 rfl rfl).symm k) = ix2 j k :=
    funext fun a => Fin.ext (by
      match a with
      | ⟨0, _⟩ => exact mm1_rhs0 _ _
      | ⟨1, _⟩ => exact (mm1_rhs1 _ _).trans hk)
  rw [el, er]

/-! ## The second product: `[512, 128] × [2048, 128] → [512, 2048]` -/

theorem mm2_lhs0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
theorem mm2_lhs1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem mm2_rhs0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl
theorem mm2_rhs1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The second product into the zero accumulator, at entry `(r, h)`. -/
theorem mm2_apply {φ₁ φ₂ : FTy} (lhs : FVec Ideal S512x128 φ₁) (rhs : FVec Ideal S2048x128 φ₂) (r : Fin 512) (h : Fin 2048) :
    matmul dot_S512x128_S2048x128_S512x2048_1_1_0_0_n_n none lhs rhs (constant (F := Ideal) S512x2048 .f32 0x00000000#32) (ix2 r h)
      = ∑ j : Fin 128, lhs (ix2 r j) * rhs (ix2 h j) := by
  refine (Ideal.matmul_constant_zero_apply dot_S512x128_S2048x128_S512x2048_1_1_0_0_n_n none lhs rhs (ix2 r h)).trans ?_
  rw [← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 r h) ((contrEquiv1 dot_S512x128_S2048x128_S512x2048_1_1_0_0_n_n 128 rfl rfl).symm k) = ix2 r k :=
    funext fun a => Fin.ext (by
      match a with
      | ⟨0, _⟩ => exact mm2_lhs0 _ _
      | ⟨1, _⟩ => exact (mm2_lhs1 _ _).trans hk)
  have er : dot_S512x128_S2048x128_S512x2048_1_1_0_0_n_n.rhsIdx (ix2 r h) ((contrEquiv1 dot_S512x128_S2048x128_S512x2048_1_1_0_0_n_n 128 rfl rfl).symm k) = ix2 h k :=
    funext fun a => Fin.ext (by
      match a with
      | ⟨0, _⟩ => exact mm2_rhs0 _ _
      | ⟨1, _⟩ => exact (mm2_rhs1 _ _).trans hk)
  rw [el, er]

end Cert.Moe.K

end
-- ==== Proof.KPay4.lean ====
/-
  One step of the kernel's accumulation, read at an entry over the reals.

  At a grid point the kernel holds a block of 512 tokens `x` (512 × 2048), a slab of 128 rows of an expert's gate
  matrix and the matching slab of its up matrix (each 128 × 2048), the matching 128 columns of the expert's down matrix
  (2048 × 128), the accumulator block (512 × 2048) and the expert's routing-weight column (512 × 1). It adds to the
  accumulator, at row `r` and column `h`,
      ( Σ_j  hidden r j · down h j ) · w r ,     hidden r j = (g · σ(g)) · u ,   g = Σ_k x r k · gate j k ,  u = Σ_k x r k · up j k .
  When every entry involved is (the coercion of) a real number, each product and sum stays inside the reals, and the
  step is that real-number formula added to the accumulator. The changes of float format along the way are the
  identity at the ideal values.
-/
import proofs.«100299_j31928786879171_1_alg».proof.Proof.Gen.KernelIdeal.Skeleton
import proofs.«100299_j31928786879171_1_alg».proof.Proof.Spec
import proofs.«100299_j31928786879171_1_alg».proof.Proof.LibERealSum
import proofs.«100299_j31928786879171_1_alg».proof.Proof.LibColumnBroadcast
import proofs.«100299_j31928786879171_1_alg».proof.Proof.KMat
import Idealize.ShloMosaic.Lib.ValueLayout

noncomputable section

namespace Cert.Moe.K

open Idealize.ShloMosaic Idealize.ShloMosaic.ValueIdx
open Cert.KernelIdeal Cert.KernelIdeal.Gen

/-! ## The real-number formulas -/

/-- A projection of the token block on a slab of 128 weight rows: row `r` of the tokens against row `j` of the slab. -/
def proj (x : S512x2048.Idx → EReal) (w : S1x128x2048.Idx → EReal) (r : Fin 512) (j : Fin 128) : ℝ :=
  ∑ k : Fin 2048, (x (ix2 r k)).toReal * (w (ix3 (0 : Fin 1) j k)).toReal

/-- The hidden activation of the slab: `silu(gate) · up`. -/
def hidb (x : S512x2048.Idx → EReal) (wg wu : S1x128x2048.Idx → EReal) (r : Fin 512) (j : Fin 128) : ℝ :=
  (proj x wg r j * Cert.Moe.sigm (proj x wg r j)) * proj x wu r j

/-- What the step adds at `(r, h)`: the slab's part of the down projection, weighted by the routing weight of row `r`. -/
def stepR (x : S512x2048.Idx → EReal) (wg wu : S1x128x2048.Idx → EReal) (wd : S1x2048x128.Idx → EReal)
    (wc : S512x1.Idx → EReal) (r : Fin 512) (h : Fin 2048) : ℝ :=
  (∑ j : Fin 128, hidb x wg wu r j * (wd (ix3 (0 : Fin 1) h j)).toReal) * (wc (ix2 r (0 : Fin 1))).toReal

/-! ## The payload's pieces, named -/

/-- The token block against a slab, as the kernel computes it. -/
def projV (v8 : Vec Ideal S512x2048 .f32) (w : Vec Ideal S1x128x2048 .f32) : FVec Ideal S512x128 .f32 :=
  matmul dot_S512x2048_S128x2048_S512x128_1_1_0_0_n_n none (truncf .bf16 v8 bitsLt_bf16_f32)
    (truncf .bf16 (shapeCast S128x2048 w shapeCasts_S1x128x2048_S128x2048) bitsLt_bf16_f32)
    (constant (F := Ideal) S512x128 .f32 0x00000000#32)

/-- The hidden activation, as the kernel computes it. -/
def hidV (v8 : Vec Ideal S512x2048 .f32) (v10 v13 : Vec Ideal S1x128x2048 .f32) : FVec Ideal S512x128 .f32 :=
  mulf (mulf (projV v8 v10) (logistic (projV v8 v10))) (projV v8 v13)

/-- The payload is the accumulator plus the weighted down projection of the hidden activation. -/
theorem pay4_eq (v8 : Vec Ideal S512x2048 .f32) (v10 v13 : Vec Ideal S1x128x2048 .f32) (v22 : Vec Ideal S1x2048x128 .f32)
    (v26 : Vec Ideal S512x2048 .f32) (v27 : Vec Ideal S512x1 .f32) :
    k0_pay4 (F := Ideal) v8 v10 v13 v22 v26 v27
      = addf v26 (mulf
          (matmul dot_S512x128_S2048x128_S512x2048_1_1_0_0_n_n none (truncf .bf16 (hidV v8 v10 v13) bitsLt_bf16_f32)
            (truncf .bf16 (shapeCast S2048x128 v22 shapeCasts_S1x2048x128_S2048x128) bitsLt_bf16_f32)
            (constant (F := Ideal) S512x2048 .f32 0x00000000#32))
          (broadcastTo S512x2048 v27 broadcasts_S512x1_S512x2048)) := rfl

/-! ## Each piece at an entry -/

/-- The projection at `(r, j)` is the real sum, when the tokens and the slab are real. -/
theorem projV_apply (v8 : Vec Ideal S512x2048 .f32) (w : Vec Ideal S1x128x2048 .f32)
    (h8 : ∀ j, v8 j = (((v8 j).toReal : ℝ) : EReal)) (hw : ∀ j, w j = (((w j).toReal : ℝ) : EReal))
    (r : Fin 512) (j : Fin 128) : projV v8 w (ix2 r j) = ((proj v8 w r j : ℝ) : EReal) := by
  unfold projV
  refine (mm1_apply _ _ r j).trans ?_
  unfold proj
  rw [LibERealSum.coe_sum]
  refine Finset.sum_congr rfl fun k _ => ?_
  rw [EReal.coe_mul]
  show v8 (ix2 r k) * shapeCast S128x2048 w shapeCasts_S1x128x2048_S128x2048 (ix2 j k) = _
  rw [shapeCast_1ab_ab_apply, ← h8, ← hw]

/-- The hidden activation at `(r, j)`. -/
theorem hidV_apply (v8 : Vec Ideal S512x2048 .f32) (v10 v13 : Vec Ideal S1x128x2048 .f32)
    (h8 : ∀ j, v8 j = (((v8 j).toReal : ℝ) : EReal)) (h10 : ∀ j, v10 j = (((v10 j).toReal : ℝ) : EReal))
    (h13 : ∀ j, v13 j = (((v13 j).toReal : ℝ) : EReal)) (r : Fin 512) (j : Fin 128) :
    hidV v8 v10 v13 (ix2 r j) = ((hidb v8 v10 v13 r j : ℝ) : EReal) := by
  unfold hidV hidb
  show projV v8 v10 (ix2 r j) * Ideal.logistic (projV v8 v10 (ix2 r j)) * projV v8 v13 (ix2 r j) = _
  rw [projV_apply v8 v10 h8 h10, projV_apply v8 v13 h8 h13, Ideal.logistic_coe, ← EReal.coe_mul, ← EReal.coe_mul]
  rfl

/-- THE STEP at `(r, h)`: the accumulator's entry plus the real number the step adds. -/
theorem pay4_ix2 (v8 : Vec Ideal S512x2048 .f32) (v10 v13 : Vec Ideal S1x128x2048 .f32) (v22 : Vec Ideal S1x2048x128 .f32)
    (v26 : Vec Ideal S512x2048 .f32) (v27 : Vec Ideal S512x1 .f32)
    (h8 : ∀ j, v8 j = (((v8 j).toReal : ℝ) : EReal)) (h10 : ∀ j, v10 j = (((v10 j).toReal : ℝ) : EReal))
    (h13 : ∀ j, v13 j = (((v13 j).toReal : ℝ) : EReal)) (h22 : ∀ j, v22 j = (((v22 j).toReal : ℝ) : EReal))
    (h27 : ∀ j, v27 j = (((v27 j).toReal : ℝ) : EReal)) (r : Fin 512) (h : Fin 2048) :
    k0_pay4 (F := Ideal) v8 v10 v13 v22 v26 v27 (ix2 r h)
      = v26 (ix2 r h) + ((stepR v8 v10 v13 v22 v27 r h : ℝ) : EReal) := by
  rw [pay4_eq]
  have hm : (matmul dot_S512x128_S2048x128_S512x2048_1_1_0_0_n_n none (truncf .bf16 (hidV v8 v10 v13) bitsLt_bf16_f32)
        (truncf .bf16 (shapeCast S2048x128 v22 shapeCasts_S1x2048x128_S2048x128) bitsLt_bf16_f32)
        (constant (F := Ideal) S512x2048 .f32 0x00000000#32)) (ix2 r h)
      = ((∑ j : Fin 128, hidb v8 v10 v13 r j * (v22 (ix3 (0 : Fin 1) h j)).toReal : ℝ) : EReal) := by
    refine (mm2_apply _ _ r h).trans ?_
    rw [LibERealSum.coe_sum]
    refine Finset.sum_congr rfl fun j _ => ?_
    rw [EReal.coe_mul]
    show hidV v8 v10 v13 (ix2 r j) * shapeCast S2048x128 v22 shapeCasts_S1x2048x128_S2048x128 (ix2 h j) = _
    rw [hidV_apply v8 v10 v13 h8 h10 h13, shapeCast_1ab_ab_apply, ← h22]
  have hb : broadcastTo S512x2048 v27 broadcasts_S512x1_S512x2048 (ix2 r h) = (((v27 (ix2 r (0 : Fin 1))).toReal : ℝ) : EReal) := by
    rw [LibColumnBroadcast.broadcastTo_a1_ab_apply, ← h27]
  show v26 (ix2 r h) + _ * _ = _
  rw [hm, hb, ← EReal.coe_mul]
  rfl

/-- With a real accumulator the step's result is the coercion of a real number … -/
theorem pay4_ix2_real (v8 : Vec Ideal S512x2048 .f32) (v10 v13 : Vec Ideal S1x128x2048 .f32) (v22 : Vec Ideal S1x2048x128 .f32)
    (v26 : Vec Ideal S512x2048 .f32) (v27 : Vec Ideal S512x1 .f32)
    (h8 : ∀ j, v8 j = (((v8 j).toReal : ℝ) : EReal)) (h10 : ∀ j, v10 j = (((v10 j).toReal : ℝ) : EReal))
    (h13 : ∀ j, v13 j = (((v13 j).toReal : ℝ) : EReal)) (h22 : ∀ j, v22 j = (((v22 j).toReal : ℝ) : EReal))
    (h26 : ∀ j, v26 j = (((v26 j).toReal : ℝ) : EReal))
    (h27 : ∀ j, v27 j = (((v27 j).toReal : ℝ) : EReal)) (r : Fin 512) (h : Fin 2048) :
    k0_pay4 (F := Ideal) v8 v10 v13 v22 v26 v27 (ix2 r h)
      = (((v26 (ix2 r h)).toReal + stepR v8 v10 v13 v22 v27 r h : ℝ) : EReal) := by
  rw [pay4_ix2 v8 v10 v13 v22 v26 v27 h8 h10 h13 h22 h27, EReal.coe_add, ← h26]

/-- … so "every entry of the accumulator is real" is kept by the step. -/
theorem pay4_real (v8 : Vec Ideal S512x2048 .f32) (v10 v13 : Vec Ideal S1x128x2048 .f32) (v22 : Vec Ideal S1x2048x128 .f32)
    (v26 : Vec Ideal S512x2048 .f32) (v27 : Vec Ideal S512x1 .f32)
    (h8 : ∀ j, v8 j = (((v8 j).toReal : ℝ) : EReal)) (h10 : ∀ j, v10 j = (((v10 j).toReal : ℝ) : EReal))
    (h13 : ∀ j, v13 j = (((v13 j).toReal : ℝ) : EReal)) (h22 : ∀ j, v22 j = (((v22 j).toReal : ℝ) : EReal))
    (h26 : ∀ j, v26 j = (((v26 j).toReal : ℝ) : EReal))
    (h27 : ∀ j, v27 j = (((v27 j).toReal : ℝ) : EReal)) (j : S512x2048.Idx) :
    k0_pay4 (F := Ideal) v8 v10 v13 v22 v26 v27 j
      = (((k0_pay4 (F := Ideal) v8 v10 v13 v22 v26 v27 j).toReal : ℝ) : EReal) := by
  obtain ⟨r, h, rfl⟩ : ∃ (r : Fin 512) (h : Fin 2048), j = ix2 r h := ⟨j 0, j 1, eq_ix2 j⟩
  rw [pay4_ix2_real v8 v10 v13 v22 v26 v27 h8 h10 h13 h22 h26 h27, EReal.toReal_coe]

end Cert.Moe.K

end
-- ==== Proof.SSum.lean ====
/-
  The layer's output as a running sum over a grid of 352 positions.

  Position `p` stands for expert `p / 44` and column tile `p % 44` (128 of the 5632 intermediate columns).
  Its contribution to `out t h` is the tile's part of the down projection, times the expert's routing weight:
    term p = (Σ_{j<128} hid t e (i·128 + j) · dn[e, h, i·128 + j]) · wE t e        with e = p / 44, i = p % 44.
  Summing the 352 contributions in order gives `out t h`: the positions are the pairs (e, i), the columns of
  expert `e` are the pairs (i, j), and the routing weight factors out of the sum over the tiles of one expert.
-/
import proofs.«100299_j31928786879171_1_alg».proof.Proof.Spec

noncomputable section

namespace Cert.Moe

/-- The contribution of grid position `p` (expert `p / 44`, column tile `p % 44`: 128 of the 5632 intermediate
columns) to token `t`'s output column `h`. -/
def termR (x : Fin 4096 → Fin 2048 → ℝ) (sel : Fin 4096 → Fin 2 → BitVec 32) (rw : Fin 4096 → Fin 2 → ℝ)
    (gu : Fin 8 → Fin 11264 → Fin 2048 → ℝ) (dn : Fin 8 → Fin 2048 → Fin 5632 → ℝ) (t : Fin 4096) (h : Fin 2048)
    (p : Fin 352) : ℝ :=
  (∑ j : Fin 128, hid x gu t ⟨p.val / 44, by omega⟩ ⟨(p.val % 44) * 128 + j.val, by omega⟩
      * dn ⟨p.val / 44, by omega⟩ h ⟨(p.val % 44) * 128 + j.val, by omega⟩)
    * wE sel rw t ⟨p.val / 44, by omega⟩

/-- The accumulator after the first `n` positions. -/
def partR (x : Fin 4096 → Fin 2048 → ℝ) (sel : Fin 4096 → Fin 2 → BitVec 32) (rw : Fin 4096 → Fin 2 → ℝ)
    (gu : Fin 8 → Fin 11264 → Fin 2048 → ℝ) (dn : Fin 8 → Fin 2048 → Fin 5632 → ℝ) (t : Fin 4096) (h : Fin 2048) :
    ℕ → ℝ
  | 0 => 0
  | n + 1 => partR x sel rw gu dn t h n + (if hn : n < 352 then termR x sel rw gu dn t h ⟨n, hn⟩ else 0)

/-- One step of the accumulator inside the grid adds that position's contribution. -/
theorem partR_succ (x : Fin 4096 → Fin 2048 → ℝ) (sel : Fin 4096 → Fin 2 → BitVec 32) (rw : Fin 4096 → Fin 2 → ℝ)
    (gu : Fin 8 → Fin 11264 → Fin 2048 → ℝ) (dn : Fin 8 → Fin 2048 → Fin 5632 → ℝ) (t : Fin 4096) (h : Fin 2048)
    (n : ℕ) (hn : n < 352) :
    partR x sel rw gu dn t h (n + 1) = partR x sel rw gu dn t h n + termR x sel rw gu dn t h ⟨n, hn⟩ := by
  rw [partR, dif_pos hn]

/-- Positions as pairs (expert, column tile): `p = e * 44 + i`. -/
def gridEquiv : Fin 8 × Fin 44 ≃ Fin 352 where
  toFun q := ⟨q.1.val * 44 + q.2.val, by omega⟩
  invFun p := (⟨p.val / 44, by omega⟩, ⟨p.val % 44, by omega⟩)
  left_inv q := by
    ext <;> simp <;> omega
  right_inv p := by
    ext; simp; omega

/-- Intermediate columns as pairs (column tile, offset in the tile): `J = i * 128 + j`. -/
def tileEquiv : Fin 44 × Fin 128 ≃ Fin 5632 where
  toFun q := ⟨q.1.val * 128 + q.2.val, by omega⟩
  invFun J := (⟨J.val / 128, by omega⟩, ⟨J.val % 128, by omega⟩)
  left_inv q := by
    ext <;> simp <;> omega
  right_inv J := by
    ext; simp; omega

/-- The accumulator after `n` steps is the sum of the first `n` contributions (none beyond the grid). -/
theorem partR_eq_sum_range (x : Fin 4096 → Fin 2048 → ℝ) (sel : Fin 4096 → Fin 2 → BitVec 32)
    (rw : Fin 4096 → Fin 2 → ℝ) (gu : Fin 8 → Fin 11264 → Fin 2048 → ℝ) (dn : Fin 8 → Fin 2048 → Fin 5632 → ℝ)
    (t : Fin 4096) (h : Fin 2048) (n : ℕ) :
    partR x sel rw gu dn t h n
      = ∑ i ∈ Finset.range n, (if hn : i < 352 then termR x sel rw gu dn t h ⟨i, hn⟩ else 0) := by
  induction n with
  | zero => simp [partR]
  | succ n ih => rw [partR, Finset.sum_range_succ, ih]

/-- The full accumulator is the sum of the contributions of all 352 positions. -/
theorem partR_full_eq_sum (x : Fin 4096 → Fin 2048 → ℝ) (sel : Fin 4096 → Fin 2 → BitVec 32)
    (rw : Fin 4096 → Fin 2 → ℝ) (gu : Fin 8 → Fin 11264 → Fin 2048 → ℝ) (dn : Fin 8 → Fin 2048 → Fin 5632 → ℝ)
    (t : Fin 4096) (h : Fin 2048) :
    partR x sel rw gu dn t h 352 = ∑ p : Fin 352, termR x sel rw gu dn t h p := by
  rw [partR_eq_sum_range,
    ← Fin.sum_univ_eq_sum_range (fun i => if hn : i < 352 then termR x sel rw gu dn t h ⟨i, hn⟩ else 0) 352]
  refine Finset.sum_congr rfl (fun p _ => ?_)
  rw [dif_pos p.isLt]

/-- The contribution of position `e * 44 + i`, with the quotient and the remainder evaluated. -/
theorem termR_grid (x : Fin 4096 → Fin 2048 → ℝ) (sel : Fin 4096 → Fin 2 → BitVec 32) (rw : Fin 4096 → Fin 2 → ℝ)
    (gu : Fin 8 → Fin 11264 → Fin 2048 → ℝ) (dn : Fin 8 → Fin 2048 → Fin 5632 → ℝ) (t : Fin 4096) (h : Fin 2048)
    (e : Fin 8) (i : Fin 44) :
    termR x sel rw gu dn t h (gridEquiv (e, i))
      = (∑ j : Fin 128, hid x gu t e (tileEquiv (i, j)) * dn e h (tileEquiv (i, j))) * wE sel rw t e := by
  have he : (⟨(gridEquiv (e, i)).val / 44, by omega⟩ : Fin 8) = e := by
    apply Fin.ext
    show (e.val * 44 + i.val) / 44 = e.val
    omega
  have hJ : ∀ j : Fin 128,
      (⟨((gridEquiv (e, i)).val % 44) * 128 + j.val, by omega⟩ : Fin 5632) = tileEquiv (i, j) := by
    intro j
    apply Fin.ext
    show ((e.val * 44 + i.val) % 44) * 128 + j.val = i.val * 128 + j.val
    omega
  unfold termR
  rw [he]
  simp only [hJ]

/-- The 352 contributions add up to the layer's output. -/
theorem partR_full (x : Fin 4096 → Fin 2048 → ℝ) (sel : Fin 4096 → Fin 2 → BitVec 32) (rw : Fin 4096 → Fin 2 → ℝ)
    (gu : Fin 8 → Fin 11264 → Fin 2048 → ℝ) (dn : Fin 8 → Fin 2048 → Fin 5632 → ℝ) (t : Fin 4096) (h : Fin 2048) :
    partR x sel rw gu dn t h 352 = outR x sel rw gu dn t h := by
  rw [partR_full_eq_sum, ← Equiv.sum_comp gridEquiv, Fintype.sum_prod_type]
  unfold outR
  refine Finset.sum_congr rfl (fun e _ => ?_)
  simp only [termR_grid]
  rw [← Finset.sum_mul]
  congr 1
  unfold yE
  rw [← Equiv.sum_comp tileEquiv, Fintype.sum_prod_type]

end Cert.Moe

end
-- ==== Proof.KStep.lean ====
/-
  One step of the kernel's accumulation at a grid point, over the argument arrays.

  At point `t` (token tile `t / 352`, expert `(t / 44) % 8`, column tile `t % 44`) the blocks the body sees are pieces
  of the argument arrays, so what the step adds at row `r`, column `h` is the contribution of grid position `t % 352`
  to the output of token `512·(t/352) + r`: the column tile's part of the expert's down projection of the hidden
  activation, times the token's routing weight for the expert. The routing-weight column the kernel keeps is the dense
  routing table's column of the expert, and that table's entry is the routing weight.
-/
import proofs.«100299_j31928786879171_1_alg».proof.Proof.KBlocks
import proofs.«100299_j31928786879171_1_alg».proof.Proof.KPay3
import proofs.«100299_j31928786879171_1_alg».proof.Proof.KPay4
import proofs.«100299_j31928786879171_1_alg».proof.Proof.SSum

set_option maxRecDepth 16384

noncomputable section

namespace Cert.Moe.K

open Idealize.ShloMosaic Idealize.ShloMosaic.TcCoe Idealize.ShloMosaic.ValueIdx
open Idealize.SL Idealize.SL.Sem
open Cert.KernelIdeal Cert.KernelIdeal.Gen Cert.KernelIdeal.Hand
open Cert.Moe

/-! ## The step over arrays the blocks are read from -/

/-- If the blocks are pieces of arrays `X0` (tokens), `X3` (fused gate and up matrices), `X4` (down matrices) —
    row `r` of the token block is token `tk`, the slabs are expert `e`'s rows `J j` and `5632 + J j`, and the down
    block its columns `J j` — then what the step adds is the slab's part of expert `e`'s output for token `tk`,
    times the weight column's entry. -/
theorem stepR_of_reads (X0 : (⟨2, ![4096, 2048]⟩ : Shape).Idx → EReal) (X3 : (⟨3, ![8, 11264, 2048]⟩ : Shape).Idx → EReal)
    (X4 : (⟨3, ![8, 2048, 5632]⟩ : Shape).Idx → EReal)
    (v8 : S512x2048.Idx → EReal) (v10 v13 : S1x128x2048.Idx → EReal) (v22 : S1x2048x128.Idx → EReal) (wc : S512x1.Idx → EReal)
    (tk : Fin 4096) (e : Fin 8) (J : Fin 128 → Fin 5632) (r : Fin 512) (h : Fin 2048) (w : ℝ)
    (h8 : ∀ k : Fin 2048, v8 (ix2 r k) = X0 (ix2 tk k))
    (h10 : ∀ (j : Fin 128) (k : Fin 2048), v10 (ix3 (0 : Fin 1) j k) = X3 (ix3 e (⟨(J j).val, by have := (J j).isLt; omega⟩ : Fin 11264) k))
    (h13 : ∀ (j : Fin 128) (k : Fin 2048), v13 (ix3 (0 : Fin 1) j k) = X3 (ix3 e (⟨5632 + (J j).val, by have := (J j).isLt; omega⟩ : Fin 11264) k))
    (h22 : ∀ j : Fin 128, v22 (ix3 (0 : Fin 1) h j) = X4 (ix3 e h (J j)))
    (hw : (wc (ix2 r (0 : Fin 1))).toReal = w) :
    stepR v8 v10 v13 v22 wc r h = (∑ j : Fin 128, hid (xR X0) (guR X3) tk e (J j) * dnR X4 e h (J j)) * w := by
  unfold stepR hidb proj hid gate up xR guR dnR
  simp only [h8, h10, h13, h22, hw]

variable (m : (ℓ : Loc nD τ sig) → Buf (Elt Ideal) ℓ)

theorem pos_lt (t : Fin cfg0.N) : t.val % 352 < 352 := Nat.mod_lt _ (by decide)

/-- THE STEP at grid point `t`: the contribution of position `t % 352` to token `512·(t/352) + r`'s output. -/
theorem stepR_grid (c : Dev nD) (t : Fin cfg0.N) (r : Fin 512) (h : Fin 2048) (wc : S512x1.Idx → EReal)
    (hw : (wc (ix2 r (0 : Fin 1))).toReal
      = wE (selR (m ((c : Thread nD τ).loc main_arg1))) (rwR (m ((c : Thread nD τ).loc main_arg2))) (tokOf t r) (expOf t)) :
    stepR (iblk m c 0 t) (iblk m c 1 t) (iblk m c 2 t) (iblk m c 3 t) wc r h
      = termR (xR (m ((c : Thread nD τ).loc main_arg0))) (selR (m ((c : Thread nD τ).loc main_arg1)))
          (rwR (m ((c : Thread nD τ).loc main_arg2))) (guR (m ((c : Thread nD τ).loc main_arg3)))
          (dnR (m ((c : Thread nD τ).loc main_arg4))) (tokOf t r) h ⟨t.val % 352, pos_lt t⟩ := by
  have hp := pos_lt t
  have he : expOf t = (⟨(t.val % 352) / 44, by omega⟩ : Fin 8) := Fin.ext (by show (t.val / 44) % 8 = (t.val % 352) / 44; omega)
  have hJg : ∀ j : Fin 128, gateRow t j = (⟨((t.val % 352) % 44) * 128 + j.val, by have := j.isLt; omega⟩ : Fin 11264) := fun j =>
    Fin.ext (by show (t.val % 44) * 128 + j.val = ((t.val % 352) % 44) * 128 + j.val; omega)
  have hJu : ∀ j : Fin 128, upRow t j = (⟨5632 + (((t.val % 352) % 44) * 128 + j.val), by have := j.isLt; omega⟩ : Fin 11264) := fun j =>
    Fin.ext (by show 5632 + (t.val % 44) * 128 + j.val = 5632 + (((t.val % 352) % 44) * 128 + j.val); omega)
  have hJd : ∀ j : Fin 128, dnCol t j = (⟨((t.val % 352) % 44) * 128 + j.val, by have := j.isLt; omega⟩ : Fin 5632) := fun j =>
    Fin.ext (by show (t.val % 44) * 128 + j.val = ((t.val % 352) % 44) * 128 + j.val; omega)
  unfold termR
  refine stepR_of_reads _ _ _ _ _ _ _ _ (tokOf t r) ⟨(t.val % 352) / 44, by omega⟩
    (fun j => ⟨((t.val % 352) % 44) * 128 + j.val, by have := j.isLt; omega⟩) r h _
    (fun k => blk0_read m c t r k)
    (fun j k => by rw [blk1_read, he, hJg])
    (fun j k => by rw [blk2_read, he, hJu])
    (fun j => by rw [blk3_read, he, hJd])
    (by rw [hw, he])

/-! ## The blocks of real arrays are real -/

theorem blk0_real (c : Dev nD) (t : Fin cfg0.N)
    (h0 : ∀ j, m ((c : Thread nD τ).loc main_arg0) j = (((m ((c : Thread nD τ).loc main_arg0) j).toReal : ℝ) : EReal)) (j : S512x2048.Idx) :
    iblk m c 0 t j = (((iblk m c 0 t j).toReal : ℝ) : EReal) := by
  obtain ⟨r, k, rfl⟩ : ∃ (r : Fin 512) (k : Fin 2048), j = ix2 r k := ⟨j 0, j 1, eq_ix2 j⟩
  rw [blk0_read]; exact h0 _

theorem blk1_real (c : Dev nD) (t : Fin cfg0.N)
    (h3 : ∀ j, m ((c : Thread nD τ).loc main_arg3) j = (((m ((c : Thread nD τ).loc main_arg3) j).toReal : ℝ) : EReal)) (j : S1x128x2048.Idx) :
    iblk m c 1 t j = (((iblk m c 1 t j).toReal : ℝ) : EReal) := by
  obtain ⟨u, a, b, rfl⟩ : ∃ (u : Fin 1) (a : Fin 128) (b : Fin 2048), j = ix3 u a b := ⟨j 0, j 1, j 2, eq_ix3 j⟩
  obtain rfl : u = 0 := Subsingleton.elim _ _
  rw [blk1_read]; exact h3 _

theorem blk2_real (c : Dev nD) (t : Fin cfg0.N)
    (h3 : ∀ j, m ((c : Thread nD τ).loc main_arg3) j = (((m ((c : Thread nD τ).loc main_arg3) j).toReal : ℝ) : EReal)) (j : S1x128x2048.Idx) :
    iblk m c 2 t j = (((iblk m c 2 t j).toReal : ℝ) : EReal) := by
  obtain ⟨u, a, b, rfl⟩ : ∃ (u : Fin 1) (a : Fin 128) (b : Fin 2048), j = ix3 u a b := ⟨j 0, j 1, j 2, eq_ix3 j⟩
  obtain rfl : u = 0 := Subsingleton.elim _ _
  rw [blk2_read]; exact h3 _

theorem blk3_real (c : Dev nD) (t : Fin cfg0.N)
    (h4 : ∀ j, m ((c : Thread nD τ).loc main_arg4) j = (((m ((c : Thread nD τ).loc main_arg4) j).toReal : ℝ) : EReal)) (j : S1x2048x128.Idx) :
    iblk m c 3 t j = (((iblk m c 3 t j).toReal : ℝ) : EReal) := by
  obtain ⟨u, a, b, rfl⟩ : ∃ (u : Fin 1) (a : Fin 2048) (b : Fin 128), j = ix3 u a b := ⟨j 0, j 1, j 2, eq_ix3 j⟩
  obtain rfl : u = 0 := Subsingleton.elim _ _
  rw [blk3_read]; exact h4 _

/-! ## The routing-weight column -/

/-- The column the kernel keeps at point `t`, at row `r`: the routing weight of token `512·(t/352) + r` for the point's expert. -/
theorem pay3_grid (c : Dev nD) (t : Fin cfg0.N) (r : Fin 512)
    (h2 : ∀ j, m ((c : Thread nD τ).loc main_arg2) j = (((m ((c : Thread nD τ).loc main_arg2) j).toReal : ℝ) : EReal)) :
    k0_pay3 (F := Ideal) (grid0.coords t) (iblk m c 4 t) (ix2 r (0 : Fin 1))
      = ((wE (selR (m ((c : Thread nD τ).loc main_arg1))) (rwR (m ((c : Thread nD τ).loc main_arg2))) (tokOf t r) (expOf t) : ℝ) : EReal) := by
  rw [pay3_ix2 (grid0.coords t) (expOf t) (coord1 t) (iblk m c 4 t) r, blk4_read, V_wfull]
  exact wfullTerm_apply _ _ h2 _ _

/-- The kept column is real. -/
theorem pay3_grid_real (c : Dev nD) (t : Fin cfg0.N)
    (h2 : ∀ j, m ((c : Thread nD τ).loc main_arg2) j = (((m ((c : Thread nD τ).loc main_arg2) j).toReal : ℝ) : EReal)) (j : S512x1.Idx) :
    k0_pay3 (F := Ideal) (grid0.coords t) (iblk m c 4 t) j
      = (((k0_pay3 (F := Ideal) (grid0.coords t) (iblk m c 4 t) j).toReal : ℝ) : EReal) := by
  obtain ⟨r, u, rfl⟩ : ∃ (r : Fin 512) (u : Fin 1), j = ix2 r u := ⟨j 0, j 1, eq_ix2 j⟩
  obtain rfl : u = 0 := Subsingleton.elim _ _
  rw [pay3_grid m c t r h2, EReal.toReal_coe]

end Cert.Moe.K

end
-- ==== Proof.KPay2.lean ====
/-
  The two plain payloads of the kernel body: the accumulator as it is written back (a cast of a block to its own
  shape, so the block itself), and the block the accumulator is reset to at the first step of a token block (every
  entry the zero word, which denotes the real number 0).
-/
import proofs.«100299_j31928786879171_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Moe.K

open Idealize.ShloMosaic Idealize.ShloMosaic.ValueIdx
open Cert.KernelIdeal Cert.KernelIdeal.Gen

/-- Writing the accumulator back casts it to its own shape: nothing changes, at any float instance. -/
theorem pay1_eq {F : FTy → Type} [FloatOps F] (v : FVec F S512x2048 .f32) : k0_pay1 v = v := by
  unfold k0_pay1
  exact shapeCast_self v _

/-- The reset block is zero at every entry. -/
theorem pay2_apply (j : S512x2048.Idx) : k0_pay2 (F := Ideal) j = 0 := by
  unfold k0_pay2
  refine (congrFun (shapeCast_self _ _) j).trans ?_
  exact Ideal.ofBits_zero_f32

/-- The same at an entry given by its row and column. -/
theorem pay2_ix2 (r : Fin 512) (h : Fin 2048) : k0_pay2 (F := Ideal) (ix2 r h) = 0 := pay2_apply _

/-- As a whole block: the constant function 0. -/
theorem pay2_eq : k0_pay2 (F := Ideal) = fun _ => (0 : EReal) := funext pay2_apply

end Cert.Moe.K

end
-- ==== Proof.IdealValue.lean ====
/-
  The kernel's value. Over the grid the accumulator of token tile T holds, after position p of the tile, the first
  p + 1 contributions (one per expert and column tile, in that order) to the outputs of the tile's 512 tokens; the
  weight column holds the tile's routing weights for the current expert. After the tile's last position the
  accumulator — all 352 contributions, the layer's output — is copied to the output block, and the blocks tile the
  result array. Everything is read over the reals: the inputs are finite, so every value on the way is a real.
-/
import proofs.«100299_j31928786879171_1_alg».proof.Proof.IdealSteps
import proofs.«100299_j31928786879171_1_alg».proof.Proof.KStep
import proofs.«100299_j31928786879171_1_alg».proof.Proof.KPay2

set_option maxRecDepth 16384

noncomputable section

namespace Cert.Moe.KV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open Cert.Moe Cert.Moe.K

variable (m : (ℓ : Loc nD τ sig) → Buf (Elt Ideal) ℓ) (c : Dev nD)

/-- The accumulator's value for row `r` of point `t`'s token tile, column `h`, after `n` positions of the tile. -/
abbrev part (t : Fin cfg0.N) (r : Fin 512) (h : Fin 2048) (n : ℕ) : ℝ :=
  partR (xR (m ((c : Thread nD τ).loc main_arg0))) (selR (m ((c : Thread nD τ).loc main_arg1)))
    (rwR (m ((c : Thread nD τ).loc main_arg2))) (guR (m ((c : Thread nD τ).loc main_arg3)))
    (dnR (m ((c : Thread nD τ).loc main_arg4))) (tokOf t r) h n

/-- The routing weight of row `r` of point `t`'s token tile for point `t`'s expert. -/
abbrev wgt (t : Fin cfg0.N) (r : Fin 512) : ℝ :=
  wE (selR (m ((c : Thread nD τ).loc main_arg1))) (rwR (m ((c : Thread nD τ).loc main_arg2))) (tokOf t r) (expOf t)

/-- The inputs are reals. -/
structure Fin4 : Prop where
  h0 : ∀ j, m ((c : Thread nD τ).loc main_arg0) j = (((m ((c : Thread nD τ).loc main_arg0) j).toReal : ℝ) : EReal)
  h2 : ∀ j, m ((c : Thread nD τ).loc main_arg2) j = (((m ((c : Thread nD τ).loc main_arg2) j).toReal : ℝ) : EReal)
  h3 : ∀ j, m ((c : Thread nD τ).loc main_arg3) j = (((m ((c : Thread nD τ).loc main_arg3) j).toReal : ℝ) : EReal)
  h4 : ∀ j, m ((c : Thread nD τ).loc main_arg4) j = (((m ((c : Thread nD τ).loc main_arg4) j).toReal : ℝ) : EReal)

theorem real_of_ix2 (v : S512x2048.Idx → EReal) (f : Fin 512 → Fin 2048 → ℝ) (hv : ∀ r h, v (ix2 r h) = ((f r h : ℝ) : EReal)) (j : S512x2048.Idx) :
    v j = (((v j).toReal : ℝ) : EReal) := by
  obtain ⟨r, h, rfl⟩ : ∃ (r : Fin 512) (h : Fin 2048), j = ix2 r h := ⟨j 0, j 1, eq_ix2 j⟩
  rw [hv, EReal.toReal_coe]

theorem real_of_col (v : S512x1.Idx → EReal) (f : Fin 512 → ℝ) (hv : ∀ r, v (ix2 r (0 : Fin 1)) = ((f r : ℝ) : EReal)) (j : S512x1.Idx) :
    v j = (((v j).toReal : ℝ) : EReal) := by
  obtain ⟨r, u, rfl⟩ : ∃ (r : Fin 512) (u : Fin 1), j = ix2 r u := ⟨j 0, j 1, eq_ix2 j⟩
  obtain rfl : u = 0 := Subsingleton.elim _ _
  rw [hv, EReal.toReal_coe]

/-- ONE STEP: from the first `t % 352` contributions and the expert's weights to the first `t % 352 + 1`. -/
theorem step_acc (hf : Fin4 m c) (t : Fin cfg0.N) (xs0 : Vec Ideal S512x2048 .f32) (xs1 : Vec Ideal S512x1 .f32)
    (hx0 : ∀ r h, xs0 (ix2 r h) = ((part m c t r h (t.val % 352) : ℝ) : EReal))
    (hx1 : ∀ r, xs1 (ix2 r (0 : Fin 1)) = ((wgt m c t r : ℝ) : EReal)) (r : Fin 512) (h : Fin 2048) :
    k0_pay1 (k0_pay4 (F := Ideal) (iblk m c 0 t) (iblk m c 1 t) (iblk m c 2 t) (iblk m c 3 t) xs0 xs1) (ix2 r h)
      = ((part m c t r h (t.val % 352 + 1) : ℝ) : EReal) := by
  rw [pay1_eq, pay4_ix2_real _ _ _ _ _ _ (blk0_real m c t hf.h0) (blk1_real m c t hf.h3) (blk2_real m c t hf.h3) (blk3_real m c t hf.h4)
    (real_of_ix2 xs0 _ hx0) (real_of_col xs1 _ hx1) r h, hx0, EReal.toReal_coe,
    stepR_grid m c t r h xs1 (by rw [hx1, EReal.toReal_coe])]
  exact congrArg _ (partR_succ _ _ _ _ _ _ _ _ (pos_lt t)).symm

/-- What holds after point `t`. -/
structure Inv (t : Fin cfg0.N) : Prop where
  acc : ∀ r h, (outsAt m c t.val t.isLt).2.1 (ix2 r h) = ((part m c t r h (t.val % 352 + 1) : ℝ) : EReal)
  col : ∀ r, (outsAt m c t.val t.isLt).2.2 (ix2 r (0 : Fin 1)) = ((wgt m c t r : ℝ) : EReal)

theorem tok_prev (t : Fin cfg0.N) (h0 : ¬t.val % 352 = 0) (r : Fin 512) : tokOf ⟨t.val - 1, prevLt t⟩ r = tokOf t r :=
  Fin.ext (by show (t.val - 1) / 352 * 512 + r.val = t.val / 352 * 512 + r.val; omega)

theorem exp_prev (t : Fin cfg0.N) (h1 : ¬t.val % 44 = 0) : expOf ⟨t.val - 1, prevLt t⟩ = expOf t :=
  Fin.ext (by show (t.val - 1) / 44 % 8 = t.val / 44 % 8; omega)

/-- The accumulator the point before left is this point's starting value (same token tile). -/
theorem prev_acc (t : Fin cfg0.N) (h0 : ¬t.val % 352 = 0) (prev : Inv m c ⟨t.val - 1, prevLt t⟩) (r : Fin 512) (h : Fin 2048) :
    (outsAt m c (t.val - 1) (prevLt t)).2.1 (ix2 r h) = ((part m c t r h (t.val % 352) : ℝ) : EReal) := by
  have e := prev.acc r h
  simp only [part, tok_prev t h0 r] at e
  rw [e]
  have e1 : (t.val - 1) % 352 + 1 = t.val % 352 := by omega
  show _ = ((part m c t r h (t.val % 352) : ℝ) : EReal)
  unfold part
  rw [e1]

/-- The weight column the point before left is this point's (same expert, same token tile). -/
theorem prev_col (t : Fin cfg0.N) (h1 : ¬t.val % 44 = 0) (prev : Inv m c ⟨t.val - 1, prevLt t⟩) (r : Fin 512) :
    (outsAt m c (t.val - 1) (prevLt t)).2.2 (ix2 r (0 : Fin 1)) = ((wgt m c t r : ℝ) : EReal) := by
  have h0 : ¬t.val % 352 = 0 := fun h => h1 (by omega)
  have e := prev.col r
  simp only [wgt, tok_prev t h0 r, exp_prev t h1] at e
  exact e

theorem inv_A (hf : Fin4 m c) (t : Fin cfg0.N) (h0 : t.val % 352 = 0) : Inv m c t := by
  refine ⟨fun r h => ?_, fun r => ?_⟩
  · rw [outsAt_A m c t h0, stepA_eq]
    refine step_acc m c hf t _ _ (fun r h => ?_) (fun r => pay3_grid m c t r hf.h2) r h
    rw [pay2_ix2, h0]; rfl
  · rw [outsAt_A m c t h0, stepA_eq]
    exact pay3_grid m c t r hf.h2

theorem inv_B (hf : Fin4 m c) (t : Fin cfg0.N) (h0 : ¬t.val % 352 = 0) (h1 : t.val % 44 = 0) (prev : Inv m c ⟨t.val - 1, prevLt t⟩) : Inv m c t := by
  refine ⟨fun r h => ?_, fun r => ?_⟩
  · rw [outsAt_B m c t h0 h1, stepB_eq]
    exact step_acc m c hf t _ _ (prev_acc m c t h0 prev) (fun r => pay3_grid m c t r hf.h2) r h
  · rw [outsAt_B m c t h0 h1, stepB_eq]
    exact pay3_grid m c t r hf.h2

theorem inv_C (hf : Fin4 m c) (t : Fin cfg0.N) (h1 : ¬t.val % 44 = 0) (h2 : ¬t.val % 352 = 351) (prev : Inv m c ⟨t.val - 1, prevLt t⟩) : Inv m c t := by
  have h0 : ¬t.val % 352 = 0 := fun h => h1 (by omega)
  refine ⟨fun r h => ?_, fun r => ?_⟩
  · rw [outsAt_C m c t h1 h2, stepC_eq]
    exact step_acc m c hf t _ _ (prev_acc m c t h0 prev) (prev_col m c t h1 prev) r h
  · rw [outsAt_C m c t h1 h2, stepC_eq]
    exact prev_col m c t h1 prev r

theorem inv_D (hf : Fin4 m c) (t : Fin cfg0.N) (h2 : t.val % 352 = 351) (prev : Inv m c ⟨t.val - 1, prevLt t⟩) : Inv m c t := by
  have h0 : ¬t.val % 352 = 0 := fun h => by omega
  have h1 : ¬t.val % 44 = 0 := fun h => by omega
  refine ⟨fun r h => ?_, fun r => ?_⟩
  · rw [outsAt_D m c t h2, stepD_eq]
    exact step_acc m c hf t _ _ (prev_acc m c t h0 prev) (prev_col m c t h1 prev) r h
  · rw [outsAt_D m c t h2, stepD_eq]
    exact prev_col m c t h1 prev r

/-- THE INVARIANT at every point of the grid. -/
theorem inv (hf : Fin4 m c) : ∀ (n : ℕ) (hn : n < cfg0.N), Inv m c ⟨n, hn⟩ := by
  intro n
  induction n with
  | zero => intro hn; exact inv_A m c hf ⟨0, hn⟩ (Nat.zero_mod _)
  | succ n ih =>
    intro hn
    have ihn : Inv m c ⟨n, Nat.lt_of_succ_lt hn⟩ := ih (Nat.lt_of_succ_lt hn)
    by_cases c0 : (n + 1) % 352 = 0
    · exact inv_A m c hf ⟨n + 1, hn⟩ c0
    · by_cases c1 : (n + 1) % 44 = 0
      · exact inv_B m c hf ⟨n + 1, hn⟩ c0 c1 ihn
      · by_cases c2 : (n + 1) % 352 = 351
        · exact inv_D m c hf ⟨n + 1, hn⟩ c2 ihn
        · exact inv_C m c hf ⟨n + 1, hn⟩ c1 c2 ihn

/-- What a token tile's last point writes back is the layer's output on the tile. -/
theorem flushed_eq (hf : Fin4 m c) (t : Fin cfg0.N) (hfl : (cfg0.win 5).flush t = true) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  have h2 : t.val % 352 = 351 := (flush0_5 t).mp hfl
  funext y
  obtain ⟨r, h, rfl⟩ : ∃ (r : Fin 512) (h : Fin 2048), y = ix2 r h := ⟨y 0, y 1, eq_ix2 y⟩
  rw [blk5_read]
  show (cfg0.win 5).cut (grid0.coords t) ((dats m 0 c).after 5 t) (ix2 r h) = _
  rw [after5]
  show (outsAt m c t.val t.isLt).1 (ix2 r h) = _
  rw [out_eq_acc m c t h2, (inv m c hf t.val t.isLt).acc r h, h2]
  show ((part m c t r h 352 : ℝ) : EReal) = _
  unfold part
  rw [partR_full]
  rfl

/-- THE KERNEL'S VALUE: the result array ends holding the layer's output. -/
theorem kernel_value (hf : Fin4 m c) :
    (dats m 0 c).arrAt 5 cfg0.N = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t hfl => flushed_eq m c hf t hfl) cover5

end Cert.Moe.KV

end
-- ==== Proof.RFinite.lean ====
/-
  Finite float inputs are real numbers.

  The precondition `finite_inputs` says of each of the four float argument arrays that every entry `x` has
  `|x| < +∞`.  Over the extended reals (`|x| = max x (-x)`) that excludes both infinities, so `x` is the
  coercion of the real number `x.toReal`.
-/
import proofs.«100299_j31928786879171_1_alg».proof.Proof.Gen.Pre_finite_inputs
import Idealize.ShloMosaic.PureOps.Ideal
import Idealize.ShloMosaic.Lib.ReduceAll
import Idealize.ShloMosaic.Lib.ValueIdx

namespace Cert.Moe

open Idealize.ShloMosaic Cert.Pre_finite_inputs

/-- An extended real whose absolute value `max x (-x)` lies strictly below `⊤` is a real number. -/
theorem ereal_eq_coe_of_abs_lt_top (x : EReal) (h : max x (-x) < ⊤) : x = ((x.toReal : ℝ) : EReal) := by
  induction x using EReal.rec with
  | bot => exact absurd h (by simp)
  | coe r => rfl
  | top => exact absurd h (by simp)

/-- The bit pattern `0x7F800000` denotes `+∞`. -/
theorem ofBits_inf_f32 : Ideal.ofBits .f32 0x7F800000#32 = ⊤ := by simp [Ideal.ofBits, Ideal.ieee]

/-- One entry's test `|x| < +∞` coming out true makes the entry a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    x = ((x.toReal : ℝ) : EReal) := by
  refine ereal_eq_coe_of_abs_lt_top x ?_
  change BitVec.ofBool (decide (max x (-x) < Ideal.ofBits .f32 0x7F800000#32)) = 1#1 at h
  rw [ofBits_inf_f32] at h
  by_contra hn
  rw [decide_eq_false hn] at h
  exact absurd h (by decide)

instance : Subsingleton S_.Idx := ⟨fun a b => funext fun d => d.elim0⟩

variable [Cert.Pre_finite_inputs.Facts]

/-- Under `finite_inputs`, every entry of each float argument array is (the coercion of) a real number. -/
theorem real_of_pre (a0 : FVec Ideal S4096x2048 .f32) (a1 : IVec S4096x2 32) (a2 : FVec Ideal S4096x2 .f32)
    (a3 : FVec Ideal S8x11264x2048 .f32) (a4 : FVec Ideal S8x2048x5632 .f32)
    (h : Cert.Pre_finite_inputs.fn (F := Ideal) a0 a1 a2 a3 a4 = (fun _ => 1#1)) :
    (∀ i, a0 i = (((a0 i).toReal : ℝ) : EReal)) ∧ (∀ i, a2 i = (((a2 i).toReal : ℝ) : EReal))
      ∧ (∀ i, a3 i = (((a3 i).toReal : ℝ) : EReal)) ∧ (∀ i, a4 i = (((a4 i).toReal : ℝ) : EReal)) := by
  have h0 := congrFun h ValueIdx.ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun i => real_of_abs_lt_inf (a0 i) (Host.reduce_andi_all _ _ _ _ _ h3 i),
    fun i => real_of_abs_lt_inf (a2 i) (Host.reduce_andi_all _ _ _ _ _ h7 i),
    fun i => real_of_abs_lt_inf (a3 i) (Host.reduce_andi_all _ _ _ _ _ h12 i),
    fun i => real_of_abs_lt_inf (a4 i) (Host.reduce_andi_all _ _ _ _ _ h17 i)⟩

end Cert.Moe
-- ==== Proof.RRunW0.lean ====
/-
  Expert 0's operations of the reference's @main, as a list, and what the list leaves in the buffers: the buffer
  `main_v20` holds the first accumulation stage, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 35 operations of expert 0, in program order. -/
abbrev w0 : List (HloOp τ sig (Elt F)) :=
  [ nullary main_cst (constant S_ .f32 0x00000000#32),
    unary main_cst main_v0 (broadcastInDim S4096x2048 ![] bcast_S_S4096x2048 : (⟨S_, .f32⟩ : BufTy).Contents (Elt F) → (⟨S4096x2048, .f32⟩ : BufTy).Contents (Elt F)),
    nullary main_c (constantI S_ 32 0#32),
    unary main_c main_v1 (broadcastInDim S4096x2 ![] bcast_S_S4096x2 : (⟨S_, .i32⟩ : BufTy).Contents (Elt F) → (⟨S4096x2, .i32⟩ : BufTy).Contents (Elt F)),
    binary main_arg1 main_v1 main_v2 (cmpi .eq : (⟨S4096x2, .i32⟩ : BufTy).Contents (Elt F) → (⟨S4096x2, .i32⟩ : BufTy).Contents (Elt F) → (⟨S4096x2, .i1⟩ : BufTy).Contents (Elt F)),
    nullary main_cst_0 (constant S_ .f32 0x00000000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4096x2, .f32⟩) main_call0_v1) (broadcastInDim S4096x2 ![] bcast_S_S4096x2),
    TRef.ternary (TRef.of (T := ⟨S4096x2, .i1⟩) main_v2) (TRef.of (T := ⟨S4096x2, .f32⟩) main_arg2) (TRef.of (T := ⟨S4096x2, .f32⟩) main_call0_v1) (TRef.of (T := ⟨S4096x2, .f32⟩) main_v3) select,
    nullary main_cst_1 (constant S_ .f32 0x00000000#32),
    binary main_v3 main_cst_1 main_v4 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v5 ((extractStridedSlice S1x11264x2048 ![0, 0, 0] · slices_S8x11264x2048_S1x11264x2048_0_0_0) : (⟨S8x11264x2048, .f32⟩ : BufTy).Contents (Elt F) → (⟨S1x11264x2048, .f32⟩ : BufTy).Contents (Elt F)),
    reshape main_v5 main_v6 rfl shapeCasts_S1x11264x2048_S11264x2048,
    unary main_v6 main_v7 ((transpose S2048x11264 [1, 0] · transposes_S11264x2048_S2048x11264_1_0) : (⟨S11264x2048, .f32⟩ : BufTy).Contents (Elt F) → (⟨S2048x11264, .f32⟩ : BufTy).Contents (Elt F)),
    binary main_arg0 main_v7 main_v8 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v8 main_v9 ((extractStridedSlice S4096x5632 ![0, 0] · slices_S4096x11264_S4096x5632_0_0) : (⟨S4096x11264, .f32⟩ : BufTy).Contents (Elt F) → (⟨S4096x5632, .f32⟩ : BufTy).Contents (Elt F)),
    unary main_v8 main_v10 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v9) (TRef.of (T := ⟨S4096x5632, .f32⟩) main_call1_v0) Host.negf,
    TRef.unary (TRef.of (T := ⟨S4096x5632, .f32⟩) main_call1_v0) (TRef.of (T := ⟨S4096x5632, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4096x5632, .f32⟩) main_call1_v2) (broadcastInDim S4096x5632 ![] bcast_S_S4096x5632),
    TRef.binary (TRef.of (T := ⟨S4096x5632, .f32⟩) main_call1_v2) (TRef.of (T := ⟨S4096x5632, .f32⟩) main_call1_v1) (TRef.of (T := ⟨S4096x5632, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4096x5632, .f32⟩) main_call1_v4) (broadcastInDim S4096x5632 ![] bcast_S_S4096x5632),
    TRef.binary (TRef.of (T := ⟨S4096x5632, .f32⟩) main_call1_v4) (TRef.of (T := ⟨S4096x5632, .f32⟩) main_call1_v3) (TRef.of (T := ⟨S4096x5632, .f32⟩) main_call1_v5) Host.divf,
    TRef.binary (TRef.of (T := ⟨S4096x5632, .f32⟩) main_v9) (TRef.of (T := ⟨S4096x5632, .f32⟩) main_call1_v5) (TRef.of (T := ⟨S4096x5632, .f32⟩) main_v11) mulf,
    binary main_v11 main_v10 main_v12 (mulf : (⟨S4096x5632, .f32⟩ : BufTy).Contents (Elt F) → (⟨S4096x5632, .f32⟩ : BufTy).Contents (Elt F) → (⟨S4096x5632, .f32⟩ : BufTy).Contents (Elt F)),
    unary main_arg4 main_v13 ((extractStridedSlice S1x2048x5632 ![0, 0, 0] · slices_S8x2048x5632_S1x2048x5632_0_0_0) : (⟨S8x2048x5632, .f32⟩ : BufTy).Contents (Elt F) → (⟨S1x2048x5632, .f32⟩ : BufTy).Contents (Elt F)),
    reshape main_v13 main_v14 rfl shapeCasts_S1x2048x5632_S2048x5632,
    unary main_v14 main_v15 ((transpose S5632x2048 [1, 0] · transposes_S2048x5632_S5632x2048_1_0) : (⟨S2048x5632, .f32⟩ : BufTy).Contents (Elt F) → (⟨S5632x2048, .f32⟩ : BufTy).Contents (Elt F)),
    binary main_v12 main_v15 main_v16 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v4 main_v17 (broadcastInDim S4096x1 ![0] bcast_S4096_S4096x1_0 : (⟨S4096, .f32⟩ : BufTy).Contents (Elt F) → (⟨S4096x1, .f32⟩ : BufTy).Contents (Elt F)),
    unary main_v17 main_v18 (broadcastInDim S4096x2048 ![0, 1] bcast_S4096x1_S4096x2048_0_1 : (⟨S4096x1, .f32⟩ : BufTy).Contents (Elt F) → (⟨S4096x2048, .f32⟩ : BufTy).Contents (Elt F)),
    binary main_v16 main_v18 main_v19 (mulf : (⟨S4096x2048, .f32⟩ : BufTy).Contents (Elt F) → (⟨S4096x2048, .f32⟩ : BufTy).Contents (Elt F) → (⟨S4096x2048, .f32⟩ : BufTy).Contents (Elt F)),
    binary main_v0 main_v19 main_v20 (addf : (⟨S4096x2048, .f32⟩ : BufTy).Contents (Elt F) → (⟨S4096x2048, .f32⟩ : BufTy).Contents (Elt F) → (⟨S4096x2048, .f32⟩ : BufTy).Contents (Elt F)) ]

theorem w0_sub : (w0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w0_fresh : ∀ op ∈ (w0 : List (HloOp τ sig (Elt F))), op.fresh = ∅ := by
  intro _ h; (repeat (cases h with | head => rfl | tail _ h => ?_)); exact nomatch h

theorem w0_res (V : Valuation τ sig (Elt F)) :
    after w0 V (Proc.devRef .tc main_v20) = val_main_v20 (F := F) (V (Proc.devRef .tc main_arg0)) (V (Proc.devRef .tc main_arg1)) (V (Proc.devRef .tc main_arg2)) (V (Proc.devRef .tc main_arg3)) (V (Proc.devRef .tc main_arg4)) := by
  after_results_simp <;> rfl

theorem w0_arg0 (V : Valuation τ sig (Elt F)) :
    after w0 V (Proc.devRef .tc main_arg0) = V (Proc.devRef .tc main_arg0) := by
  after_results_simp

theorem w0_arg1 (V : Valuation τ sig (Elt F)) :
    after w0 V (Proc.devRef .tc main_arg1) = V (Proc.devRef .tc main_arg1) := by
  after_results_simp

theorem w0_arg2 (V : Valuation τ sig (Elt F)) :
    after w0 V (Proc.devRef .tc main_arg2) = V (Proc.devRef .tc main_arg2) := by
  after_results_simp

theorem w0_arg3 (V : Valuation τ sig (Elt F)) :
    after w0 V (Proc.devRef .tc main_arg3) = V (Proc.devRef .tc main_arg3) := by
  after_results_simp

theorem w0_arg4 (V : Valuation τ sig (Elt F)) :
    after w0 V (Proc.devRef .tc main_arg4) = V (Proc.devRef .tc main_arg4) := by
  after_results_simp

end Cert.ReferenceIdeal.RunP

end
-- ==== Proof.RRunW1.lean ====
/-
  Expert 1's operations of the reference's @main, as a list, and what the list leaves in the buffers: the buffer
  `main_v40` holds the previous accumulator plus this expert's weighted output, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 33 operations of expert 1, in program order. -/
abbrev w1 : List (HloOp τ sig (Elt F)) :=
  [ nullary main_c_2 (constantI S_ 32 1#32),
    unary main_c_2 main_v21 (broadcastInDim S4096x2 ![] bcast_S_S4096x2 : (⟨S_, .i32⟩ : BufTy).Contents (Elt F) → (⟨S4096x2, .i32⟩ : BufTy).Contents (Elt F)),
    binary main_arg1 main_v21 main_v22 (cmpi .eq : (⟨S4096x2, .i32⟩ : BufTy).Contents (Elt F) → (⟨S4096x2, .i32⟩ : BufTy).Contents (Elt F) → (⟨S4096x2, .i1⟩ : BufTy).Contents (Elt F)),
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S4096x2, .f32⟩) main_call2_v1) (broadcastInDim S4096x2 ![] bcast_S_S4096x2),
    TRef.ternary (TRef.of (T := ⟨S4096x2, .i1⟩) main_v22) (TRef.of (T := ⟨S4096x2, .f32⟩) main_arg2) (TRef.of (T := ⟨S4096x2, .f32⟩) main_call2_v1) (TRef.of (T := ⟨S4096x2, .f32⟩) main_v23) select,
    nullary main_cst_4 (constant S_ .f32 0x00000000#32),
    binary main_v23 main_cst_4 main_v24 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v25 ((extractStridedSlice S1x11264x2048 ![1, 0, 0] · slices_S8x11264x2048_S1x11264x2048_1_0_0) : (⟨S8x11264x2048, .f32⟩ : BufTy).Contents (Elt F) → (⟨S1x11264x2048, .f32⟩ : BufTy).Contents (Elt F)),
    reshape main_v25 main_v26 rfl shapeCasts_S1x11264x2048_S11264x2048,
    unary main_v26 main_v27 ((transpose S2048x11264 [1, 0] · transposes_S11264x2048_S2048x11264_1_0) : (⟨S11264x2048, .f32⟩ : BufTy).Contents (Elt F) → (⟨S2048x11264, .f32⟩ : BufTy).Contents (Elt F)),
    binary main_arg0 main_v27 main_v28 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v28 main_v29 ((extractStridedSlice S4096x5632 ![0, 0] · slices_S4096x11264_S4096x5632_0_0) : (⟨S4096x11264, .f32⟩ : BufTy).Contents (Elt F) → (⟨S4096x5632, .f32⟩ : BufTy).Contents (Elt F)),
    unary main_v28 main_v30 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v29) (TRef.of (T := ⟨S4096x5632, .f32⟩) main_call3_v0) Host.negf,
    TRef.unary (TRef.of (T := ⟨S4096x5632, .f32⟩) main_call3_v0) (TRef.of (T := ⟨S4096x5632, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4096x5632, .f32⟩) main_call3_v2) (broadcastInDim S4096x5632 ![] bcast_S_S4096x5632),
    TRef.binary (TRef.of (T := ⟨S4096x5632, .f32⟩) main_call3_v2) (TRef.of (T := ⟨S4096x5632, .f32⟩) main_call3_v1) (TRef.of (T := ⟨S4096x5632, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4096x5632, .f32⟩) main_call3_v4) (broadcastInDim S4096x5632 ![] bcast_S_S4096x5632),
    TRef.binary (TRef.of (T := ⟨S4096x5632, .f32⟩) main_call3_v4) (TRef.of (T := ⟨S4096x5632, .f32⟩) main_call3_v3) (TRef.of (T := ⟨S4096x5632, .f32⟩) main_call3_v5) Host.divf,
    TRef.binary (TRef.of (T := ⟨S4096x5632, .f32⟩) main_v29) (TRef.of (T := ⟨S4096x5632, .f32⟩) main_call3_v5) (TRef.of (T := ⟨S4096x5632, .f32⟩) main_v31) mulf,
    binary main_v31 main_v30 main_v32 (mulf : (⟨S4096x5632, .f32⟩ : BufTy).Contents (Elt F) → (⟨S4096x5632, .f32⟩ : BufTy).Contents (Elt F) → (⟨S4096x5632, .f32⟩ : BufTy).Contents (Elt F)),
    unary main_arg4 main_v33 ((extractStridedSlice S1x2048x5632 ![1, 0, 0] · slices_S8x2048x5632_S1x2048x5632_1_0_0) : (⟨S8x2048x5632, .f32⟩ : BufTy).Contents (Elt F) → (⟨S1x2048x5632, .f32⟩ : BufTy).Contents (Elt F)),
    reshape main_v33 main_v34 rfl shapeCasts_S1x2048x5632_S2048x5632,
    unary main_v34 main_v35 ((transpose S5632x2048 [1, 0] · transposes_S2048x5632_S5632x2048_1_0) : (⟨S2048x5632, .f32⟩ : BufTy).Contents (Elt F) → (⟨S5632x2048, .f32⟩ : BufTy).Contents (Elt F)),
    binary main_v32 main_v35 main_v36 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v24 main_v37 (broadcastInDim S4096x1 ![0] bcast_S4096_S4096x1_0 : (⟨S4096, .f32⟩ : BufTy).Contents (Elt F) → (⟨S4096x1, .f32⟩ : BufTy).Contents (Elt F)),
    unary main_v37 main_v38 (broadcastInDim S4096x2048 ![0, 1] bcast_S4096x1_S4096x2048_0_1 : (⟨S4096x1, .f32⟩ : BufTy).Contents (Elt F) → (⟨S4096x2048, .f32⟩ : BufTy).Contents (Elt F)),
    binary main_v36 main_v38 main_v39 (mulf : (⟨S4096x2048, .f32⟩ : BufTy).Contents (Elt F) → (⟨S4096x2048, .f32⟩ : BufTy).Contents (Elt F) → (⟨S4096x2048, .f32⟩ : BufTy).Contents (Elt F)),
    binary main_v20 main_v39 main_v40 (addf : (⟨S4096x2048, .f32⟩ : BufTy).Contents (Elt F) → (⟨S4096x2048, .f32⟩ : BufTy).Contents (Elt F) → (⟨S4096x2048, .f32⟩ : BufTy).Contents (Elt F)) ]

theorem w1_sub : (w1 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w1_fresh : ∀ op ∈ (w1 : List (HloOp τ sig (Elt F))), op.fresh = ∅ := by
  intro _ h; (repeat (cases h with | head => rfl | tail _ h => ?_)); exact nomatch h

theorem w1_res (V : Valuation τ sig (Elt F)) :
    after w1 V (Proc.devRef .tc main_v40) = addf (V (Proc.devRef .tc main_v20)) (val_main_v39 (F := F) (V (Proc.devRef .tc main_arg0)) (V (Proc.devRef .tc main_arg1)) (V (Proc.devRef .tc main_arg2)) (V (Proc.devRef .tc main_arg3)) (V (Proc.devRef .tc main_arg4))) := by
  after_results_simp <;> rfl

theorem w1_arg0 (V : Valuation τ sig (Elt F)) :
    after w1 V (Proc.devRef .tc main_arg0) = V (Proc.devRef .tc main_arg0) := by
  after_results_simp

theorem w1_arg1 (V : Valuation τ sig (Elt F)) :
    after w1 V (Proc.devRef .tc main_arg1) = V (Proc.devRef .tc main_arg1) := by
  after_results_simp

theorem w1_arg2 (V : Valuation τ sig (Elt F)) :
    after w1 V (Proc.devRef .tc main_arg2) = V (Proc.devRef .tc main_arg2) := by
  after_results_simp

theorem w1_arg3 (V : Valuation τ sig (Elt F)) :
    after w1 V (Proc.devRef .tc main_arg3) = V (Proc.devRef .tc main_arg3) := by
  after_results_simp

theorem w1_arg4 (V : Valuation τ sig (Elt F)) :
    after w1 V (Proc.devRef .tc main_arg4) = V (Proc.devRef .tc main_arg4) := by
  after_results_simp

end Cert.ReferenceIdeal.RunP

end
-- ==== Proof.RRunW2.lean ====
/-
  Expert 2's operations of the reference's @main, as a list, and what the list leaves in the buffers: the buffer
  `main_v60` holds the previous accumulator plus this expert's weighted output, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 33 operations of expert 2, in program order. -/
abbrev w2 : List (HloOp τ sig (Elt F)) :=
  [ nullary main_c_5 (constantI S_ 32 2#32),
    unary main_c_5 main_v41 (broadcastInDim S4096x2 ![] bcast_S_S4096x2 : (⟨S_, .i32⟩ : BufTy).Contents (Elt F) → (⟨S4096x2, .i32⟩ : BufTy).Contents (Elt F)),
    binary main_arg1 main_v41 main_v42 (cmpi .eq : (⟨S4096x2, .i32⟩ : BufTy).Contents (Elt F) → (⟨S4096x2, .i32⟩ : BufTy).Contents (Elt F) → (⟨S4096x2, .i1⟩ : BufTy).Contents (Elt F)),
    nullary main_cst_6 (constant S_ .f32 0x00000000#32),
    TRef.unary (TRef.of (T := ⟨S_, .f32⟩) main_cst_6) (TRef.of (T := ⟨S_, .f32⟩) main_call4_v0) id,
    TRef.unary (TRef.of (T := ⟨S_, .f32⟩) main_call4_v0) (TRef.of (T := ⟨S4096x2, .f32⟩) main_call4_v1) (broadcastInDim S4096x2 ![] bcast_S_S4096x2),
    TRef.ternary (TRef.of (T := ⟨S4096x2, .i1⟩) main_v42) (TRef.of (T := ⟨S4096x2, .f32⟩) main_arg2) (TRef.of (T := ⟨S4096x2, .f32⟩) main_call4_v1) (TRef.of (T := ⟨S4096x2, .f32⟩) main_v43) select,
    nullary main_cst_7 (constant S_ .f32 0x00000000#32),
    binary main_v43 main_cst_7 main_v44 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v45 ((extractStridedSlice S1x11264x2048 ![2, 0, 0] · slices_S8x11264x2048_S1x11264x2048_2_0_0) : (⟨S8x11264x2048, .f32⟩ : BufTy).Contents (Elt F) → (⟨S1x11264x2048, .f32⟩ : BufTy).Contents (Elt F)),
    reshape main_v45 main_v46 rfl shapeCasts_S1x11264x2048_S11264x2048,
    unary main_v46 main_v47 ((transpose S2048x11264 [1, 0] · transposes_S11264x2048_S2048x11264_1_0) : (⟨S11264x2048, .f32⟩ : BufTy).Contents (Elt F) → (⟨S2048x11264, .f32⟩ : BufTy).Contents (Elt F)),
    binary main_arg0 main_v47 main_v48 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v48 main_v49 ((extractStridedSlice S4096x5632 ![0, 0] · slices_S4096x11264_S4096x5632_0_0) : (⟨S4096x11264, .f32⟩ : BufTy).Contents (Elt F) → (⟨S4096x5632, .f32⟩ : BufTy).Contents (Elt F)),
    unary main_v48 main_v50 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v49) (TRef.of (T := ⟨S4096x5632, .f32⟩) main_call5_v0) Host.negf,
    TRef.unary (TRef.of (T := ⟨S4096x5632, .f32⟩) main_call5_v0) (TRef.of (T := ⟨S4096x5632, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S4096x5632, .f32⟩) main_call5_v2) (broadcastInDim S4096x5632 ![] bcast_S_S4096x5632),
    TRef.binary (TRef.of (T := ⟨S4096x5632, .f32⟩) main_call5_v2) (TRef.of (T := ⟨S4096x5632, .f32⟩) main_call5_v1) (TRef.of (T := ⟨S4096x5632, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S4096x5632, .f32⟩) main_call5_v4) (broadcastInDim S4096x5632 ![] bcast_S_S4096x5632),
    TRef.binary (TRef.of (T := ⟨S4096x5632, .f32⟩) main_call5_v4) (TRef.of (T := ⟨S4096x5632, .f32⟩) main_call5_v3) (TRef.of (T := ⟨S4096x5632, .f32⟩) main_call5_v5) Host.divf,
    TRef.binary (TRef.of (T := ⟨S4096x5632, .f32⟩) main_v49) (TRef.of (T := ⟨S4096x5632, .f32⟩) main_call5_v5) (TRef.of (T := ⟨S4096x5632, .f32⟩) main_v51) mulf,
    binary main_v51 main_v50 main_v52 (mulf : (⟨S4096x5632, .f32⟩ : BufTy).Contents (Elt F) → (⟨S4096x5632, .f32⟩ : BufTy).Contents (Elt F) → (⟨S4096x5632, .f32⟩ : BufTy).Contents (Elt F)),
    unary main_arg4 main_v53 ((extractStridedSlice S1x2048x5632 ![2, 0, 0] · slices_S8x2048x5632_S1x2048x5632_2_0_0) : (⟨S8x2048x5632, .f32⟩ : BufTy).Contents (Elt F) → (⟨S1x2048x5632, .f32⟩ : BufTy).Contents (Elt F)),
    reshape main_v53 main_v54 rfl shapeCasts_S1x2048x5632_S2048x5632,
    unary main_v54 main_v55 ((transpose S5632x2048 [1, 0] · transposes_S2048x5632_S5632x2048_1_0) : (⟨S2048x5632, .f32⟩ : BufTy).Contents (Elt F) → (⟨S5632x2048, .f32⟩ : BufTy).Contents (Elt F)),
    binary main_v52 main_v55 main_v56 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v44 main_v57 (broadcastInDim S4096x1 ![0] bcast_S4096_S4096x1_0 : (⟨S4096, .f32⟩ : BufTy).Contents (Elt F) → (⟨S4096x1, .f32⟩ : BufTy).Contents (Elt F)),
    unary main_v57 main_v58 (broadcastInDim S4096x2048 ![0, 1] bcast_S4096x1_S4096x2048_0_1 : (⟨S4096x1, .f32⟩ : BufTy).Contents (Elt F) → (⟨S4096x2048, .f32⟩ : BufTy).Contents (Elt F)),
    binary main_v56 main_v58 main_v59 (mulf : (⟨S4096x2048, .f32⟩ : BufTy).Contents (Elt F) → (⟨S4096x2048, .f32⟩ : BufTy).Contents (Elt F) → (⟨S4096x2048, .f32⟩ : BufTy).Contents (Elt F)),
    binary main_v40 main_v59 main_v60 (addf : (⟨S4096x2048, .f32⟩ : BufTy).Contents (Elt F) → (⟨S4096x2048, .f32⟩ : BufTy).Contents (Elt F) → (⟨S4096x2048, .f32⟩ : BufTy).Contents (Elt F)) ]

theorem w2_sub : (w2 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w2_fresh : ∀ op ∈ (w2 : List (HloOp τ sig (Elt F))), op.fresh = ∅ := by
  intro _ h; (repeat (cases h with | head => rfl | tail _ h => ?_)); exact nomatch h

theorem w2_res (V : Valuation τ sig (Elt F)) :
    after w2 V (Proc.devRef .tc main_v60) = addf (V (Proc.devRef .tc main_v40)) (val_main_v59 (F := F) (V (Proc.devRef .tc main_arg0)) (V (Proc.devRef .tc main_arg1)) (V (Proc.devRef .tc main_arg2)) (V (Proc.devRef .tc main_arg3)) (V (Proc.devRef .tc main_arg4))) := by
  after_results_simp <;> rfl

theorem w2_arg0 (V : Valuation τ sig (Elt F)) :
    after w2 V (Proc.devRef .tc main_arg0) = V (Proc.devRef .tc main_arg0) := by
  after_results_simp

theorem w2_arg1 (V : Valuation τ sig (Elt F)) :
    after w2 V (Proc.devRef .tc main_arg1) = V (Proc.devRef .tc main_arg1) := by
  after_results_simp

theorem w2_arg2 (V : Valuation τ sig (Elt F)) :
    after w2 V (Proc.devRef .tc main_arg2) = V (Proc.devRef .tc main_arg2) := by
  after_results_simp

theorem w2_arg3 (V : Valuation τ sig (Elt F)) :
    after w2 V (Proc.devRef .tc main_arg3) = V (Proc.devRef .tc main_arg3) := by
  after_results_simp

theorem w2_arg4 (V : Valuation τ sig (Elt F)) :
    after w2 V (Proc.devRef .tc main_arg4) = V (Proc.devRef .tc main_arg4) := by
  after_results_simp

end Cert.ReferenceIdeal.RunP

end
-- ==== Proof.RRunW3.lean ====
/-
  Expert 3's operations of the reference's @main, as a list, and what the list leaves in the buffers: the buffer
  `main_v80` holds the previous accumulator plus this expert's weighted output, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 33 operations of expert 3, in program order. -/
abbrev w3 : List (HloOp τ sig (Elt F)) :=
  [ nullary main_c_8 (constantI S_ 32 3#32),
    unary main_c_8 main_v61 (broadcastInDim S4096x2 ![] bcast_S_S4096x2 : (⟨S_, .i32⟩ : BufTy).Contents (Elt F) → (⟨S4096x2, .i32⟩ : BufTy).Contents (Elt F)),
    binary main_arg1 main_v61 main_v62 (cmpi .eq : (⟨S4096x2, .i32⟩ : BufTy).Contents (Elt F) → (⟨S4096x2, .i32⟩ : BufTy).Contents (Elt F) → (⟨S4096x2, .i1⟩ : BufTy).Contents (Elt F)),
    nullary main_cst_9 (constant S_ .f32 0x00000000#32),
    TRef.unary (TRef.of (T := ⟨S_, .f32⟩) main_cst_9) (TRef.of (T := ⟨S_, .f32⟩) main_call6_v0) id,
    TRef.unary (TRef.of (T := ⟨S_, .f32⟩) main_call6_v0) (TRef.of (T := ⟨S4096x2, .f32⟩) main_call6_v1) (broadcastInDim S4096x2 ![] bcast_S_S4096x2),
    TRef.ternary (TRef.of (T := ⟨S4096x2, .i1⟩) main_v62) (TRef.of (T := ⟨S4096x2, .f32⟩) main_arg2) (TRef.of (T := ⟨S4096x2, .f32⟩) main_call6_v1) (TRef.of (T := ⟨S4096x2, .f32⟩) main_v63) select,
    nullary main_cst_10 (constant S_ .f32 0x00000000#32),
    binary main_v63 main_cst_10 main_v64 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v65 ((extractStridedSlice S1x11264x2048 ![3, 0, 0] · slices_S8x11264x2048_S1x11264x2048_3_0_0) : (⟨S8x11264x2048, .f32⟩ : BufTy).Contents (Elt F) → (⟨S1x11264x2048, .f32⟩ : BufTy).Contents (Elt F)),
    reshape main_v65 main_v66 rfl shapeCasts_S1x11264x2048_S11264x2048,
    unary main_v66 main_v67 ((transpose S2048x11264 [1, 0] · transposes_S11264x2048_S2048x11264_1_0) : (⟨S11264x2048, .f32⟩ : BufTy).Contents (Elt F) → (⟨S2048x11264, .f32⟩ : BufTy).Contents (Elt F)),
    binary main_arg0 main_v67 main_v68 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v68 main_v69 ((extractStridedSlice S4096x5632 ![0, 0] · slices_S4096x11264_S4096x5632_0_0) : (⟨S4096x11264, .f32⟩ : BufTy).Contents (Elt F) → (⟨S4096x5632, .f32⟩ : BufTy).Contents (Elt F)),
    unary main_v68 main_v70 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v69) (TRef.of (T := ⟨S4096x5632, .f32⟩) main_call7_v0) Host.negf,
    TRef.unary (TRef.of (T := ⟨S4096x5632, .f32⟩) main_call7_v0) (TRef.of (T := ⟨S4096x5632, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S4096x5632, .f32⟩) main_call7_v2) (broadcastInDim S4096x5632 ![] bcast_S_S4096x5632),
    TRef.binary (TRef.of (T := ⟨S4096x5632, .f32⟩) main_call7_v2) (TRef.of (T := ⟨S4096x5632, .f32⟩) main_call7_v1) (TRef.of (T := ⟨S4096x5632, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S4096x5632, .f32⟩) main_call7_v4) (broadcastInDim S4096x5632 ![] bcast_S_S4096x5632),
    TRef.binary (TRef.of (T := ⟨S4096x5632, .f32⟩) main_call7_v4) (TRef.of (T := ⟨S4096x5632, .f32⟩) main_call7_v3) (TRef.of (T := ⟨S4096x5632, .f32⟩) main_call7_v5) Host.divf,
    TRef.binary (TRef.of (T := ⟨S4096x5632, .f32⟩) main_v69) (TRef.of (T := ⟨S4096x5632, .f32⟩) main_call7_v5) (TRef.of (T := ⟨S4096x5632, .f32⟩) main_v71) mulf,
    binary main_v71 main_v70 main_v72 (mulf : (⟨S4096x5632, .f32⟩ : BufTy).Contents (Elt F) → (⟨S4096x5632, .f32⟩ : BufTy).Contents (Elt F) → (⟨S4096x5632, .f32⟩ : BufTy).Contents (Elt F)),
    unary main_arg4 main_v73 ((extractStridedSlice S1x2048x5632 ![3, 0, 0] · slices_S8x2048x5632_S1x2048x5632_3_0_0) : (⟨S8x2048x5632, .f32⟩ : BufTy).Contents (Elt F) → (⟨S1x2048x5632, .f32⟩ : BufTy).Contents (Elt F)),
    reshape main_v73 main_v74 rfl shapeCasts_S1x2048x5632_S2048x5632,
    unary main_v74 main_v75 ((transpose S5632x2048 [1, 0] · transposes_S2048x5632_S5632x2048_1_0) : (⟨S2048x5632, .f32⟩ : BufTy).Contents (Elt F) → (⟨S5632x2048, .f32⟩ : BufTy).Contents (Elt F)),
    binary main_v72 main_v75 main_v76 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v64 main_v77 (broadcastInDim S4096x1 ![0] bcast_S4096_S4096x1_0 : (⟨S4096, .f32⟩ : BufTy).Contents (Elt F) → (⟨S4096x1, .f32⟩ : BufTy).Contents (Elt F)),
    unary main_v77 main_v78 (broadcastInDim S4096x2048 ![0, 1] bcast_S4096x1_S4096x2048_0_1 : (⟨S4096x1, .f32⟩ : BufTy).Contents (Elt F) → (⟨S4096x2048, .f32⟩ : BufTy).Contents (Elt F)),
    binary main_v76 main_v78 main_v79 (mulf : (⟨S4096x2048, .f32⟩ : BufTy).Contents (Elt F) → (⟨S4096x2048, .f32⟩ : BufTy).Contents (Elt F) → (⟨S4096x2048, .f32⟩ : BufTy).Contents (Elt F)),
    binary main_v60 main_v79 main_v80 (addf : (⟨S4096x2048, .f32⟩ : BufTy).Contents (Elt F) → (⟨S4096x2048, .f32⟩ : BufTy).Contents (Elt F) → (⟨S4096x2048, .f32⟩ : BufTy).Contents (Elt F)) ]

theorem w3_sub : (w3 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w3_fresh : ∀ op ∈ (w3 : List (HloOp τ sig (Elt F))), op.fresh = ∅ := by
  intro _ h; (repeat (cases h with | head => rfl | tail _ h => ?_)); exact nomatch h

theorem w3_res (V : Valuation τ sig (Elt F)) :
    after w3 V (Proc.devRef .tc main_v80) = addf (V (Proc.devRef .tc main_v60)) (val_main_v79 (F := F) (V (Proc.devRef .tc main_arg0)) (V (Proc.devRef .tc main_arg1)) (V (Proc.devRef .tc main_arg2)) (V (Proc.devRef .tc main_arg3)) (V (Proc.devRef .tc main_arg4))) := by
  after_results_simp <;> rfl

theorem w3_arg0 (V : Valuation τ sig (Elt F)) :
    after w3 V (Proc.devRef .tc main_arg0) = V (Proc.devRef .tc main_arg0) := by
  after_results_simp

theorem w3_arg1 (V : Valuation τ sig (Elt F)) :
    after w3 V (Proc.devRef .tc main_arg1) = V (Proc.devRef .tc main_arg1) := by
  after_results_simp

theorem w3_arg2 (V : Valuation τ sig (Elt F)) :
    after w3 V (Proc.devRef .tc main_arg2) = V (Proc.devRef .tc main_arg2) := by
  after_results_simp

theorem w3_arg3 (V : Valuation τ sig (Elt F)) :
    after w3 V (Proc.devRef .tc main_arg3) = V (Proc.devRef .tc main_arg3) := by
  after_results_simp

theorem w3_arg4 (V : Valuation τ sig (Elt F)) :
    after w3 V (Proc.devRef .tc main_arg4) = V (Proc.devRef .tc main_arg4) := by
  after_results_simp

end Cert.ReferenceIdeal.RunP

end
-- ==== Proof.RRunW4.lean ====
/-
  Expert 4's operations of the reference's @main, as a list, and what the list leaves in the buffers: the buffer
  `main_v100` holds the previous accumulator plus this expert's weighted output, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 33 operations of expert 4, in program order. -/
abbrev w4 : List (HloOp τ sig (Elt F)) :=
  [ nullary main_c_11 (constantI S_ 32 4#32),
    unary main_c_11 main_v81 (broadcastInDim S4096x2 ![] bcast_S_S4096x2 : (⟨S_, .i32⟩ : BufTy).Contents (Elt F) → (⟨S4096x2, .i32⟩ : BufTy).Contents (Elt F)),
    binary main_arg1 main_v81 main_v82 (cmpi .eq : (⟨S4096x2, .i32⟩ : BufTy).Contents (Elt F) → (⟨S4096x2, .i32⟩ : BufTy).Contents (Elt F) → (⟨S4096x2, .i1⟩ : BufTy).Contents (Elt F)),
    nullary main_cst_12 (constant S_ .f32 0x00000000#32),
    TRef.unary (TRef.of (T := ⟨S_, .f32⟩) main_cst_12) (TRef.of (T := ⟨S_, .f32⟩) main_call8_v0) id,
    TRef.unary (TRef.of (T := ⟨S_, .f32⟩) main_call8_v0) (TRef.of (T := ⟨S4096x2, .f32⟩) main_call8_v1) (broadcastInDim S4096x2 ![] bcast_S_S4096x2),
    TRef.ternary (TRef.of (T := ⟨S4096x2, .i1⟩) main_v82) (TRef.of (T := ⟨S4096x2, .f32⟩) main_arg2) (TRef.of (T := ⟨S4096x2, .f32⟩) main_call8_v1) (TRef.of (T := ⟨S4096x2, .f32⟩) main_v83) select,
    nullary main_cst_13 (constant S_ .f32 0x00000000#32),
    binary main_v83 main_cst_13 main_v84 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v85 ((extractStridedSlice S1x11264x2048 ![4, 0, 0] · slices_S8x11264x2048_S1x11264x2048_4_0_0) : (⟨S8x11264x2048, .f32⟩ : BufTy).Contents (Elt F) → (⟨S1x11264x2048, .f32⟩ : BufTy).Contents (Elt F)),
    reshape main_v85 main_v86 rfl shapeCasts_S1x11264x2048_S11264x2048,
    unary main_v86 main_v87 ((transpose S2048x11264 [1, 0] · transposes_S11264x2048_S2048x11264_1_0) : (⟨S11264x2048, .f32⟩ : BufTy).Contents (Elt F) → (⟨S2048x11264, .f32⟩ : BufTy).Contents (Elt F)),
    binary main_arg0 main_v87 main_v88 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v88 main_v89 ((extractStridedSlice S4096x5632 ![0, 0] · slices_S4096x11264_S4096x5632_0_0) : (⟨S4096x11264, .f32⟩ : BufTy).Contents (Elt F) → (⟨S4096x5632, .f32⟩ : BufTy).Contents (Elt F)),
    unary main_v88 main_v90 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v89) (TRef.of (T := ⟨S4096x5632, .f32⟩) main_call9_v0) Host.negf,
    TRef.unary (TRef.of (T := ⟨S4096x5632, .f32⟩) main_call9_v0) (TRef.of (T := ⟨S4096x5632, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S4096x5632, .f32⟩) main_call9_v2) (broadcastInDim S4096x5632 ![] bcast_S_S4096x5632),
    TRef.binary (TRef.of (T := ⟨S4096x5632, .f32⟩) main_call9_v2) (TRef.of (T := ⟨S4096x5632, .f32⟩) main_call9_v1) (TRef.of (T := ⟨S4096x5632, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S4096x5632, .f32⟩) main_call9_v4) (broadcastInDim S4096x5632 ![] bcast_S_S4096x5632),
    TRef.binary (TRef.of (T := ⟨S4096x5632, .f32⟩) main_call9_v4) (TRef.of (T := ⟨S4096x5632, .f32⟩) main_call9_v3) (TRef.of (T := ⟨S4096x5632, .f32⟩) main_call9_v5) Host.divf,
    TRef.binary (TRef.of (T := ⟨S4096x5632, .f32⟩) main_v89) (TRef.of (T := ⟨S4096x5632, .f32⟩) main_call9_v5) (TRef.of (T := ⟨S4096x5632, .f32⟩) main_v91) mulf,
    binary main_v91 main_v90 main_v92 (mulf : (⟨S4096x5632, .f32⟩ : BufTy).Contents (Elt F) → (⟨S4096x5632, .f32⟩ : BufTy).Contents (Elt F) → (⟨S4096x5632, .f32⟩ : BufTy).Contents (Elt F)),
    unary main_arg4 main_v93 ((extractStridedSlice S1x2048x5632 ![4, 0, 0] · slices_S8x2048x5632_S1x2048x5632_4_0_0) : (⟨S8x2048x5632, .f32⟩ : BufTy).Contents (Elt F) → (⟨S1x2048x5632, .f32⟩ : BufTy).Contents (Elt F)),
    reshape main_v93 main_v94 rfl shapeCasts_S1x2048x5632_S2048x5632,
    unary main_v94 main_v95 ((transpose S5632x2048 [1, 0] · transposes_S2048x5632_S5632x2048_1_0) : (⟨S2048x5632, .f32⟩ : BufTy).Contents (Elt F) → (⟨S5632x2048, .f32⟩ : BufTy).Contents (Elt F)),
    binary main_v92 main_v95 main_v96 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v84 main_v97 (broadcastInDim S4096x1 ![0] bcast_S4096_S4096x1_0 : (⟨S4096, .f32⟩ : BufTy).Contents (Elt F) → (⟨S4096x1, .f32⟩ : BufTy).Contents (Elt F)),
    unary main_v97 main_v98 (broadcastInDim S4096x2048 ![0, 1] bcast_S4096x1_S4096x2048_0_1 : (⟨S4096x1, .f32⟩ : BufTy).Contents (Elt F) → (⟨S4096x2048, .f32⟩ : BufTy).Contents (Elt F)),
    binary main_v96 main_v98 main_v99 (mulf : (⟨S4096x2048, .f32⟩ : BufTy).Contents (Elt F) → (⟨S4096x2048, .f32⟩ : BufTy).Contents (Elt F) → (⟨S4096x2048, .f32⟩ : BufTy).Contents (Elt F)),
    binary main_v80 main_v99 main_v100 (addf : (⟨S4096x2048, .f32⟩ : BufTy).Contents (Elt F) → (⟨S4096x2048, .f32⟩ : BufTy).Contents (Elt F) → (⟨S4096x2048, .f32⟩ : BufTy).Contents (Elt F)) ]

theorem w4_sub : (w4 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w4_fresh : ∀ op ∈ (w4 : List (HloOp τ sig (Elt F))), op.fresh = ∅ := by
  intro _ h; (repeat (cases h with | head => rfl | tail _ h => ?_)); exact nomatch h

theorem w4_res (V : Valuation τ sig (Elt F)) :
    after w4 V (Proc.devRef .tc main_v100) = addf (V (Proc.devRef .tc main_v80)) (val_main_v99 (F := F) (V (Proc.devRef .tc main_arg0)) (V (Proc.devRef .tc main_arg1)) (V (Proc.devRef .tc main_arg2)) (V (Proc.devRef .tc main_arg3)) (V (Proc.devRef .tc main_arg4))) := by
  after_results_simp <;> rfl

theorem w4_arg0 (V : Valuation τ sig (Elt F)) :
    after w4 V (Proc.devRef .tc main_arg0) = V (Proc.devRef .tc main_arg0) := by
  after_results_simp

theorem w4_arg1 (V : Valuation τ sig (Elt F)) :
    after w4 V (Proc.devRef .tc main_arg1) = V (Proc.devRef .tc main_arg1) := by
  after_results_simp

theorem w4_arg2 (V : Valuation τ sig (Elt F)) :
    after w4 V (Proc.devRef .tc main_arg2) = V (Proc.devRef .tc main_arg2) := by
  after_results_simp

theorem w4_arg3 (V : Valuation τ sig (Elt F)) :
    after w4 V (Proc.devRef .tc main_arg3) = V (Proc.devRef .tc main_arg3) := by
  after_results_simp

theorem w4_arg4 (V : Valuation τ sig (Elt F)) :
    after w4 V (Proc.devRef .tc main_arg4) = V (Proc.devRef .tc main_arg4) := by
  after_results_simp

end Cert.ReferenceIdeal.RunP

end
-- ==== Proof.RRunW5.lean ====
/-
  Expert 5's operations of the reference's @main, as a list, and what the list leaves in the buffers: the buffer
  `main_v120` holds the previous accumulator plus this expert's weighted output, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 33 operations of expert 5, in program order. -/
abbrev w5 : List (HloOp τ sig (Elt F)) :=
  [ nullary main_c_14 (constantI S_ 32 5#32),
    unary main_c_14 main_v101 (broadcastInDim S4096x2 ![] bcast_S_S4096x2 : (⟨S_, .i32⟩ : BufTy).Contents (Elt F) → (⟨S4096x2, .i32⟩ : BufTy).Contents (Elt F)),
    binary main_arg1 main_v101 main_v102 (cmpi .eq : (⟨S4096x2, .i32⟩ : BufTy).Contents (Elt F) → (⟨S4096x2, .i32⟩ : BufTy).Contents (Elt F) → (⟨S4096x2, .i1⟩ : BufTy).Contents (Elt F)),
    nullary main_cst_15 (constant S_ .f32 0x00000000#32),
    TRef.unary (TRef.of (T := ⟨S_, .f32⟩) main_cst_15) (TRef.of (T := ⟨S_, .f32⟩) main_call10_v0) id,
    TRef.unary (TRef.of (T := ⟨S_, .f32⟩) main_call10_v0) (TRef.of (T := ⟨S4096x2, .f32⟩) main_call10_v1) (broadcastInDim S4096x2 ![] bcast_S_S4096x2),
    TRef.ternary (TRef.of (T := ⟨S4096x2, .i1⟩) main_v102) (TRef.of (T := ⟨S4096x2, .f32⟩) main_arg2) (TRef.of (T := ⟨S4096x2, .f32⟩) main_call10_v1) (TRef.of (T := ⟨S4096x2, .f32⟩) main_v103) select,
    nullary main_cst_16 (constant S_ .f32 0x00000000#32),
    binary main_v103 main_cst_16 main_v104 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v105 ((extractStridedSlice S1x11264x2048 ![5, 0, 0] · slices_S8x11264x2048_S1x11264x2048_5_0_0) : (⟨S8x11264x2048, .f32⟩ : BufTy).Contents (Elt F) → (⟨S1x11264x2048, .f32⟩ : BufTy).Contents (Elt F)),
    reshape main_v105 main_v106 rfl shapeCasts_S1x11264x2048_S11264x2048,
    unary main_v106 main_v107 ((transpose S2048x11264 [1, 0] · transposes_S11264x2048_S2048x11264_1_0) : (⟨S11264x2048, .f32⟩ : BufTy).Contents (Elt F) → (⟨S2048x11264, .f32⟩ : BufTy).Contents (Elt F)),
    binary main_arg0 main_v107 main_v108 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v108 main_v109 ((extractStridedSlice S4096x5632 ![0, 0] · slices_S4096x11264_S4096x5632_0_0) : (⟨S4096x11264, .f32⟩ : BufTy).Contents (Elt F) → (⟨S4096x5632, .f32⟩ : BufTy).Contents (Elt F)),
    unary main_v108 main_v110 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v109) (TRef.of (T := ⟨S4096x5632, .f32⟩) main_call11_v0) Host.negf,
    TRef.unary (TRef.of (T := ⟨S4096x5632, .f32⟩) main_call11_v0) (TRef.of (T := ⟨S4096x5632, .f32⟩) main_call11_v1) Host.exp,
    TRef.nullary (TRef.of (T := ⟨S_, .f32⟩) main_call11_cst) (constant S_ .f32 0x3F800000#32),
    TRef.unary (TRef.of (T := ⟨S_, .f32⟩) main_call11_cst) (TRef.of (T := ⟨S4096x5632, .f32⟩) main_call11_v2) (broadcastInDim S4096x5632 ![] bcast_S_S4096x5632),
    TRef.binary (TRef.of (T := ⟨S4096x5632, .f32⟩) main_call11_v2) (TRef.of (T := ⟨S4096x5632, .f32⟩) main_call11_v1) (TRef.of (T := ⟨S4096x5632, .f32⟩) main_call11_v3) addf,
    TRef.nullary (TRef.of (T := ⟨S_, .f32⟩) main_call11_cst_0) (constant S_ .f32 0x3F800000#32),
    TRef.unary (TRef.of (T := ⟨S_, .f32⟩) main_call11_cst_0) (TRef.of (T := ⟨S4096x5632, .f32⟩) main_call11_v4) (broadcastInDim S4096x5632 ![] bcast_S_S4096x5632),
    TRef.binary (TRef.of (T := ⟨S4096x5632, .f32⟩) main_call11_v4) (TRef.of (T := ⟨S4096x5632, .f32⟩) main_call11_v3) (TRef.of (T := ⟨S4096x5632, .f32⟩) main_call11_v5) Host.divf,
    TRef.binary (TRef.of (T := ⟨S4096x5632, .f32⟩) main_v109) (TRef.of (T := ⟨S4096x5632, .f32⟩) main_call11_v5) (TRef.of (T := ⟨S4096x5632, .f32⟩) main_v111) mulf,
    binary main_v111 main_v110 main_v112 (mulf : (⟨S4096x5632, .f32⟩ : BufTy).Contents (Elt F) → (⟨S4096x5632, .f32⟩ : BufTy).Contents (Elt F) → (⟨S4096x5632, .f32⟩ : BufTy).Contents (Elt F)),
    unary main_arg4 main_v113 ((extractStridedSlice S1x2048x5632 ![5, 0, 0] · slices_S8x2048x5632_S1x2048x5632_5_0_0) : (⟨S8x2048x5632, .f32⟩ : BufTy).Contents (Elt F) → (⟨S1x2048x5632, .f32⟩ : BufTy).Contents (Elt F)),
    reshape main_v113 main_v114 rfl shapeCasts_S1x2048x5632_S2048x5632,
    unary main_v114 main_v115 ((transpose S5632x2048 [1, 0] · transposes_S2048x5632_S5632x2048_1_0) : (⟨S2048x5632, .f32⟩ : BufTy).Contents (Elt F) → (⟨S5632x2048, .f32⟩ : BufTy).Contents (Elt F)),
    binary main_v112 main_v115 main_v116 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v104 main_v117 (broadcastInDim S4096x1 ![0] bcast_S4096_S4096x1_0 : (⟨S4096, .f32⟩ : BufTy).Contents (Elt F) → (⟨S4096x1, .f32⟩ : BufTy).Contents (Elt F)),
    unary main_v117 main_v118 (broadcastInDim S4096x2048 ![0, 1] bcast_S4096x1_S4096x2048_0_1 : (⟨S4096x1, .f32⟩ : BufTy).Contents (Elt F) → (⟨S4096x2048, .f32⟩ : BufTy).Contents (Elt F)),
    binary main_v116 main_v118 main_v119 (mulf : (⟨S4096x2048, .f32⟩ : BufTy).Contents (Elt F) → (⟨S4096x2048, .f32⟩ : BufTy).Contents (Elt F) → (⟨S4096x2048, .f32⟩ : BufTy).Contents (Elt F)),
    binary main_v100 main_v119 main_v120 (addf : (⟨S4096x2048, .f32⟩ : BufTy).Contents (Elt F) → (⟨S4096x2048, .f32⟩ : BufTy).Contents (Elt F) → (⟨S4096x2048, .f32⟩ : BufTy).Contents (Elt F)) ]

theorem w5_sub : (w5 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w5_fresh : ∀ op ∈ (w5 : List (HloOp τ sig (Elt F))), op.fresh = ∅ := by
  intro _ h; (repeat (cases h with | head => rfl | tail _ h => ?_)); exact nomatch h

theorem w5_res (V : Valuation τ sig (Elt F)) :
    after w5 V (Proc.devRef .tc main_v120) = addf (V (Proc.devRef .tc main_v100)) (val_main_v119 (F := F) (V (Proc.devRef .tc main_arg0)) (V (Proc.devRef .tc main_arg1)) (V (Proc.devRef .tc main_arg2)) (V (Proc.devRef .tc main_arg3)) (V (Proc.devRef .tc main_arg4))) := by
  after_results_simp <;> rfl

theorem w5_arg0 (V : Valuation τ sig (Elt F)) :
    after w5 V (Proc.devRef .tc main_arg0) = V (Proc.devRef .tc main_arg0) := by
  after_results_simp

theorem w5_arg1 (V : Valuation τ sig (Elt F)) :
    after w5 V (Proc.devRef .tc main_arg1) = V (Proc.devRef .tc main_arg1) := by
  after_results_simp

theorem w5_arg2 (V : Valuation τ sig (Elt F)) :
    after w5 V (Proc.devRef .tc main_arg2) = V (Proc.devRef .tc main_arg2) := by
  after_results_simp

theorem w5_arg3 (V : Valuation τ sig (Elt F)) :
    after w5 V (Proc.devRef .tc main_arg3) = V (Proc.devRef .tc main_arg3) := by
  after_results_simp

theorem w5_arg4 (V : Valuation τ sig (Elt F)) :
    after w5 V (Proc.devRef .tc main_arg4) = V (Proc.devRef .tc main_arg4) := by
  after_results_simp

end Cert.ReferenceIdeal.RunP

end
-- ==== Proof.RRunW6.lean ====
/-
  Expert 6's operations of the reference's @main, as a list, and what the list leaves in the buffers: the buffer
  `main_v140` holds the previous accumulator plus this expert's weighted output, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 33 operations of expert 6, in program order. -/
abbrev w6 : List (HloOp τ sig (Elt F)) :=
  [ nullary main_c_17 (constantI S_ 32 6#32),
    unary main_c_17 main_v121 (broadcastInDim S4096x2 ![] bcast_S_S4096x2 : (⟨S_, .i32⟩ : BufTy).Contents (Elt F) → (⟨S4096x2, .i32⟩ : BufTy).Contents (Elt F)),
    binary main_arg1 main_v121 main_v122 (cmpi .eq : (⟨S4096x2, .i32⟩ : BufTy).Contents (Elt F) → (⟨S4096x2, .i32⟩ : BufTy).Contents (Elt F) → (⟨S4096x2, .i1⟩ : BufTy).Contents (Elt F)),
    nullary main_cst_18 (constant S_ .f32 0x00000000#32),
    TRef.unary (TRef.of (T := ⟨S_, .f32⟩) main_cst_18) (TRef.of (T := ⟨S_, .f32⟩) main_call12_v0) id,
    TRef.unary (TRef.of (T := ⟨S_, .f32⟩) main_call12_v0) (TRef.of (T := ⟨S4096x2, .f32⟩) main_call12_v1) (broadcastInDim S4096x2 ![] bcast_S_S4096x2),
    TRef.ternary (TRef.of (T := ⟨S4096x2, .i1⟩) main_v122) (TRef.of (T := ⟨S4096x2, .f32⟩) main_arg2) (TRef.of (T := ⟨S4096x2, .f32⟩) main_call12_v1) (TRef.of (T := ⟨S4096x2, .f32⟩) main_v123) select,
    nullary main_cst_19 (constant S_ .f32 0x00000000#32),
    binary main_v123 main_cst_19 main_v124 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v125 ((extractStridedSlice S1x11264x2048 ![6, 0, 0] · slices_S8x11264x2048_S1x11264x2048_6_0_0) : (⟨S8x11264x2048, .f32⟩ : BufTy).Contents (Elt F) → (⟨S1x11264x2048, .f32⟩ : BufTy).Contents (Elt F)),
    reshape main_v125 main_v126 rfl shapeCasts_S1x11264x2048_S11264x2048,
    unary main_v126 main_v127 ((transpose S2048x11264 [1, 0] · transposes_S11264x2048_S2048x11264_1_0) : (⟨S11264x2048, .f32⟩ : BufTy).Contents (Elt F) → (⟨S2048x11264, .f32⟩ : BufTy).Contents (Elt F)),
    binary main_arg0 main_v127 main_v128 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v128 main_v129 ((extractStridedSlice S4096x5632 ![0, 0] · slices_S4096x11264_S4096x5632_0_0) : (⟨S4096x11264, .f32⟩ : BufTy).Contents (Elt F) → (⟨S4096x5632, .f32⟩ : BufTy).Contents (Elt F)),
    unary main_v128 main_v130 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v129) (TRef.of (T := ⟨S4096x5632, .f32⟩) main_call13_v0) Host.negf,
    TRef.unary (TRef.of (T := ⟨S4096x5632, .f32⟩) main_call13_v0) (TRef.of (T := ⟨S4096x5632, .f32⟩) main_call13_v1) Host.exp,
    TRef.nullary (TRef.of (T := ⟨S_, .f32⟩) main_call13_cst) (constant S_ .f32 0x3F800000#32),
    TRef.unary (TRef.of (T := ⟨S_, .f32⟩) main_call13_cst) (TRef.of (T := ⟨S4096x5632, .f32⟩) main_call13_v2) (broadcastInDim S4096x5632 ![] bcast_S_S4096x5632),
    TRef.binary (TRef.of (T := ⟨S4096x5632, .f32⟩) main_call13_v2) (TRef.of (T := ⟨S4096x5632, .f32⟩) main_call13_v1) (TRef.of (T := ⟨S4096x5632, .f32⟩) main_call13_v3) addf,
    TRef.nullary (TRef.of (T := ⟨S_, .f32⟩) main_call13_cst_0) (constant S_ .f32 0x3F800000#32),
    TRef.unary (TRef.of (T := ⟨S_, .f32⟩) main_call13_cst_0) (TRef.of (T := ⟨S4096x5632, .f32⟩) main_call13_v4) (broadcastInDim S4096x5632 ![] bcast_S_S4096x5632),
    TRef.binary (TRef.of (T := ⟨S4096x5632, .f32⟩) main_call13_v4) (TRef.of (T := ⟨S4096x5632, .f32⟩) main_call13_v3) (TRef.of (T := ⟨S4096x5632, .f32⟩) main_call13_v5) Host.divf,
    TRef.binary (TRef.of (T := ⟨S4096x5632, .f32⟩) main_v129) (TRef.of (T := ⟨S4096x5632, .f32⟩) main_call13_v5) (TRef.of (T := ⟨S4096x5632, .f32⟩) main_v131) mulf,
    binary main_v131 main_v130 main_v132 (mulf : (⟨S4096x5632, .f32⟩ : BufTy).Contents (Elt F) → (⟨S4096x5632, .f32⟩ : BufTy).Contents (Elt F) → (⟨S4096x5632, .f32⟩ : BufTy).Contents (Elt F)),
    unary main_arg4 main_v133 ((extractStridedSlice S1x2048x5632 ![6, 0, 0] · slices_S8x2048x5632_S1x2048x5632_6_0_0) : (⟨S8x2048x5632, .f32⟩ : BufTy).Contents (Elt F) → (⟨S1x2048x5632, .f32⟩ : BufTy).Contents (Elt F)),
    reshape main_v133 main_v134 rfl shapeCasts_S1x2048x5632_S2048x5632,
    unary main_v134 main_v135 ((transpose S5632x2048 [1, 0] · transposes_S2048x5632_S5632x2048_1_0) : (⟨S2048x5632, .f32⟩ : BufTy).Contents (Elt F) → (⟨S5632x2048, .f32⟩ : BufTy).Contents (Elt F)),
    binary main_v132 main_v135 main_v136 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v124 main_v137 (broadcastInDim S4096x1 ![0] bcast_S4096_S4096x1_0 : (⟨S4096, .f32⟩ : BufTy).Contents (Elt F) → (⟨S4096x1, .f32⟩ : BufTy).Contents (Elt F)),
    unary main_v137 main_v138 (broadcastInDim S4096x2048 ![0, 1] bcast_S4096x1_S4096x2048_0_1 : (⟨S4096x1, .f32⟩ : BufTy).Contents (Elt F) → (⟨S4096x2048, .f32⟩ : BufTy).Contents (Elt F)),
    binary main_v136 main_v138 main_v139 (mulf : (⟨S4096x2048, .f32⟩ : BufTy).Contents (Elt F) → (⟨S4096x2048, .f32⟩ : BufTy).Contents (Elt F) → (⟨S4096x2048, .f32⟩ : BufTy).Contents (Elt F)),
    binary main_v120 main_v139 main_v140 (addf : (⟨S4096x2048, .f32⟩ : BufTy).Contents (Elt F) → (⟨S4096x2048, .f32⟩ : BufTy).Contents (Elt F) → (⟨S4096x2048, .f32⟩ : BufTy).Contents (Elt F)) ]

theorem w6_sub : (w6 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w6_fresh : ∀ op ∈ (w6 : List (HloOp τ sig (Elt F))), op.fresh = ∅ := by
  intro _ h; (repeat (cases h with | head => rfl | tail _ h => ?_)); exact nomatch h

theorem w6_res (V : Valuation τ sig (Elt F)) :
    after w6 V (Proc.devRef .tc main_v140) = addf (V (Proc.devRef .tc main_v120)) (val_main_v139 (F := F) (V (Proc.devRef .tc main_arg0)) (V (Proc.devRef .tc main_arg1)) (V (Proc.devRef .tc main_arg2)) (V (Proc.devRef .tc main_arg3)) (V (Proc.devRef .tc main_arg4))) := by
  after_results_simp <;> rfl

theorem w6_arg0 (V : Valuation τ sig (Elt F)) :
    after w6 V (Proc.devRef .tc main_arg0) = V (Proc.devRef .tc main_arg0) := by
  after_results_simp

theorem w6_arg1 (V : Valuation τ sig (Elt F)) :
    after w6 V (Proc.devRef .tc main_arg1) = V (Proc.devRef .tc main_arg1) := by
  after_results_simp

theorem w6_arg2 (V : Valuation τ sig (Elt F)) :
    after w6 V (Proc.devRef .tc main_arg2) = V (Proc.devRef .tc main_arg2) := by
  after_results_simp

theorem w6_arg3 (V : Valuation τ sig (Elt F)) :
    after w6 V (Proc.devRef .tc main_arg3) = V (Proc.devRef .tc main_arg3) := by
  after_results_simp

theorem w6_arg4 (V : Valuation τ sig (Elt F)) :
    after w6 V (Proc.devRef .tc main_arg4) = V (Proc.devRef .tc main_arg4) := by
  after_results_simp

end Cert.ReferenceIdeal.RunP

end
-- ==== Proof.RRunW7.lean ====
/-
  Expert 7's operations of the reference's @main, as a list, and what the list leaves in the buffers: the buffer
  `main_v160` holds the previous accumulator plus this expert's weighted output, as the stage functions of the
  argument buffers' contents; the five argument buffers are not written.
-/
import proofs.«100299_j31928786879171_1_alg».proof.Proof.RReadP

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- The 33 operations of expert 7, in program order. -/
abbrev w7 : List (HloOp τ sig (Elt F)) :=
  [ nullary main_c_20 (constantI S_ 32 7#32),
    unary main_c_20 main_v141 (broadcastInDim S4096x2 ![] bcast_S_S4096x2 : (⟨S_, .i32⟩ : BufTy).Contents (Elt F) → (⟨S4096x2, .i32⟩ : BufTy).Contents (Elt F)),
    binary main_arg1 main_v141 main_v142 (cmpi .eq : (⟨S4096x2, .i32⟩ : BufTy).Contents (Elt F) → (⟨S4096x2, .i32⟩ : BufTy).Contents (Elt F) → (⟨S4096x2, .i1⟩ : BufTy).Contents (Elt F)),
    nullary main_cst_21 (constant S_ .f32 0x00000000#32),
    TRef.unary (TRef.of (T := ⟨S_, .f32⟩) main_cst_21) (TRef.of (T := ⟨S_, .f32⟩) main_call14_v0) id,
    TRef.unary (TRef.of (T := ⟨S_, .f32⟩) main_call14_v0) (TRef.of (T := ⟨S4096x2, .f32⟩) main_call14_v1) (broadcastInDim S4096x2 ![] bcast_S_S4096x2),
    TRef.ternary (TRef.of (T := ⟨S4096x2, .i1⟩) main_v142) (TRef.of (T := ⟨S4096x2, .f32⟩) main_arg2) (TRef.of (T := ⟨S4096x2, .f32⟩) main_call14_v1) (TRef.of (T := ⟨S4096x2, .f32⟩) main_v143) select,
    nullary main_cst_22 (constant S_ .f32 0x00000000#32),
    binary main_v143 main_cst_22 main_v144 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v145 ((extractStridedSlice S1x11264x2048 ![7, 0, 0] · slices_S8x11264x2048_S1x11264x2048_7_0_0) : (⟨S8x11264x2048, .f32⟩ : BufTy).Contents (Elt F) → (⟨S1x11264x2048, .f32⟩ : BufTy).Contents (Elt F)),
    reshape main_v145 main_v146 rfl shapeCasts_S1x11264x2048_S11264x2048,
    unary main_v146 main_v147 ((transpose S2048x11264 [1, 0] · transposes_S11264x2048_S2048x11264_1_0) : (⟨S11264x2048, .f32⟩ : BufTy).Contents (Elt F) → (⟨S2048x11264, .f32⟩ : BufTy).Contents (Elt F)),
    binary main_arg0 main_v147 main_v148 ((fun l r => Host.dotGeneral dot_S4096x2048_S2048x11264_S4096x11264_1_0_0_1_n_n none l r) : (⟨S4096x2048, .f32⟩ : BufTy).Contents (Elt F) → (⟨S2048x11264, .f32⟩ : BufTy).Contents (Elt F) → (⟨S4096x11264, .f32⟩ : BufTy).Contents (Elt F)),
    unary main_v148 main_v149 ((extractStridedSlice S4096x5632 ![0, 0] · slices_S4096x11264_S4096x5632_0_0) : (⟨S4096x11264, .f32⟩ : BufTy).Contents (Elt F) → (⟨S4096x5632, .f32⟩ : BufTy).Contents (Elt F)),
    unary main_v148 main_v150 ((extractStridedSlice S4096x5632 ![0, 5632] · slices_S4096x11264_S4096x5632_0_5632) : (⟨S4096x11264, .f32⟩ : BufTy).Contents (Elt F) → (⟨S4096x5632, .f32⟩ : BufTy).Contents (Elt F)),
    TRef.unary (TRef.of (T := ⟨S4096x5632, .f32⟩) main_v149) (TRef.of (T := ⟨S4096x5632, .f32⟩) main_call15_v0) Host.negf,
    TRef.unary (TRef.of (T := ⟨S4096x5632, .f32⟩) main_call15_v0) (TRef.of (T := ⟨S4096x5632, .f32⟩) main_call15_v1) Host.exp,
    TRef.nullary (TRef.of (T := ⟨S_, .f32⟩) main_call15_cst) (constant S_ .f32 0x3F800000#32),
    TRef.unary (TRef.of (T := ⟨S_, .f32⟩) main_call15_cst) (TRef.of (T := ⟨S4096x5632, .f32⟩) main_call15_v2) (broadcastInDim S4096x5632 ![] bcast_S_S4096x5632),
    TRef.binary (TRef.of (T := ⟨S4096x5632, .f32⟩) main_call15_v2) (TRef.of (T := ⟨S4096x5632, .f32⟩) main_call15_v1) (TRef.of (T := ⟨S4096x5632, .f32⟩) main_call15_v3) addf,
    TRef.nullary (TRef.of (T := ⟨S_, .f32⟩) main_call15_cst_0) (constant S_ .f32 0x3F800000#32),
    TRef.unary (TRef.of (T := ⟨S_, .f32⟩) main_call15_cst_0) (TRef.of (T := ⟨S4096x5632, .f32⟩) main_call15_v4) (broadcastInDim S4096x5632 ![] bcast_S_S4096x5632),
    TRef.binary (TRef.of (T := ⟨S4096x5632, .f32⟩) main_call15_v4) (TRef.of (T := ⟨S4096x5632, .f32⟩) main_call15_v3) (TRef.of (T := ⟨S4096x5632, .f32⟩) main_call15_v5) Host.divf,
    TRef.binary (TRef.of (T := ⟨S4096x5632, .f32⟩) main_v149) (TRef.of (T := ⟨S4096x5632, .f32⟩) main_call15_v5) (TRef.of (T := ⟨S4096x5632, .f32⟩) main_v151) mulf,
    binary main_v151 main_v150 main_v152 (mulf : (⟨S4096x5632, .f32⟩ : BufTy).Contents (Elt F) → (⟨S4096x5632, .f32⟩ : BufTy).Contents (Elt F) → (⟨S4096x5632, .f32⟩ : BufTy).Contents (Elt F)),
    unary main_arg4 main_v153 ((extractStridedSlice S1x2048x5632 ![7, 0, 0] · slices_S8x2048x5632_S1x2048x5632_7_0_0) : (⟨S8x2048x5632, .f32⟩ : BufTy).Contents (Elt F) → (⟨S1x2048x5632, .f32⟩ : BufTy).Contents (Elt F)),
    reshape main_v153 main_v154 rfl shapeCasts_S1x2048x5632_S2048x5632,
    unary main_v154 main_v155 ((transpose S5632x2048 [1, 0] · transposes_S2048x5632_S5632x2048_1_0) : (⟨S2048x5632, .f32⟩ : BufTy).Contents (Elt F) → (⟨S5632x2048, .f32⟩ : BufTy).Contents (Elt F)),
    binary main_v152 main_v155 main_v156 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_v144 main_v157 (broadcastInDim S4096x1 ![0] bcast_S4096_S4096x1_0 : (⟨S4096, .f32⟩ : BufTy).Contents (Elt F) → (⟨S4096x1, .f32⟩ : BufTy).Contents (Elt F)),
    unary main_v157 main_v158 (broadcastInDim S4096x2048 ![0, 1] bcast_S4096x1_S4096x2048_0_1 : (⟨S4096x1, .f32⟩ : BufTy).Contents (Elt F) → (⟨S4096x2048, .f32⟩ : BufTy).Contents (Elt F)),
    binary main_v156 main_v158 main_v159 (mulf : (⟨S4096x2048, .f32⟩ : BufTy).Contents (Elt F) → (⟨S4096x2048, .f32⟩ : BufTy).Contents (Elt F) → (⟨S4096x2048, .f32⟩ : BufTy).Contents (Elt F)),
    binary main_v140 main_v159 main_v160 (addf : (⟨S4096x2048, .f32⟩ : BufTy).Contents (Elt F) → (⟨S4096x2048, .f32⟩ : BufTy).Contents (Elt F) → (⟨S4096x2048, .f32⟩ : BufTy).Contents (Elt F)) ]

theorem w7_sub : (w7 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩

theorem w7_fresh : ∀ op ∈ (w7 : List (HloOp τ sig (Elt F))), op.fresh = ∅ := by
  intro _ h; (repeat (cases h with | head => rfl | tail _ h => ?_)); exact nomatch h

theorem w7_res (V : Valuation τ sig (Elt F)) :
    after w7 V (Proc.devRef .tc main_v160) = addf (V (Proc.devRef .tc main_v140)) (val_main_v159 (F := F) (V (Proc.devRef .tc main_arg0)) (V (Proc.devRef .tc main_arg1)) (V (Proc.devRef .tc main_arg2)) (V (Proc.devRef .tc main_arg3)) (V (Proc.devRef .tc main_arg4))) := by
  after_results_simp <;> rfl

theorem w7_arg0 (V : Valuation τ sig (Elt F)) :
    after w7 V (Proc.devRef .tc main_arg0) = V (Proc.devRef .tc main_arg0) := by
  after_results_simp

theorem w7_arg1 (V : Valuation τ sig (Elt F)) :
    after w7 V (Proc.devRef .tc main_arg1) = V (Proc.devRef .tc main_arg1) := by
  after_results_simp

theorem w7_arg2 (V : Valuation τ sig (Elt F)) :
    after w7 V (Proc.devRef .tc main_arg2) = V (Proc.devRef .tc main_arg2) := by
  after_results_simp

theorem w7_arg3 (V : Valuation τ sig (Elt F)) :
    after w7 V (Proc.devRef .tc main_arg3) = V (Proc.devRef .tc main_arg3) := by
  after_results_simp

theorem w7_arg4 (V : Valuation τ sig (Elt F)) :
    after w7 V (Proc.devRef .tc main_arg4) = V (Proc.devRef .tc main_arg4) := by
  after_results_simp

end Cert.ReferenceIdeal.RunP

end
-- ==== Proof.RRun.lean ====
/-
  The reference's run.

  @main is a straight line of 266 operations: the eight experts' lists `w0 … w7` one after the other.  Running a
  concatenation is running its parts in turn (`after_append`); each part leaves its accumulator buffer at the next stage
  function of the ARGUMENT buffers' contents and does not write the arguments (modules `RRunW0` … `RRunW7`).  So after
  the whole line the result buffer `main_v160` holds the last stage, `val_main_v160` of the five argument buffers, and
  the arguments are unchanged; `run_seq` turns that into the statement about every weakly fair execution.
-/
import proofs.«100299_j31928786879171_1_alg».proof.Proof.RRunW0
import proofs.«100299_j31928786879171_1_alg».proof.Proof.RRunW1
import proofs.«100299_j31928786879171_1_alg».proof.Proof.RRunW2
import proofs.«100299_j31928786879171_1_alg».proof.Proof.RRunW3
import proofs.«100299_j31928786879171_1_alg».proof.Proof.RRunW4
import proofs.«100299_j31928786879171_1_alg».proof.Proof.RRunW5
import proofs.«100299_j31928786879171_1_alg».proof.Proof.RRunW6
import proofs.«100299_j31928786879171_1_alg».proof.Proof.RRunW7

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-- @main's 266 operations, in order: the eight experts' lists appended. -/
abbrev ops : List (HloOp τ sig (Elt F)) := w0 ++ (w1 ++ (w2 ++ (w3 ++ (w4 ++ (w5 ++ (w6 ++ w7))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A property of every entry of two lists holds of every entry of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append w0_sub (forall_append w1_sub (forall_append w2_sub (forall_append w3_sub (forall_append w4_sub
    (forall_append w5_sub (forall_append w6_sub w7_sub))))))

theorem ops_fresh : ∀ op ∈ (ops : List (HloOp τ sig (Elt F))), op.fresh = ∅ := by
  intro op h
  rcases List.mem_append.1 h with h | h
  · exact w0_fresh op h
  rcases List.mem_append.1 h with h | h
  · exact w1_fresh op h
  rcases List.mem_append.1 h with h | h
  · exact w2_fresh op h
  rcases List.mem_append.1 h with h | h
  · exact w3_fresh op h
  rcases List.mem_append.1 h with h | h
  · exact w4_fresh op h
  rcases List.mem_append.1 h with h | h
  · exact w5_fresh op h
  rcases List.mem_append.1 h with h | h
  · exact w6_fresh op h
  · exact w7_fresh op h

/-- Running a concatenation is running its parts in turn. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Expert 1's list run from contents that hold the accumulator stage `main_v20` and the arguments. -/
theorem step1 (W V : Valuation τ sig (Elt F))
    (hp : W (Proc.devRef .tc main_v20) = val_main_v20 (F := F) (V (Proc.devRef .tc main_arg0)) (V (Proc.devRef .tc main_arg1)) (V (Proc.devRef .tc main_arg2)) (V (Proc.devRef .tc main_arg3)) (V (Proc.devRef .tc main_arg4)))
    (h0 : (W (Proc.devRef .tc main_arg0)) = (V (Proc.devRef .tc main_arg0))) (h1 : (W (Proc.devRef .tc main_arg1)) = (V (Proc.devRef .tc main_arg1))) (h2 : (W (Proc.devRef .tc main_arg2)) = (V (Proc.devRef .tc main_arg2)))
    (h3 : (W (Proc.devRef .tc main_arg3)) = (V (Proc.devRef .tc main_arg3))) (h4 : (W (Proc.devRef .tc main_arg4)) = (V (Proc.devRef .tc main_arg4))) :
    after w1 W (Proc.devRef .tc main_v40) = val_main_v40 (F := F) (V (Proc.devRef .tc main_arg0)) (V (Proc.devRef .tc main_arg1)) (V (Proc.devRef .tc main_arg2)) (V (Proc.devRef .tc main_arg3)) (V (Proc.devRef .tc main_arg4)) := by
  rw [w1_res, hp, h0, h1, h2, h3, h4]
  rfl

/-- Expert 2's list run from contents that hold the accumulator stage `main_v40` and the arguments. -/
theorem step2 (W V : Valuation τ sig (Elt F))
    (hp : W (Proc.devRef .tc main_v40) = val_main_v40 (F := F) (V (Proc.devRef .tc main_arg0)) (V (Proc.devRef .tc main_arg1)) (V (Proc.devRef .tc main_arg2)) (V (Proc.devRef .tc main_arg3)) (V (Proc.devRef .tc main_arg4)))
    (h0 : (W (Proc.devRef .tc main_arg0)) = (V (Proc.devRef .tc main_arg0))) (h1 : (W (Proc.devRef .tc main_arg1)) = (V (Proc.devRef .tc main_arg1))) (h2 : (W (Proc.devRef .tc main_arg2)) = (V (Proc.devRef .tc main_arg2)))
    (h3 : (W (Proc.devRef .tc main_arg3)) = (V (Proc.devRef .tc main_arg3))) (h4 : (W (Proc.devRef .tc main_arg4)) = (V (Proc.devRef .tc main_arg4))) :
    after w2 W (Proc.devRef .tc main_v60) = val_main_v60 (F := F) (V (Proc.devRef .tc main_arg0)) (V (Proc.devRef .tc main_arg1)) (V (Proc.devRef .tc main_arg2)) (V (Proc.devRef .tc main_arg3)) (V (Proc.devRef .tc main_arg4)) := by
  rw [w2_res, hp, h0, h1, h2, h3, h4]
  rfl

/-- Expert 3's list run from contents that hold the accumulator stage `main_v60` and the arguments. -/
theorem step3 (W V : Valuation τ sig (Elt F))
    (hp : W (Proc.devRef .tc main_v60) = val_main_v60 (F := F) (V (Proc.devRef .tc main_arg0)) (V (Proc.devRef .tc main_arg1)) (V (Proc.devRef .tc main_arg2)) (V (Proc.devRef .tc main_arg3)) (V (Proc.devRef .tc main_arg4)))
    (h0 : (W (Proc.devRef .tc main_arg0)) = (V (Proc.devRef .tc main_arg0))) (h1 : (W (Proc.devRef .tc main_arg1)) = (V (Proc.devRef .tc main_arg1))) (h2 : (W (Proc.devRef .tc main_arg2)) = (V (Proc.devRef .tc main_arg2)))
    (h3 : (W (Proc.devRef .tc main_arg3)) = (V (Proc.devRef .tc main_arg3))) (h4 : (W (Proc.devRef .tc main_arg4)) = (V (Proc.devRef .tc main_arg4))) :
    after w3 W (Proc.devRef .tc main_v80) = val_main_v80 (F := F) (V (Proc.devRef .tc main_arg0)) (V (Proc.devRef .tc main_arg1)) (V (Proc.devRef .tc main_arg2)) (V (Proc.devRef .tc main_arg3)) (V (Proc.devRef .tc main_arg4)) := by
  rw [w3_res, hp, h0, h1, h2, h3, h4]
  rfl

/-- Expert 4's list run from contents that hold the accumulator stage `main_v80` and the arguments. -/
theorem step4 (W V : Valuation τ sig (Elt F))
    (hp : W (Proc.devRef .tc main_v80) = val_main_v80 (F := F) (V (Proc.devRef .tc main_arg0)) (V (Proc.devRef .tc main_arg1)) (V (Proc.devRef .tc main_arg2)) (V (Proc.devRef .tc main_arg3)) (V (Proc.devRef .tc main_arg4)))
    (h0 : (W (Proc.devRef .tc main_arg0)) = (V (Proc.devRef .tc main_arg0))) (h1 : (W (Proc.devRef .tc main_arg1)) = (V (Proc.devRef .tc main_arg1))) (h2 : (W (Proc.devRef .tc main_arg2)) = (V (Proc.devRef .tc main_arg2)))
    (h3 : (W (Proc.devRef .tc main_arg3)) = (V (Proc.devRef .tc main_arg3))) (h4 : (W (Proc.devRef .tc main_arg4)) = (V (Proc.devRef .tc main_arg4))) :
    after w4 W (Proc.devRef .tc main_v100) = val_main_v100 (F := F) (V (Proc.devRef .tc main_arg0)) (V (Proc.devRef .tc main_arg1)) (V (Proc.devRef .tc main_arg2)) (V (Proc.devRef .tc main_arg3)) (V (Proc.devRef .tc main_arg4)) := by
  rw [w4_res, hp, h0, h1, h2, h3, h4]
  rfl

/-- Expert 5's list run from contents that hold the accumulator stage `main_v100` and the arguments. -/
theorem step5 (W V : Valuation τ sig (Elt F))
    (hp : W (Proc.devRef .tc main_v100) = val_main_v100 (F := F) (V (Proc.devRef .tc main_arg0)) (V (Proc.devRef .tc main_arg1)) (V (Proc.devRef .tc main_arg2)) (V (Proc.devRef .tc main_arg3)) (V (Proc.devRef .tc main_arg4)))
    (h0 : (W (Proc.devRef .tc main_arg0)) = (V (Proc.devRef .tc main_arg0))) (h1 : (W (Proc.devRef .tc main_arg1)) = (V (Proc.devRef .tc main_arg1))) (h2 : (W (Proc.devRef .tc main_arg2)) = (V (Proc.devRef .tc main_arg2)))
    (h3 : (W (Proc.devRef .tc main_arg3)) = (V (Proc.devRef .tc main_arg3))) (h4 : (W (Proc.devRef .tc main_arg4)) = (V (Proc.devRef .tc main_arg4))) :
    after w5 W (Proc.devRef .tc main_v120) = val_main_v120 (F := F) (V (Proc.devRef .tc main_arg0)) (V (Proc.devRef .tc main_arg1)) (V (Proc.devRef .tc main_arg2)) (V (Proc.devRef .tc main_arg3)) (V (Proc.devRef .tc main_arg4)) := by
  rw [w5_res, hp, h0, h1, h2, h3, h4]
  rfl

/-- Expert 6's list run from contents that hold the accumulator stage `main_v120` and the arguments. -/
theorem step6 (W V : Valuation τ sig (Elt F))
    (hp : W (Proc.devRef .tc main_v120) = val_main_v120 (F := F) (V (Proc.devRef .tc main_arg0)) (V (Proc.devRef .tc main_arg1)) (V (Proc.devRef .tc main_arg2)) (V (Proc.devRef .tc main_arg3)) (V (Proc.devRef .tc main_arg4)))
    (h0 : (W (Proc.devRef .tc main_arg0)) = (V (Proc.devRef .tc main_arg0))) (h1 : (W (Proc.devRef .tc main_arg1)) = (V (Proc.devRef .tc main_arg1))) (h2 : (W (Proc.devRef .tc main_arg2)) = (V (Proc.devRef .tc main_arg2)))
    (h3 : (W (Proc.devRef .tc main_arg3)) = (V (Proc.devRef .tc main_arg3))) (h4 : (W (Proc.devRef .tc main_arg4)) = (V (Proc.devRef .tc main_arg4))) :
    after w6 W (Proc.devRef .tc main_v140) = val_main_v140 (F := F) (V (Proc.devRef .tc main_arg0)) (V (Proc.devRef .tc main_arg1)) (V (Proc.devRef .tc main_arg2)) (V (Proc.devRef .tc main_arg3)) (V (Proc.devRef .tc main_arg4)) := by
  rw [w6_res, hp, h0, h1, h2, h3, h4]
  rfl

/-- Expert 7's list run from contents that hold the accumulator stage `main_v140` and the arguments. -/
theorem step7 (W V : Valuation τ sig (Elt F))
    (hp : W (Proc.devRef .tc main_v140) = val_main_v140 (F := F) (V (Proc.devRef .tc main_arg0)) (V (Proc.devRef .tc main_arg1)) (V (Proc.devRef .tc main_arg2)) (V (Proc.devRef .tc main_arg3)) (V (Proc.devRef .tc main_arg4)))
    (h0 : (W (Proc.devRef .tc main_arg0)) = (V (Proc.devRef .tc main_arg0))) (h1 : (W (Proc.devRef .tc main_arg1)) = (V (Proc.devRef .tc main_arg1))) (h2 : (W (Proc.devRef .tc main_arg2)) = (V (Proc.devRef .tc main_arg2)))
    (h3 : (W (Proc.devRef .tc main_arg3)) = (V (Proc.devRef .tc main_arg3))) (h4 : (W (Proc.devRef .tc main_arg4)) = (V (Proc.devRef .tc main_arg4))) :
    after w7 W (Proc.devRef .tc main_v160) = val_main_v160 (F := F) (V (Proc.devRef .tc main_arg0)) (V (Proc.devRef .tc main_arg1)) (V (Proc.devRef .tc main_arg2)) (V (Proc.devRef .tc main_arg3)) (V (Proc.devRef .tc main_arg4)) := by
  rw [w7_res, hp, h0, h1, h2, h3, h4]
  rfl

/-- After the whole line: the result buffer at the last stage of the argument buffers, the arguments untouched. -/
theorem after_ops (V : Valuation τ sig (Elt F)) :
    after ops V (Proc.devRef .tc main_v160) = val_main_v160 (F := F) (V (Proc.devRef .tc main_arg0)) (V (Proc.devRef .tc main_arg1)) (V (Proc.devRef .tc main_arg2)) (V (Proc.devRef .tc main_arg3)) (V (Proc.devRef .tc main_arg4))
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4) := by
  have e : after (ops (F := F)) V = after w7 (after w6 (after w5 (after w4 (after w3 (after w2 (after w1 (after w0 V))))))) := by
    show after (w0 ++ (w1 ++ (w2 ++ (w3 ++ (w4 ++ (w5 ++ (w6 ++ w7))))))) V = _
    rw [after_append, after_append, after_append, after_append, after_append, after_append, after_append]
  rw [e]
  clear e
  have p0 := w0_res V
  have q0 := w0_arg0 V
  have q1 := w0_arg1 V
  have q2 := w0_arg2 V
  have q3 := w0_arg3 V
  have q4 := w0_arg4 V
  generalize after w0 V = W at *
  have p1 := step1 W V p0 q0 q1 q2 q3 q4
  clear p0
  replace q0 := (w1_arg0 W).trans q0
  replace q1 := (w1_arg1 W).trans q1
  replace q2 := (w1_arg2 W).trans q2
  replace q3 := (w1_arg3 W).trans q3
  replace q4 := (w1_arg4 W).trans q4
  generalize after w1 W = W' at *
  clear W
  rename' W' => W
  have p2 := step2 W V p1 q0 q1 q2 q3 q4
  clear p1
  replace q0 := (w2_arg0 W).trans q0
  replace q1 := (w2_arg1 W).trans q1
  replace q2 := (w2_arg2 W).trans q2
  replace q3 := (w2_arg3 W).trans q3
  replace q4 := (w2_arg4 W).trans q4
  generalize after w2 W = W' at *
  clear W
  rename' W' => W
  have p3 := step3 W V p2 q0 q1 q2 q3 q4
  clear p2
  replace q0 := (w3_arg0 W).trans q0
  replace q1 := (w3_arg1 W).trans q1
  replace q2 := (w3_arg2 W).trans q2
  replace q3 := (w3_arg3 W).trans q3
  replace q4 := (w3_arg4 W).trans q4
  generalize after w3 W = W' at *
  clear W
  rename' W' => W
  have p4 := step4 W V p3 q0 q1 q2 q3 q4
  clear p3
  replace q0 := (w4_arg0 W).trans q0
  replace q1 := (w4_arg1 W).trans q1
  replace q2 := (w4_arg2 W).trans q2
  replace q3 := (w4_arg3 W).trans q3
  replace q4 := (w4_arg4 W).trans q4
  generalize after w4 W = W' at *
  clear W
  rename' W' => W
  have p5 := step5 W V p4 q0 q1 q2 q3 q4
  clear p4
  replace q0 := (w5_arg0 W).trans q0
  replace q1 := (w5_arg1 W).trans q1
  replace q2 := (w5_arg2 W).trans q2
  replace q3 := (w5_arg3 W).trans q3
  replace q4 := (w5_arg4 W).trans q4
  generalize after w5 W = W' at *
  clear W
  rename' W' => W
  have p6 := step6 W V p5 q0 q1 q2 q3 q4
  clear p5
  replace q0 := (w6_arg0 W).trans q0
  replace q1 := (w6_arg1 W).trans q1
  replace q2 := (w6_arg2 W).trans q2
  replace q3 := (w6_arg3 W).trans q3
  replace q4 := (w6_arg4 W).trans q4
  generalize after w6 W = W' at *
  clear W
  rename' W' => W
  have p7 := step7 W V p6 q0 q1 q2 q3 q4
  clear p6
  replace q0 := (w7_arg0 W).trans q0
  replace q1 := (w7_arg1 W).trans q1
  replace q2 := (w7_arg2 W).trans q2
  replace q3 := (w7_arg3 W).trans q3
  replace q4 := (w7_arg4 W).trans q4
  generalize after w7 W = W' at *
  clear W
  rename' W' => W
  exact ⟨p7, q0, q1, q2, q3, q4⟩

/-- On every device, for any float values, from any memory with zero counters: every weakly fair execution of
    @main terminates with the result buffer at the last stage function of the argument buffers and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v160) = val_main_v160 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have a := after_ops (F := F) (launchContents m c)
      ⟨(h c main_v160).trans a.1, (h c main_arg0).trans a.2.1, (h c main_arg1).trans a.2.2.1,
        (h c main_arg2).trans a.2.2.2.1, (h c main_arg3).trans a.2.2.2.2.1, (h c main_arg4).trans a.2.2.2.2.2⟩)
    (run_seq scopedRefs_eq scopedSems_eq defs main (fun _ => ops) main_eq (fun _ => ops_sub) m ρ (fun _ => ops_fresh))

end Cert.ReferenceIdeal.RunP

namespace Cert.Moe

open Cert.ReferenceIdeal Cert.ReferenceIdeal.Gen Idealize.ShloMosaic Idealize.ShloMosaic.TcCoe Idealize.SL.Sem Cert.ReferenceIdeal.ReadP

/-- The reference's run at the ideal float type, stated for the assembly. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ fun r => ∀ c : Dev nD,
      r.2.mem ((c.tc : Thread nD τ).loc main_v160) = val_main_v160 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  Cert.ReferenceIdeal.RunP.run (F := Ideal) m' ρ'

end Cert.Moe

end
-- ==== Proof.RCore.lean ====
/-
  One expert's step of the mixture-of-experts layer, over the extended reals, for arrays of real numbers.

  With `X0 … X4` the argument arrays and every float entry a real number:
    gE t e r     = Σ_k X0[t,k] · X3[e,r,k]                      (a row of the gate/up projection)
    hidE t e J   = (g · (1 / (1 + exp(-g)))) · u   with g = gE t e J, u = gE t e (5632+J)
    wEE t c      = 0 + Σ_{k<2} (X2[t,k] if X1[t,k] = c else 0)
    stepE        = prev + (Σ_J hidE t e J · X4[e,h,J]) · wEE t c
  Each is the coercion of the real number `Spec` names (`gate`/`up`, `hid`, `wE`, `yE`), so the step adds
  `yE · wE` to a real accumulator; eight steps from zero give `outR`.
-/
import proofs.«100299_j31928786879171_1_alg».proof.Proof.Spec
import proofs.«100299_j31928786879171_1_alg».proof.Proof.LibERealSum
import Idealize.ShloMosaic.Lib.IdealHost
import Idealize.ShloMosaic.Lib.Affine

noncomputable section

namespace Cert.Moe

open Idealize.ShloMosaic Idealize.ShloMosaic.ValueIdx

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- Row `r` of expert `e`'s gate/up matrix against token `t`. -/
def gE (t : Fin 4096) (e : Fin 8) (r : Fin 11264) : EReal := ∑ k : Fin 2048, X0 (ix2 t k) * X3 (ix3 e r k)

/-- The float constants one and zero. -/
def oneE : EReal := FloatOps.ofBits (F := Ideal) .f32 0x3F800000#32
def zeroE : EReal := FloatOps.ofBits (F := Ideal) .f32 0x00000000#32

/-- `x · (1 / (1 + exp(-x)))`, as the reference spells it. -/
def siluE (g : EReal) : EReal :=
  FloatOps.mulf (F := Ideal) (φ := .f32) g (FloatOps.hostDivf (F := Ideal) (φ := .f32) oneE
    (FloatOps.addf (F := Ideal) (φ := .f32) oneE (FloatOps.hostUnary (F := Ideal) (φ := .f32) .exp (FloatOps.hostNegf (F := Ideal) (φ := .f32) g))))

/-- The hidden activation `silu(gate) · up`. -/
def hidE (t : Fin 4096) (e : Fin 8) (J : Fin 5632) : EReal :=
  FloatOps.mulf (F := Ideal) (φ := .f32) (siluE (gE X0 X3 t e ⟨J.val, by omega⟩)) (gE X0 X3 t e ⟨5632 + J.val, by omega⟩)

/-- The routing weight of token `t` for the expert numbered `c`. -/
def wEE (t : Fin 4096) (c : BitVec 32) : EReal :=
  zeroE + ∑ k : Fin 2, Scalar.select (IntOp.cmpi .eq (X1 (ix2 t k)) c) (X2 (ix2 t k)) zeroE

/-- One expert's contribution added to the accumulator. -/
def stepE (t : Fin 4096) (e : Fin 8) (h : Fin 2048) (c : BitVec 32) (prev : EReal) : EReal :=
  FloatOps.addf (F := Ideal) (φ := .f32) prev
    (FloatOps.mulf (F := Ideal) (φ := .f32) (∑ J : Fin 5632, hidE X0 X3 t e J * X4 (ix3 e h J)) (wEE X1 X2 t c))

theorem oneE_eq : oneE = 1 := Ideal.ofBits_one_f32
theorem zeroE_eq : zeroE = 0 := Ideal.ofBits_zero_f32

variable {X0 X1 X2 X3 X4}

theorem gE_real (h0 : ∀ i, X0 i = (((X0 i).toReal : ℝ) : EReal)) (h3 : ∀ i, X3 i = (((X3 i).toReal : ℝ) : EReal))
    (t : Fin 4096) (e : Fin 8) (r : Fin 11264) :
    gE X0 X3 t e r = ((∑ k : Fin 2048, xR X0 t k * guR X3 e r k : ℝ) : EReal) :=
  LibERealSum.sum_mul_of_real Finset.univ (fun k => X0 (ix2 t k)) (fun k => X3 (ix3 e r k)) (fun _ => h0 _) (fun _ => h3 _)

theorem siluE_real (g : ℝ) : siluE (g : EReal) = ((g * sigm g : ℝ) : EReal) := by
  show (g : EReal) * Ideal.div oneE (oneE + Ideal.exp (-(g : EReal))) = _
  rw [oneE_eq, show Ideal.div 1 (1 + Ideal.exp (-(g : EReal))) = Ideal.logistic (g : EReal) from rfl, Ideal.logistic_coe,
    ← EReal.coe_mul]
  rfl

theorem hidE_real (h0 : ∀ i, X0 i = (((X0 i).toReal : ℝ) : EReal)) (h3 : ∀ i, X3 i = (((X3 i).toReal : ℝ) : EReal))
    (t : Fin 4096) (e : Fin 8) (J : Fin 5632) :
    hidE X0 X3 t e J = ((hid (xR X0) (guR X3) t e J : ℝ) : EReal) := by
  unfold hidE
  rw [gE_real h0 h3, gE_real h0 h3, siluE_real]
  show ((_ : ℝ) : EReal) * ((_ : ℝ) : EReal) = _
  rw [← EReal.coe_mul]
  rfl

theorem wEE_real (h2 : ∀ i, X2 i = (((X2 i).toReal : ℝ) : EReal)) (t : Fin 4096) (e : Fin 8) :
    wEE X1 X2 t (BitVec.ofNat 32 e.val) = ((wE (selR X1) (rwR X2) t e : ℝ) : EReal) := by
  unfold wEE wE
  rw [zeroE_eq, zero_add, LibERealSum.coe_sum]
  refine Finset.sum_congr rfl fun k _ => ?_
  by_cases hk : X1 (ix2 t k) = BitVec.ofNat 32 e.val
  · rw [IntOp.cmpi_eq.2 hk, select_one, if_pos (show selR X1 t k = BitVec.ofNat 32 e.val from hk)]
    exact h2 _
  · rw [eq_zero_of_ne_one (fun hh => hk (IntOp.cmpi_eq.1 hh)), select_zero,
      if_neg (show ¬ selR X1 t k = BitVec.ofNat 32 e.val from hk)]
    rfl

theorem yE_real (h0 : ∀ i, X0 i = (((X0 i).toReal : ℝ) : EReal)) (h3 : ∀ i, X3 i = (((X3 i).toReal : ℝ) : EReal))
    (h4 : ∀ i, X4 i = (((X4 i).toReal : ℝ) : EReal)) (t : Fin 4096) (e : Fin 8) (h : Fin 2048) :
    ∑ J : Fin 5632, hidE X0 X3 t e J * X4 (ix3 e h J) = ((yE (xR X0) (guR X3) (dnR X4) t e h : ℝ) : EReal) := by
  unfold yE
  rw [← LibERealSum.sum_coe_mul_coe]
  exact Finset.sum_congr rfl fun J _ => congrArg₂ (· * ·) (hidE_real h0 h3 t e J) (h4 (ix3 e h J))

/-- One step: a real accumulator plus this expert's weighted output. -/
theorem stepE_real (h0 : ∀ i, X0 i = (((X0 i).toReal : ℝ) : EReal)) (h2 : ∀ i, X2 i = (((X2 i).toReal : ℝ) : EReal))
    (h3 : ∀ i, X3 i = (((X3 i).toReal : ℝ) : EReal)) (h4 : ∀ i, X4 i = (((X4 i).toReal : ℝ) : EReal))
    (t : Fin 4096) (e : Fin 8) (h : Fin 2048) (prev : EReal) (p : ℝ) (hp : prev = ((p : ℝ) : EReal)) :
    stepE X0 X1 X2 X3 X4 t e h (BitVec.ofNat 32 e.val) prev
      = ((p + yE (xR X0) (guR X3) (dnR X4) t e h * wE (selR X1) (rwR X2) t e : ℝ) : EReal) := by
  unfold stepE
  rw [yE_real h0 h3 h4, wEE_real h2, hp]
  show ((_ : ℝ) : EReal) + ((_ : ℝ) : EReal) * ((_ : ℝ) : EReal) = _
  rw [← EReal.coe_mul, ← EReal.coe_add]

/-- Eight steps from zero are the layer's output. -/
theorem eight_steps (x : Fin 4096 → Fin 2048 → ℝ) (sel : Fin 4096 → Fin 2 → BitVec 32) (rw' : Fin 4096 → Fin 2 → ℝ)
    (gu : Fin 8 → Fin 11264 → Fin 2048 → ℝ) (dn : Fin 8 → Fin 2048 → Fin 5632 → ℝ) (t : Fin 4096) (h : Fin 2048) :
    (((((((0 + yE x gu dn t 0 h * wE sel rw' t 0) + yE x gu dn t 1 h * wE sel rw' t 1) + yE x gu dn t 2 h * wE sel rw' t 2)
      + yE x gu dn t 3 h * wE sel rw' t 3) + yE x gu dn t 4 h * wE sel rw' t 4) + yE x gu dn t 5 h * wE sel rw' t 5)
      + yE x gu dn t 6 h * wE sel rw' t 6) + yE x gu dn t 7 h * wE sel rw' t 7 = outR x sel rw' gu dn t h := by
  unfold outR
  rw [Fin.sum_univ_eight, zero_add]

end Cert.Moe

end
-- ==== Proof.RExp0.lean ====
/-
  Expert 0 of the reference: its stages read at an index are the one-expert step of `RCore` at `e = 0`.

  The projection `x · gate_up[0]ᵀ` at `(t, r)` is `gE t 0 r` (the slice, reshape and transpose only re-index), the
  silu and the product with the up half give `hidE`, the transposed slice of `down[0]` at `(J, h)` is `X4[0, h, J]`,
  the masked sum of the router weights is `wEE t 0`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[0,r,k]`. -/
theorem e0_proj (t : Fin 4096) (r : Fin 11264) : val_main_v8 (F := Ideal) X0 X3 (ix2 t r) = gE X0 X3 t 0 r := by
  rw [val_main_v8_apply]
  unfold gE
  refine Finset.sum_congr rfl fun k _ => ?_
  rw [val_main_v7_apply, val_main_v6_apply, val_main_v5_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 0 = 0; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e0_hid (t : Fin 4096) (J : Fin 5632) : val_main_v12 (F := Ideal) X0 X3 (ix2 t J) = hidE X0 X3 t 0 J := by
  rw [val_main_v12_apply, val_main_v11_apply, val_main_call1_v5_apply, val_main_call1_v4_apply, val_main_call1_cst_0_apply, val_main_call1_v3_apply, val_main_call1_v2_apply,
    val_main_call1_cst_apply, val_main_call1_v1_apply, val_main_call1_v0_apply, val_main_v9_apply, val_main_v10_apply]
  have e9 : idx_main_v9 (ix2 t J) = ix2 t (⟨J.val, by omega⟩ : Fin 11264) := by
    funext a
    match a with
    | ⟨0, _⟩ => rfl
    | ⟨1, _⟩ => rfl
  have e10 : idx_main_v10 (ix2 t J) = ix2 t (⟨5632 + J.val, by omega⟩ : Fin 11264) := by
    funext a
    match a with
    | ⟨0, _⟩ => rfl
    | ⟨1, _⟩ => rfl
  rw [e9, e10, e0_proj, e0_proj]
  rfl

/-- The transposed slice of the down projection at `(J, h)`. -/
theorem e0_down (J : Fin 5632) (h : Fin 2048) : val_main_v15 (F := Ideal) X4 (ix2 J h) = X4 (ix3 0 h J) := by
  rw [val_main_v15_apply, val_main_v14_apply, val_main_v13_apply]
  refine congrArg X4 ?_
  funext a
  match a with
  | ⟨0, _⟩ => exact Fin.ext (by show 0 = 0; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e0_weight (t : Fin 4096) (h : Fin 2048) : val_main_v18 (F := Ideal) X1 X2 (ix2 t h) = wEE X1 X2 t (BitVec.ofNat 32 0) := by
  rw [val_main_v18_apply, val_main_v17_apply, val_main_v4_apply]
  unfold wEE
  refine congrArg₂ (· + ·) rfl (Finset.sum_congr rfl fun k _ => ?_)
  rw [val_main_v3_apply, val_main_v2_apply, val_main_v1_apply, val_main_c_apply, val_main_call0_v1_apply, val_main_call0_v0_apply, val_main_cst_0_apply]
  have ek : idx_main_v4 (idx_main_v17 (idx_main_v18 (ix2 t h))) k = ix2 t k := by
    funext a
    match a with
    | ⟨0, _⟩ => rfl
    | ⟨1, _⟩ => rfl
  rw [ek]
  rfl

/-- The accumulation at `(t, h)`: the previous array plus this expert's weighted output. -/
theorem e0_step (t : Fin 4096) (h : Fin 2048) :
    val_main_v20 (F := Ideal) X0 X1 X2 X3 X4 (ix2 t h)
      = stepE X0 X1 X2 X3 X4 t 0 h (BitVec.ofNat 32 0) (val_main_v0 (F := Ideal) (ix2 t h)) := by
  rw [val_main_v20_apply, val_main_v19_apply, val_main_v16_apply, e0_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v16 (ix2 t h) J = ix2 t J := by
    funext a
    match a with
    | ⟨0, _⟩ => rfl
    | ⟨1, _⟩ => rfl
  have er : ridx_main_v16 (ix2 t h) J = ix2 J h := by
    funext a
    match a with
    | ⟨0, _⟩ => rfl
    | ⟨1, _⟩ => rfl
  rw [el, er, e0_hid, e0_down]

end Cert.Moe
-- ==== Proof.RExp1.lean ====
/-
  Expert 1 of the reference: its stages read at an index are the one-expert step of `RCore` at `e = 1`.

  The projection `x · gate_up[1]ᵀ` at `(t, r)` is `gE t 1 r` (the slice, reshape and transpose only re-index), the
  silu and the product with the up half give `hidE`, the transposed slice of `down[1]` at `(J, h)` is `X4[1, h, J]`,
  the masked sum of the router weights is `wEE t 1`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[1,r,k]`. -/
theorem e1_proj (t : Fin 4096) (r : Fin 11264) : val_main_v28 (F := Ideal) X0 X3 (ix2 t r) = gE X0 X3 t 1 r := by
  rw [val_main_v28_apply]
  unfold gE
  refine Finset.sum_congr rfl fun k _ => ?_
  rw [val_main_v27_apply, val_main_v26_apply, val_main_v25_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 1 + 0 = 1; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e1_hid (t : Fin 4096) (J : Fin 5632) : val_main_v32 (F := Ideal) X0 X3 (ix2 t J) = hidE X0 X3 t 1 J := by
  rw [val_main_v32_apply, val_main_v31_apply, val_main_call3_v5_apply, val_main_call3_v4_apply, val_main_call3_cst_0_apply, val_main_call3_v3_apply, val_main_call3_v2_apply,
    val_main_call3_cst_apply, val_main_call3_v1_apply, val_main_call3_v0_apply, val_main_v29_apply, val_main_v30_apply]
  have e9 : idx_main_v29 (ix2 t J) = ix2 t (⟨J.val, by omega⟩ : Fin 11264) := by
    funext a
    match a with
    | ⟨0, _⟩ => rfl
    | ⟨1, _⟩ => rfl
  have e10 : idx_main_v30 (ix2 t J) = ix2 t (⟨5632 + J.val, by omega⟩ : Fin 11264) := by
    funext a
    match a with
    | ⟨0, _⟩ => rfl
    | ⟨1, _⟩ => rfl
  rw [e9, e10, e1_proj, e1_proj]
  rfl

/-- The transposed slice of the down projection at `(J, h)`. -/
theorem e1_down (J : Fin 5632) (h : Fin 2048) : val_main_v35 (F := Ideal) X4 (ix2 J h) = X4 (ix3 1 h J) := by
  rw [val_main_v35_apply, val_main_v34_apply, val_main_v33_apply]
  refine congrArg X4 ?_
  funext a
  match a with
  | ⟨0, _⟩ => exact Fin.ext (by show 1 + 0 = 1; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e1_weight (t : Fin 4096) (h : Fin 2048) : val_main_v38 (F := Ideal) X1 X2 (ix2 t h) = wEE X1 X2 t (BitVec.ofNat 32 1) := by
  rw [val_main_v38_apply, val_main_v37_apply, val_main_v24_apply]
  unfold wEE
  refine congrArg₂ (· + ·) rfl (Finset.sum_congr rfl fun k _ => ?_)
  rw [val_main_v23_apply, val_main_v22_apply, val_main_v21_apply, val_main_c_2_apply, val_main_call2_v1_apply, val_main_call2_v0_apply, val_main_cst_3_apply]
  have ek : idx_main_v24 (idx_main_v37 (idx_main_v38 (ix2 t h))) k = ix2 t k := by
    funext a
    match a with
    | ⟨0, _⟩ => rfl
    | ⟨1, _⟩ => rfl
  rw [ek]
  rfl

/-- The accumulation at `(t, h)`: the previous array plus this expert's weighted output. -/
theorem e1_step (t : Fin 4096) (h : Fin 2048) :
    val_main_v40 (F := Ideal) X0 X1 X2 X3 X4 (ix2 t h)
      = stepE X0 X1 X2 X3 X4 t 1 h (BitVec.ofNat 32 1) (val_main_v20 (F := Ideal) X0 X1 X2 X3 X4 (ix2 t h)) := by
  rw [val_main_v40_apply, val_main_v39_apply, val_main_v36_apply, e1_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v36 (ix2 t h) J = ix2 t J := by
    funext a
    match a with
    | ⟨0, _⟩ => rfl
    | ⟨1, _⟩ => rfl
  have er : ridx_main_v36 (ix2 t h) J = ix2 J h := by
    funext a
    match a with
    | ⟨0, _⟩ => rfl
    | ⟨1, _⟩ => rfl
  rw [el, er, e1_hid, e1_down]

end Cert.Moe
-- ==== Proof.RExp2.lean ====
/-
  Expert 2 of the reference: its stages read at an index are the one-expert step of `RCore` at `e = 2`.

  The projection `x · gate_up[2]ᵀ` at `(t, r)` is `gE t 2 r` (the slice, reshape and transpose only re-index), the
  silu and the product with the up half give `hidE`, the transposed slice of `down[2]` at `(J, h)` is `X4[2, h, J]`,
  the masked sum of the router weights is `wEE t 2`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[2,r,k]`. -/
theorem e2_proj (t : Fin 4096) (r : Fin 11264) : val_main_v48 (F := Ideal) X0 X3 (ix2 t r) = gE X0 X3 t 2 r := by
  rw [val_main_v48_apply]
  unfold gE
  refine Finset.sum_congr rfl fun k _ => ?_
  rw [val_main_v47_apply, val_main_v46_apply, val_main_v45_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 2 + 0 = 2; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e2_hid (t : Fin 4096) (J : Fin 5632) : val_main_v52 (F := Ideal) X0 X3 (ix2 t J) = hidE X0 X3 t 2 J := by
  rw [val_main_v52_apply, val_main_v51_apply, val_main_call5_v5_apply, val_main_call5_v4_apply, val_main_call5_cst_0_apply, val_main_call5_v3_apply, val_main_call5_v2_apply,
    val_main_call5_cst_apply, val_main_call5_v1_apply, val_main_call5_v0_apply, val_main_v49_apply, val_main_v50_apply]
  have e9 : idx_main_v49 (ix2 t J) = ix2 t (⟨J.val, by omega⟩ : Fin 11264) := by
    funext a
    match a with
    | ⟨0, _⟩ => rfl
    | ⟨1, _⟩ => rfl
  have e10 : idx_main_v50 (ix2 t J) = ix2 t (⟨5632 + J.val, by omega⟩ : Fin 11264) := by
    funext a
    match a with
    | ⟨0, _⟩ => rfl
    | ⟨1, _⟩ => rfl
  rw [e9, e10, e2_proj, e2_proj]
  rfl

/-- The transposed slice of the down projection at `(J, h)`. -/
theorem e2_down (J : Fin 5632) (h : Fin 2048) : val_main_v55 (F := Ideal) X4 (ix2 J h) = X4 (ix3 2 h J) := by
  rw [val_main_v55_apply, val_main_v54_apply, val_main_v53_apply]
  refine congrArg X4 ?_
  funext a
  match a with
  | ⟨0, _⟩ => exact Fin.ext (by show 2 + 0 = 2; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e2_weight (t : Fin 4096) (h : Fin 2048) : val_main_v58 (F := Ideal) X1 X2 (ix2 t h) = wEE X1 X2 t (BitVec.ofNat 32 2) := by
  rw [val_main_v58_apply, val_main_v57_apply, val_main_v44_apply]
  unfold wEE
  refine congrArg₂ (· + ·) rfl (Finset.sum_congr rfl fun k _ => ?_)
  rw [val_main_v43_apply, val_main_v42_apply, val_main_v41_apply, val_main_c_5_apply, val_main_call4_v1_apply, val_main_call4_v0_apply, val_main_cst_6_apply]
  have ek : idx_main_v44 (idx_main_v57 (idx_main_v58 (ix2 t h))) k = ix2 t k := by
    funext a
    match a with
    | ⟨0, _⟩ => rfl
    | ⟨1, _⟩ => rfl
  rw [ek]
  rfl

/-- The accumulation at `(t, h)`: the previous array plus this expert's weighted output. -/
theorem e2_step (t : Fin 4096) (h : Fin 2048) :
    val_main_v60 (F := Ideal) X0 X1 X2 X3 X4 (ix2 t h)
      = stepE X0 X1 X2 X3 X4 t 2 h (BitVec.ofNat 32 2) (val_main_v40 (F := Ideal) X0 X1 X2 X3 X4 (ix2 t h)) := by
  rw [val_main_v60_apply, val_main_v59_apply, val_main_v56_apply, e2_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v56 (ix2 t h) J = ix2 t J := by
    funext a
    match a with
    | ⟨0, _⟩ => rfl
    | ⟨1, _⟩ => rfl
  have er : ridx_main_v56 (ix2 t h) J = ix2 J h := by
    funext a
    match a with
    | ⟨0, _⟩ => rfl
    | ⟨1, _⟩ => rfl
  rw [el, er, e2_hid, e2_down]

end Cert.Moe
-- ==== Proof.RExp3.lean ====
/-
  Expert 3 of the reference: its stages read at an index are the one-expert step of `RCore` at `e = 3`.

  The projection `x · gate_up[3]ᵀ` at `(t, r)` is `gE t 3 r` (the slice, reshape and transpose only re-index), the
  silu and the product with the up half give `hidE`, the transposed slice of `down[3]` at `(J, h)` is `X4[3, h, J]`,
  the masked sum of the router weights is `wEE t 3`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[3,r,k]`. -/
theorem e3_proj (t : Fin 4096) (r : Fin 11264) : val_main_v68 (F := Ideal) X0 X3 (ix2 t r) = gE X0 X3 t 3 r := by
  rw [val_main_v68_apply]
  unfold gE
  refine Finset.sum_congr rfl fun k _ => ?_
  rw [val_main_v67_apply, val_main_v66_apply, val_main_v65_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 3 + 0 = 3; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e3_hid (t : Fin 4096) (J : Fin 5632) : val_main_v72 (F := Ideal) X0 X3 (ix2 t J) = hidE X0 X3 t 3 J := by
  rw [val_main_v72_apply, val_main_v71_apply, val_main_call7_v5_apply, val_main_call7_v4_apply, val_main_call7_cst_0_apply, val_main_call7_v3_apply, val_main_call7_v2_apply,
    val_main_call7_cst_apply, val_main_call7_v1_apply, val_main_call7_v0_apply, val_main_v69_apply, val_main_v70_apply]
  have e9 : idx_main_v69 (ix2 t J) = ix2 t (⟨J.val, by omega⟩ : Fin 11264) := by
    funext a
    match a with
    | ⟨0, _⟩ => rfl
    | ⟨1, _⟩ => rfl
  have e10 : idx_main_v70 (ix2 t J) = ix2 t (⟨5632 + J.val, by omega⟩ : Fin 11264) := by
    funext a
    match a with
    | ⟨0, _⟩ => rfl
    | ⟨1, _⟩ => rfl
  rw [e9, e10, e3_proj, e3_proj]
  rfl

/-- The transposed slice of the down projection at `(J, h)`. -/
theorem e3_down (J : Fin 5632) (h : Fin 2048) : val_main_v75 (F := Ideal) X4 (ix2 J h) = X4 (ix3 3 h J) := by
  rw [val_main_v75_apply, val_main_v74_apply, val_main_v73_apply]
  refine congrArg X4 ?_
  funext a
  match a with
  | ⟨0, _⟩ => exact Fin.ext (by show 3 + 0 = 3; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e3_weight (t : Fin 4096) (h : Fin 2048) : val_main_v78 (F := Ideal) X1 X2 (ix2 t h) = wEE X1 X2 t (BitVec.ofNat 32 3) := by
  rw [val_main_v78_apply, val_main_v77_apply, val_main_v64_apply]
  unfold wEE
  refine congrArg₂ (· + ·) rfl (Finset.sum_congr rfl fun k _ => ?_)
  rw [val_main_v63_apply, val_main_v62_apply, val_main_v61_apply, val_main_c_8_apply, val_main_call6_v1_apply, val_main_call6_v0_apply, val_main_cst_9_apply]
  have ek : idx_main_v64 (idx_main_v77 (idx_main_v78 (ix2 t h))) k = ix2 t k := by
    funext a
    match a with
    | ⟨0, _⟩ => rfl
    | ⟨1, _⟩ => rfl
  rw [ek]
  rfl

/-- The accumulation at `(t, h)`: the previous array plus this expert's weighted output. -/
theorem e3_step (t : Fin 4096) (h : Fin 2048) :
    val_main_v80 (F := Ideal) X0 X1 X2 X3 X4 (ix2 t h)
      = stepE X0 X1 X2 X3 X4 t 3 h (BitVec.ofNat 32 3) (val_main_v60 (F := Ideal) X0 X1 X2 X3 X4 (ix2 t h)) := by
  rw [val_main_v80_apply, val_main_v79_apply, val_main_v76_apply, e3_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v76 (ix2 t h) J = ix2 t J := by
    funext a
    match a with
    | ⟨0, _⟩ => rfl
    | ⟨1, _⟩ => rfl
  have er : ridx_main_v76 (ix2 t h) J = ix2 J h := by
    funext a
    match a with
    | ⟨0, _⟩ => rfl
    | ⟨1, _⟩ => rfl
  rw [el, er, e3_hid, e3_down]

end Cert.Moe
-- ==== Proof.RExp4.lean ====
/-
  Expert 4 of the reference: its stages read at an index are the one-expert step of `RCore` at `e = 4`.

  The projection `x · gate_up[4]ᵀ` at `(t, r)` is `gE t 4 r` (the slice, reshape and transpose only re-index), the
  silu and the product with the up half give `hidE`, the transposed slice of `down[4]` at `(J, h)` is `X4[4, h, J]`,
  the masked sum of the router weights is `wEE t 4`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[4,r,k]`. -/
theorem e4_proj (t : Fin 4096) (r : Fin 11264) : val_main_v88 (F := Ideal) X0 X3 (ix2 t r) = gE X0 X3 t 4 r := by
  rw [val_main_v88_apply]
  unfold gE
  refine Finset.sum_congr rfl fun k _ => ?_
  rw [val_main_v87_apply, val_main_v86_apply, val_main_v85_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 4 + 0 = 4; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e4_hid (t : Fin 4096) (J : Fin 5632) : val_main_v92 (F := Ideal) X0 X3 (ix2 t J) = hidE X0 X3 t 4 J := by
  rw [val_main_v92_apply, val_main_v91_apply, val_main_call9_v5_apply, val_main_call9_v4_apply, val_main_call9_cst_0_apply, val_main_call9_v3_apply, val_main_call9_v2_apply,
    val_main_call9_cst_apply, val_main_call9_v1_apply, val_main_call9_v0_apply, val_main_v89_apply, val_main_v90_apply]
  have e9 : idx_main_v89 (ix2 t J) = ix2 t (⟨J.val, by omega⟩ : Fin 11264) := by
    funext a
    match a with
    | ⟨0, _⟩ => rfl
    | ⟨1, _⟩ => rfl
  have e10 : idx_main_v90 (ix2 t J) = ix2 t (⟨5632 + J.val, by omega⟩ : Fin 11264) := by
    funext a
    match a with
    | ⟨0, _⟩ => rfl
    | ⟨1, _⟩ => rfl
  rw [e9, e10, e4_proj, e4_proj]
  rfl

/-- The transposed slice of the down projection at `(J, h)`. -/
theorem e4_down (J : Fin 5632) (h : Fin 2048) : val_main_v95 (F := Ideal) X4 (ix2 J h) = X4 (ix3 4 h J) := by
  rw [val_main_v95_apply, val_main_v94_apply, val_main_v93_apply]
  refine congrArg X4 ?_
  funext a
  match a with
  | ⟨0, _⟩ => exact Fin.ext (by show 4 + 0 = 4; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e4_weight (t : Fin 4096) (h : Fin 2048) : val_main_v98 (F := Ideal) X1 X2 (ix2 t h) = wEE X1 X2 t (BitVec.ofNat 32 4) := by
  rw [val_main_v98_apply, val_main_v97_apply, val_main_v84_apply]
  unfold wEE
  refine congrArg₂ (· + ·) rfl (Finset.sum_congr rfl fun k _ => ?_)
  rw [val_main_v83_apply, val_main_v82_apply, val_main_v81_apply, val_main_c_11_apply, val_main_call8_v1_apply, val_main_call8_v0_apply, val_main_cst_12_apply]
  have ek : idx_main_v84 (idx_main_v97 (idx_main_v98 (ix2 t h))) k = ix2 t k := by
    funext a
    match a with
    | ⟨0, _⟩ => rfl
    | ⟨1, _⟩ => rfl
  rw [ek]
  rfl

/-- The accumulation at `(t, h)`: the previous array plus this expert's weighted output. -/
theorem e4_step (t : Fin 4096) (h : Fin 2048) :
    val_main_v100 (F := Ideal) X0 X1 X2 X3 X4 (ix2 t h)
      = stepE X0 X1 X2 X3 X4 t 4 h (BitVec.ofNat 32 4) (val_main_v80 (F := Ideal) X0 X1 X2 X3 X4 (ix2 t h)) := by
  rw [val_main_v100_apply, val_main_v99_apply, val_main_v96_apply, e4_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v96 (ix2 t h) J = ix2 t J := by
    funext a
    match a with
    | ⟨0, _⟩ => rfl
    | ⟨1, _⟩ => rfl
  have er : ridx_main_v96 (ix2 t h) J = ix2 J h := by
    funext a
    match a with
    | ⟨0, _⟩ => rfl
    | ⟨1, _⟩ => rfl
  rw [el, er, e4_hid, e4_down]

end Cert.Moe
-- ==== Proof.RExp5.lean ====
/-
  Expert 5 of the reference: its stages read at an index are the one-expert step of `RCore` at `e = 5`.

  The projection `x · gate_up[5]ᵀ` at `(t, r)` is `gE t 5 r` (the slice, reshape and transpose only re-index), the
  silu and the product with the up half give `hidE`, the transposed slice of `down[5]` at `(J, h)` is `X4[5, h, J]`,
  the masked sum of the router weights is `wEE t 5`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[5,r,k]`. -/
theorem e5_proj (t : Fin 4096) (r : Fin 11264) : val_main_v108 (F := Ideal) X0 X3 (ix2 t r) = gE X0 X3 t 5 r := by
  rw [val_main_v108_apply]
  unfold gE
  refine Finset.sum_congr rfl fun k _ => ?_
  rw [val_main_v107_apply, val_main_v106_apply, val_main_v105_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 5 + 0 = 5; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e5_hid (t : Fin 4096) (J : Fin 5632) : val_main_v112 (F := Ideal) X0 X3 (ix2 t J) = hidE X0 X3 t 5 J := by
  rw [val_main_v112_apply, val_main_v111_apply, val_main_call11_v5_apply, val_main_call11_v4_apply, val_main_call11_cst_0_apply, val_main_call11_v3_apply, val_main_call11_v2_apply,
    val_main_call11_cst_apply, val_main_call11_v1_apply, val_main_call11_v0_apply, val_main_v109_apply, val_main_v110_apply]
  have e9 : idx_main_v109 (ix2 t J) = ix2 t (⟨J.val, by omega⟩ : Fin 11264) := by
    funext a
    match a with
    | ⟨0, _⟩ => rfl
    | ⟨1, _⟩ => rfl
  have e10 : idx_main_v110 (ix2 t J) = ix2 t (⟨5632 + J.val, by omega⟩ : Fin 11264) := by
    funext a
    match a with
    | ⟨0, _⟩ => rfl
    | ⟨1, _⟩ => rfl
  rw [e9, e10, e5_proj, e5_proj]
  rfl

/-- The transposed slice of the down projection at `(J, h)`. -/
theorem e5_down (J : Fin 5632) (h : Fin 2048) : val_main_v115 (F := Ideal) X4 (ix2 J h) = X4 (ix3 5 h J) := by
  rw [val_main_v115_apply, val_main_v114_apply, val_main_v113_apply]
  refine congrArg X4 ?_
  funext a
  match a with
  | ⟨0, _⟩ => exact Fin.ext (by show 5 + 0 = 5; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e5_weight (t : Fin 4096) (h : Fin 2048) : val_main_v118 (F := Ideal) X1 X2 (ix2 t h) = wEE X1 X2 t (BitVec.ofNat 32 5) := by
  rw [val_main_v118_apply, val_main_v117_apply, val_main_v104_apply]
  unfold wEE
  refine congrArg₂ (· + ·) rfl (Finset.sum_congr rfl fun k _ => ?_)
  rw [val_main_v103_apply, val_main_v102_apply, val_main_v101_apply, val_main_c_14_apply, val_main_call10_v1_apply, val_main_call10_v0_apply, val_main_cst_15_apply]
  have ek : idx_main_v104 (idx_main_v117 (idx_main_v118 (ix2 t h))) k = ix2 t k := by
    funext a
    match a with
    | ⟨0, _⟩ => rfl
    | ⟨1, _⟩ => rfl
  rw [ek]
  rfl

/-- The accumulation at `(t, h)`: the previous array plus this expert's weighted output. -/
theorem e5_step (t : Fin 4096) (h : Fin 2048) :
    val_main_v120 (F := Ideal) X0 X1 X2 X3 X4 (ix2 t h)
      = stepE X0 X1 X2 X3 X4 t 5 h (BitVec.ofNat 32 5) (val_main_v100 (F := Ideal) X0 X1 X2 X3 X4 (ix2 t h)) := by
  rw [val_main_v120_apply, val_main_v119_apply, val_main_v116_apply, e5_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v116 (ix2 t h) J = ix2 t J := by
    funext a
    match a with
    | ⟨0, _⟩ => rfl
    | ⟨1, _⟩ => rfl
  have er : ridx_main_v116 (ix2 t h) J = ix2 J h := by
    funext a
    match a with
    | ⟨0, _⟩ => rfl
    | ⟨1, _⟩ => rfl
  rw [el, er, e5_hid, e5_down]

end Cert.Moe
-- ==== Proof.RExp6.lean ====
/-
  Expert 6 of the reference: its stages read at an index are the one-expert step of `RCore` at `e = 6`.

  The projection `x · gate_up[6]ᵀ` at `(t, r)` is `gE t 6 r` (the slice, reshape and transpose only re-index), the
  silu and the product with the up half give `hidE`, the transposed slice of `down[6]` at `(J, h)` is `X4[6, h, J]`,
  the masked sum of the router weights is `wEE t 6`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[6,r,k]`. -/
theorem e6_proj (t : Fin 4096) (r : Fin 11264) : val_main_v128 (F := Ideal) X0 X3 (ix2 t r) = gE X0 X3 t 6 r := by
  rw [val_main_v128_apply]
  unfold gE
  refine Finset.sum_congr rfl fun k _ => ?_
  rw [val_main_v127_apply, val_main_v126_apply, val_main_v125_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 6 + 0 = 6; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e6_hid (t : Fin 4096) (J : Fin 5632) : val_main_v132 (F := Ideal) X0 X3 (ix2 t J) = hidE X0 X3 t 6 J := by
  rw [val_main_v132_apply, val_main_v131_apply, val_main_call13_v5_apply, val_main_call13_v4_apply, val_main_call13_cst_0_apply, val_main_call13_v3_apply, val_main_call13_v2_apply,
    val_main_call13_cst_apply, val_main_call13_v1_apply, val_main_call13_v0_apply, val_main_v129_apply, val_main_v130_apply]
  have e9 : idx_main_v129 (ix2 t J) = ix2 t (⟨J.val, by omega⟩ : Fin 11264) := by
    funext a
    match a with
    | ⟨0, _⟩ => rfl
    | ⟨1, _⟩ => rfl
  have e10 : idx_main_v130 (ix2 t J) = ix2 t (⟨5632 + J.val, by omega⟩ : Fin 11264) := by
    funext a
    match a with
    | ⟨0, _⟩ => rfl
    | ⟨1, _⟩ => rfl
  rw [e9, e10, e6_proj, e6_proj]
  rfl

/-- The transposed slice of the down projection at `(J, h)`. -/
theorem e6_down (J : Fin 5632) (h : Fin 2048) : val_main_v135 (F := Ideal) X4 (ix2 J h) = X4 (ix3 6 h J) := by
  rw [val_main_v135_apply, val_main_v134_apply, val_main_v133_apply]
  refine congrArg X4 ?_
  funext a
  match a with
  | ⟨0, _⟩ => exact Fin.ext (by show 6 + 0 = 6; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e6_weight (t : Fin 4096) (h : Fin 2048) : val_main_v138 (F := Ideal) X1 X2 (ix2 t h) = wEE X1 X2 t (BitVec.ofNat 32 6) := by
  rw [val_main_v138_apply, val_main_v137_apply, val_main_v124_apply]
  unfold wEE
  refine congrArg₂ (· + ·) rfl (Finset.sum_congr rfl fun k _ => ?_)
  rw [val_main_v123_apply, val_main_v122_apply, val_main_v121_apply, val_main_c_17_apply, val_main_call12_v1_apply, val_main_call12_v0_apply, val_main_cst_18_apply]
  have ek : idx_main_v124 (idx_main_v137 (idx_main_v138 (ix2 t h))) k = ix2 t k := by
    funext a
    match a with
    | ⟨0, _⟩ => rfl
    | ⟨1, _⟩ => rfl
  rw [ek]
  rfl

/-- The accumulation at `(t, h)`: the previous array plus this expert's weighted output. -/
theorem e6_step (t : Fin 4096) (h : Fin 2048) :
    val_main_v140 (F := Ideal) X0 X1 X2 X3 X4 (ix2 t h)
      = stepE X0 X1 X2 X3 X4 t 6 h (BitVec.ofNat 32 6) (val_main_v120 (F := Ideal) X0 X1 X2 X3 X4 (ix2 t h)) := by
  rw [val_main_v140_apply, val_main_v139_apply, val_main_v136_apply, e6_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v136 (ix2 t h) J = ix2 t J := by
    funext a
    match a with
    | ⟨0, _⟩ => rfl
    | ⟨1, _⟩ => rfl
  have er : ridx_main_v136 (ix2 t h) J = ix2 J h := by
    funext a
    match a with
    | ⟨0, _⟩ => rfl
    | ⟨1, _⟩ => rfl
  rw [el, er, e6_hid, e6_down]

end Cert.Moe
-- ==== Proof.RExp7.lean ====
/-
  Expert 7 of the reference: its stages read at an index are the one-expert step of `RCore` at `e = 7`.

  The projection `x · gate_up[7]ᵀ` at `(t, r)` is `gE t 7 r` (the slice, reshape and transpose only re-index), the
  silu and the product with the up half give `hidE`, the transposed slice of `down[7]` at `(J, h)` is `X4[7, h, J]`,
  the masked sum of the router weights is `wEE t 7`, and the accumulation is `stepE`.
-/
import proofs.«100299_j31928786879171_1_alg».proof.Proof.RReadP
import proofs.«100299_j31928786879171_1_alg».proof.Proof.RCore

namespace Cert.Moe

open Idealize.ShloMosaic Idealize.ShloMosaic.ValueIdx Cert.ReferenceIdeal Cert.ReferenceIdeal.Gen Cert.ReferenceIdeal.ReadP

variable (X0 : (⟨2, ![4096, 2048]⟩ : Shape).Idx → EReal) (X1 : (⟨2, ![4096, 2]⟩ : Shape).Idx → BitVec 32)
  (X2 : (⟨2, ![4096, 2]⟩ : Shape).Idx → EReal) (X3 : (⟨3, ![8, 11264, 2048]⟩ : Shape).Idx → EReal)
  (X4 : (⟨3, ![8, 2048, 5632]⟩ : Shape).Idx → EReal)

/-- The projection at `(t, r)`: the contraction over `k` of `X0[t,k] · X3[7,r,k]`. -/
theorem e7_proj (t : Fin 4096) (r : Fin 11264) : val_main_v148 (F := Ideal) X0 X3 (ix2 t r) = gE X0 X3 t 7 r := by
  rw [val_main_v148_apply]
  unfold gE
  refine Finset.sum_congr rfl fun k _ => ?_
  rw [val_main_v147_apply, val_main_v146_apply, val_main_v145_apply]
  refine congrArg₂ (· * ·) (congrArg X0 ?_) (congrArg X3 ?_)
  · funext a
    match a with
    | ⟨0, _⟩ => rfl
    | ⟨1, _⟩ => rfl
  · funext a
    match a with
    | ⟨0, _⟩ => exact Fin.ext (by show 7 + 0 = 7; omega)
    | ⟨1, _⟩ => exact Fin.ext (by show (r.val * 2048 + k.val) / 2048 % 11264 = r.val; have := r.isLt; have := k.isLt; omega)
    | ⟨2, _⟩ => exact Fin.ext (by show (r.val * 2048 + k.val) % 2048 = k.val; have := k.isLt; omega)

/-- The hidden activation at `(t, J)`. -/
theorem e7_hid (t : Fin 4096) (J : Fin 5632) : val_main_v152 (F := Ideal) X0 X3 (ix2 t J) = hidE X0 X3 t 7 J := by
  rw [val_main_v152_apply, val_main_v151_apply, val_main_call15_v5_apply, val_main_call15_v4_apply, val_main_call15_cst_0_apply, val_main_call15_v3_apply, val_main_call15_v2_apply,
    val_main_call15_cst_apply, val_main_call15_v1_apply, val_main_call15_v0_apply, val_main_v149_apply, val_main_v150_apply]
  have e9 : idx_main_v149 (ix2 t J) = ix2 t (⟨J.val, by omega⟩ : Fin 11264) := by
    funext a
    match a with
    | ⟨0, _⟩ => rfl
    | ⟨1, _⟩ => rfl
  have e10 : idx_main_v150 (ix2 t J) = ix2 t (⟨5632 + J.val, by omega⟩ : Fin 11264) := by
    funext a
    match a with
    | ⟨0, _⟩ => rfl
    | ⟨1, _⟩ => rfl
  rw [e9, e10, e7_proj, e7_proj]
  rfl

/-- The transposed slice of the down projection at `(J, h)`. -/
theorem e7_down (J : Fin 5632) (h : Fin 2048) : val_main_v155 (F := Ideal) X4 (ix2 J h) = X4 (ix3 7 h J) := by
  rw [val_main_v155_apply, val_main_v154_apply, val_main_v153_apply]
  refine congrArg X4 ?_
  funext a
  match a with
  | ⟨0, _⟩ => exact Fin.ext (by show 7 + 0 = 7; omega)
  | ⟨1, _⟩ => exact Fin.ext (by show (h.val * 5632 + J.val) / 5632 % 2048 = h.val; have := h.isLt; have := J.isLt; omega)
  | ⟨2, _⟩ => exact Fin.ext (by show (h.val * 5632 + J.val) % 5632 = J.val; have := J.isLt; omega)

/-- The routing weight broadcast along the row, at `(t, h)`. -/
theorem e7_weight (t : Fin 4096) (h : Fin 2048) : val_main_v158 (F := Ideal) X1 X2 (ix2 t h) = wEE X1 X2 t (BitVec.ofNat 32 7) := by
  rw [val_main_v158_apply, val_main_v157_apply, val_main_v144_apply]
  unfold wEE
  refine congrArg₂ (· + ·) rfl (Finset.sum_congr rfl fun k _ => ?_)
  rw [val_main_v143_apply, val_main_v142_apply, val_main_v141_apply, val_main_c_20_apply, val_main_call14_v1_apply, val_main_call14_v0_apply, val_main_cst_21_apply]
  have ek : idx_main_v144 (idx_main_v157 (idx_main_v158 (ix2 t h))) k = ix2 t k := by
    funext a
    match a with
    | ⟨0, _⟩ => rfl
    | ⟨1, _⟩ => rfl
  rw [ek]
  rfl

/-- The accumulation at `(t, h)`: the previous array plus this expert's weighted output. -/
theorem e7_step (t : Fin 4096) (h : Fin 2048) :
    val_main_v160 (F := Ideal) X0 X1 X2 X3 X4 (ix2 t h)
      = stepE X0 X1 X2 X3 X4 t 7 h (BitVec.ofNat 32 7) (val_main_v140 (F := Ideal) X0 X1 X2 X3 X4 (ix2 t h)) := by
  rw [val_main_v160_apply, val_main_v159_apply, val_main_v156_apply, e7_weight]
  unfold stepE
  refine congrArg₂ (FloatOps.addf (F := Ideal) (φ := .f32)) rfl (congrArg₂ (FloatOps.mulf (F := Ideal) (φ := .f32)) ?_ rfl)
  refine Finset.sum_congr rfl fun J _ => ?_
  have el : lidx_main_v156 (ix2 t h) J = ix2 t J := by
    funext a
    match a with
    | ⟨0, _⟩ => rfl
    | ⟨1, _⟩ => rfl
  have er : ridx_main_v156 (ix2 t h) J = ix2 J h := by
    funext a
    match a with
    | ⟨0, _⟩ => rfl
    | ⟨1, _⟩ => rfl
  rw [el, er, e7_hid, e7_down]

end Cert.Moe
-- ==== Proof.RRefValue.lean ====
/-
  The reference program's result is `G`.

  The reference adds the eight experts' weighted outputs one after the other to the zero array.  At an index `(t, h)`
  each addition is the one-expert step of `RCore` (modules `RExp0` … `RExp7`), so for argument arrays of real numbers
  the result is the coercion of `Σ_e yE t e h · wE t e = outR t h`, which is `G` at `(t, h)`.
-/
import proofs.«100299_j31928786879171_1_alg».proof.Proof.RExp0
import proofs.«100299_j31928786879171_1_alg».proof.Proof.RExp1
import proofs.«100299_j31928786879171_1_alg».proof.Proof.RExp2
import proofs.«100299_j31928786879171_1_alg».proof.Proof.RExp3
import proofs.«100299_j31928786879171_1_alg».proof.Proof.RExp4
import proofs.«100299_j31928786879171_1_alg».proof.Proof.RExp5
import proofs.«100299_j31928786879171_1_alg».proof.Proof.RExp6
import proofs.«100299_j31928786879171_1_alg».proof.Proof.RExp7

namespace Cert.Moe

open Idealize.ShloMosaic Idealize.ShloMosaic.ValueIdx Idealize.ShloMosaic.TcCoe Idealize.SL.Sem Cert.ReferenceIdeal Cert.ReferenceIdeal.Gen Cert.ReferenceIdeal.ReadP

variable {X0 : (⟨2, ![4096, 2048]⟩ : Shape).Idx → EReal} {X1 : (⟨2, ![4096, 2]⟩ : Shape).Idx → BitVec 32}
  {X2 : (⟨2, ![4096, 2]⟩ : Shape).Idx → EReal} {X3 : (⟨3, ![8, 11264, 2048]⟩ : Shape).Idx → EReal}
  {X4 : (⟨3, ![8, 2048, 5632]⟩ : Shape).Idx → EReal}

/-- The reference's result at `(t, h)`: eight steps from the zero array. -/
theorem ref_val_ix (h0 : ∀ i, X0 i = (((X0 i).toReal : ℝ) : EReal)) (h2 : ∀ i, X2 i = (((X2 i).toReal : ℝ) : EReal))
    (h3 : ∀ i, X3 i = (((X3 i).toReal : ℝ) : EReal)) (h4 : ∀ i, X4 i = (((X4 i).toReal : ℝ) : EReal))
    (t : Fin 4096) (h : Fin 2048) :
    val_main_v160 (F := Ideal) X0 X1 X2 X3 X4 (ix2 t h) = G X0 X1 X2 X3 X4 (ix2 t h) := by
  have hz : val_main_v0 (F := Ideal) (ix2 t h) = ((0 : ℝ) : EReal) := by
    rw [val_main_v0_apply, val_main_cst_apply]
    exact Ideal.ofBits_zero_f32
  have s0 : val_main_v20 (F := Ideal) X0 X1 X2 X3 X4 (ix2 t h) = (((0 + yE (xR X0) (guR X3) (dnR X4) t 0 h * wE (selR X1) (rwR X2) t 0) : ℝ) : EReal) :=
    (e0_step X0 X1 X2 X3 X4 t h).trans (stepE_real h0 h2 h3 h4 t 0 h _ 0 hz)
  have s1 : val_main_v40 (F := Ideal) X0 X1 X2 X3 X4 (ix2 t h) = ((((0 + yE (xR X0) (guR X3) (dnR X4) t 0 h * wE (selR X1) (rwR X2) t 0) + yE (xR X0) (guR X3) (dnR X4) t 1 h * wE (selR X1) (rwR X2) t 1) : ℝ) : EReal) :=
    (e1_step X0 X1 X2 X3 X4 t h).trans (stepE_real h0 h2 h3 h4 t 1 h _ _ s0)
  have s2 : val_main_v60 (F := Ideal) X0 X1 X2 X3 X4 (ix2 t h) = (((((0 + yE (xR X0) (guR X3) (dnR X4) t 0 h * wE (selR X1) (rwR X2) t 0) + yE (xR X0) (guR X3) (dnR X4) t 1 h * wE (selR X1) (rwR X2) t 1) + yE (xR X0) (guR X3) (dnR X4) t 2 h * wE (selR X1) (rwR X2) t 2) : ℝ) : EReal) :=
    (e2_step X0 X1 X2 X3 X4 t h).trans (stepE_real h0 h2 h3 h4 t 2 h _ _ s1)
  have s3 : val_main_v80 (F := Ideal) X0 X1 X2 X3 X4 (ix2 t h) = ((((((0 + yE (xR X0) (guR X3) (dnR X4) t 0 h * wE (selR X1) (rwR X2) t 0) + yE (xR X0) (guR X3) (dnR X4) t 1 h * wE (selR X1) (rwR X2) t 1) + yE (xR X0) (guR X3) (dnR X4) t 2 h * wE (selR X1) (rwR X2) t 2) + yE (xR X0) (guR X3) (dnR X4) t 3 h * wE (selR X1) (rwR X2) t 3) : ℝ) : EReal) :=
    (e3_step X0 X1 X2 X3 X4 t h).trans (stepE_real h0 h2 h3 h4 t 3 h _ _ s2)
  have s4 : val_main_v100 (F := Ideal) X0 X1 X2 X3 X4 (ix2 t h) = (((((((0 + yE (xR X0) (guR X3) (dnR X4) t 0 h * wE (selR X1) (rwR X2) t 0) + yE (xR X0) (guR X3) (dnR X4) t 1 h * wE (selR X1) (rwR X2) t 1) + yE (xR X0) (guR X3) (dnR X4) t 2 h * wE (selR X1) (rwR X2) t 2) + yE (xR X0) (guR X3) (dnR X4) t 3 h * wE (selR X1) (rwR X2) t 3) + yE (xR X0) (guR X3) (dnR X4) t 4 h * wE (selR X1) (rwR X2) t 4) : ℝ) : EReal) :=
    (e4_step X0 X1 X2 X3 X4 t h).trans (stepE_real h0 h2 h3 h4 t 4 h _ _ s3)
  have s5 : val_main_v120 (F := Ideal) X0 X1 X2 X3 X4 (ix2 t h) = ((((((((0 + yE (xR X0) (guR X3) (dnR X4) t 0 h * wE (selR X1) (rwR X2) t 0) + yE (xR X0) (guR X3) (dnR X4) t 1 h * wE (selR X1) (rwR X2) t 1) + yE (xR X0) (guR X3) (dnR X4) t 2 h * wE (selR X1) (rwR X2) t 2) + yE (xR X0) (guR X3) (dnR X4) t 3 h * wE (selR X1) (rwR X2) t 3) + yE (xR X0) (guR X3) (dnR X4) t 4 h * wE (selR X1) (rwR X2) t 4) + yE (xR X0) (guR X3) (dnR X4) t 5 h * wE (selR X1) (rwR X2) t 5) : ℝ) : EReal) :=
    (e5_step X0 X1 X2 X3 X4 t h).trans (stepE_real h0 h2 h3 h4 t 5 h _ _ s4)
  have s6 : val_main_v140 (F := Ideal) X0 X1 X2 X3 X4 (ix2 t h) = (((((((((0 + yE (xR X0) (guR X3) (dnR X4) t 0 h * wE (selR X1) (rwR X2) t 0) + yE (xR X0) (guR X3) (dnR X4) t 1 h * wE (selR X1) (rwR X2) t 1) + yE (xR X0) (guR X3) (dnR X4) t 2 h * wE (selR X1) (rwR X2) t 2) + yE (xR X0) (guR X3) (dnR X4) t 3 h * wE (selR X1) (rwR X2) t 3) + yE (xR X0) (guR X3) (dnR X4) t 4 h * wE (selR X1) (rwR X2) t 4) + yE (xR X0) (guR X3) (dnR X4) t 5 h * wE (selR X1) (rwR X2) t 5) + yE (xR X0) (guR X3) (dnR X4) t 6 h * wE (selR X1) (rwR X2) t 6) : ℝ) : EReal) :=
    (e6_step X0 X1 X2 X3 X4 t h).trans (stepE_real h0 h2 h3 h4 t 6 h _ _ s5)
  have s7 : val_main_v160 (F := Ideal) X0 X1 X2 X3 X4 (ix2 t h) = ((((((((((0 + yE (xR X0) (guR X3) (dnR X4) t 0 h * wE (selR X1) (rwR X2) t 0) + yE (xR X0) (guR X3) (dnR X4) t 1 h * wE (selR X1) (rwR X2) t 1) + yE (xR X0) (guR X3) (dnR X4) t 2 h * wE (selR X1) (rwR X2) t 2) + yE (xR X0) (guR X3) (dnR X4) t 3 h * wE (selR X1) (rwR X2) t 3) + yE (xR X0) (guR X3) (dnR X4) t 4 h * wE (selR X1) (rwR X2) t 4) + yE (xR X0) (guR X3) (dnR X4) t 5 h * wE (selR X1) (rwR X2) t 5) + yE (xR X0) (guR X3) (dnR X4) t 6 h * wE (selR X1) (rwR X2) t 6) + yE (xR X0) (guR X3) (dnR X4) t 7 h * wE (selR X1) (rwR X2) t 7) : ℝ) : EReal) :=
    (e7_step X0 X1 X2 X3 X4 t h).trans (stepE_real h0 h2 h3 h4 t 7 h _ _ s6)
  rw [G_ix2]
  exact s7.trans (congrArg (fun r : ℝ => (r : EReal)) (eight_steps _ _ _ _ _ t h))

/-- The reference's result array is `G` of the argument arrays, when every float entry is a real number. -/
theorem ref_val (X0 : (⟨2, ![4096, 2048]⟩ : Shape).Idx → EReal) (X1 : (⟨2, ![4096, 2]⟩ : Shape).Idx → BitVec 32)
    (X2 : (⟨2, ![4096, 2]⟩ : Shape).Idx → EReal) (X3 : (⟨3, ![8, 11264, 2048]⟩ : Shape).Idx → EReal)
    (X4 : (⟨3, ![8, 2048, 5632]⟩ : Shape).Idx → EReal)
    (h0 : ∀ i, X0 i = (((X0 i).toReal : ℝ) : EReal)) (h2 : ∀ i, X2 i = (((X2 i).toReal : ℝ) : EReal))
    (h3 : ∀ i, X3 i = (((X3 i).toReal : ℝ) : EReal)) (h4 : ∀ i, X4 i = (((X4 i).toReal : ℝ) : EReal)) :
    val_main_v160 (F := Ideal) X0 X1 X2 X3 X4 = G X0 X1 X2 X3 X4 := by
  funext j
  have hj := eq_ix2 j
  exact (congrArg (val_main_v160 (F := Ideal) X0 X1 X2 X3 X4) hj).trans
    ((ref_val_ix h0 h2 h3 h4 (j 0) (j 1)).trans (congrArg (G X0 X1 X2 X3 X4) hj).symm)

end Cert.Moe
-- ==== Proof.RRefRun.lean ====
/-
  The reference's run ends at `G`.

  Every weakly fair execution of the reference ends with its result buffer at the last stage function of the argument
  buffers (`ref_run`), and for argument buffers whose float entries are real numbers that stage is `G` of them
  (`ref_val`).
-/
import proofs.«100299_j31928786879171_1_alg».proof.Proof.RRun
import proofs.«100299_j31928786879171_1_alg».proof.Proof.RRefValue

noncomputable section

namespace Cert.Moe

open Cert.ReferenceIdeal Cert.ReferenceIdeal.Gen Idealize.ShloMosaic Idealize.ShloMosaic.TcCoe Idealize.SL.Sem Cert.ReferenceIdeal.ReadP

/-- The reference's run for memories whose float argument entries are real numbers: the result buffer is `G` of the
    argument buffers, which are unchanged. -/
theorem ref_run_G (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ c : Dev nD, (∀ i, (m' ((c.tc : Thread nD τ).loc main_arg0) : S4096x2048.Idx → EReal) i = ((((m' ((c.tc : Thread nD τ).loc main_arg0) : S4096x2048.Idx → EReal) i).toReal : ℝ) : EReal))
      ∧ (∀ i, (m' ((c.tc : Thread nD τ).loc main_arg2) : S4096x2.Idx → EReal) i = ((((m' ((c.tc : Thread nD τ).loc main_arg2) : S4096x2.Idx → EReal) i).toReal : ℝ) : EReal))
      ∧ (∀ i, (m' ((c.tc : Thread nD τ).loc main_arg3) : S8x11264x2048.Idx → EReal) i = ((((m' ((c.tc : Thread nD τ).loc main_arg3) : S8x11264x2048.Idx → EReal) i).toReal : ℝ) : EReal))
      ∧ (∀ i, (m' ((c.tc : Thread nD τ).loc main_arg4) : S8x2048x5632.Idx → EReal) i = ((((m' ((c.tc : Thread nD τ).loc main_arg4) : S8x2048x5632.Idx → EReal) i).toReal : ℝ) : EReal))) :
    θ_run (Cert.ReferenceIdeal.defs (F := Ideal)) (onTc (τ := Cert.ReferenceIdeal.τ) (Cert.ReferenceIdeal.main (F := Ideal)))
      ⟨m', fun _ => 0, ρ'⟩ fun r => ∀ c : Dev nD,
      r.2.mem ((c.tc : Thread nD τ).loc main_v160) = G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run _ _ _).mono (fun _ h c =>
      ⟨(h c).1.trans (ref_val _ _ _ _ _ (hreal c).1 (hreal c).2.1 (hreal c).2.2.1 (hreal c).2.2.2), (h c).2⟩)
    (ref_run m' ρ')

end Cert.Moe

end
-- ==== Proof.lean ====
/-
  A mixture-of-experts layer: every token's hidden state goes through each expert's gated feed-forward network
  (gate and up projections, `silu(gate) · up`, down projection), and the experts' outputs are summed with the
  token's routing weights (the router weight of each slot that selected the expert). The kernel walks a grid of
  8 token tiles × 8 experts × 44 tiles of the 5632 intermediate columns, adding each tile's weighted partial
  product into an accumulator that it writes out after a token tile's last position; the reference computes
  expert by expert over the whole arrays.

  Both results are the same function `Cert.Moe.G` of the five argument arrays (Proof/Spec.lean) when every float
  input is finite: the kernel weights each partial product before adding and the reference after, and moving the
  weight across the sum needs the summands to be real numbers, so every value on the way is read over the reals.
    * the three frames: the kernel's run over its grid (Proof/IdealFrameBase … IdealLaunch, and the same text at the
      word-level instance, Proof/BitsFrameBase … BitsLaunch): two of the region's windows read one array, whose
      ownership is dealt between them by halves; the reference's run, eight experts one after the other (Proof/RRun);
    * the kernel's value: the accumulator after position p of a token tile holds the first p + 1 contributions
      (Proof/IdealValue over Proof/K*.lean, Proof/SSum.lean);
    * the reference's value (Proof/RRefValue over Proof/RExp0 … RExp7, Proof/RCore);
    * finiteness of the inputs from the precondition (Proof/RFinite).
-/
import proofs.«100299_j31928786879171_1_alg».proof.Defs
import proofs.«100299_j31928786879171_1_alg».proof.Proof.Gen.Kernel
import proofs.«100299_j31928786879171_1_alg».proof.Proof.Gen.KernelIdeal
import proofs.«100299_j31928786879171_1_alg».proof.Proof.Gen.ReferenceIdeal
import proofs.«100299_j31928786879171_1_alg».proof.Proof.Gen.Pre_finite_inputs
import proofs.«100299_j31928786879171_1_alg».proof.Proof.BitsLaunch
import proofs.«100299_j31928786879171_1_alg».proof.Proof.IdealLaunch
import proofs.«100299_j31928786879171_1_alg».proof.Proof.IdealValue
import proofs.«100299_j31928786879171_1_alg».proof.Proof.RFinite
import proofs.«100299_j31928786879171_1_alg».proof.Proof.RRefRun
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.Moe.ref_run m ρ)

/-- From memories agreeing on the arguments, with finite float inputs, both programs end with the layer's output. -/
theorem algebraic : Cert.algebraic_KernelIdeal_ReferenceIdeal := by
  intro m ρ m' ρ' hpre hagree
  refine ⟨fun c => Cert.Moe.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Hand.run_args m ρ)
    obtain ⟨h0, h2, h3, h4⟩ := Cert.Moe.real_of_pre _ _ _ _ _ (hpre c)
    exact Cert.Moe.KV.kernel_value m c ⟨h0, h2, h3, h4⟩
  · refine (θ_run Cert.ReferenceIdeal.defs _ _).mono (fun r h c => ⟨(h c).1.trans ?_, (h c).2⟩) (Cert.Moe.ref_run m' ρ')
    obtain ⟨h0, h2, h3, h4⟩ := Cert.Moe.real_of_pre _ _ _ _ _ (hpre c)
    rw [(hagree c).1, (hagree c).2.1, (hagree c).2.2.1, (hagree c).2.2.2.1, (hagree c).2.2.2.2]
    exact Cert.Moe.ref_val _ _ _ _ _ h0 h2 h3 h4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
